-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x262144 : Shape := ⟨2, ![2, 262144]⟩
abbrev S256x256 : Shape := ⟨2, ![256, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_

variable [Facts]

def fn_part6 {F : FTy → Type} [FloatOps F] (main_arg22 : FVec F S256 .f32) (main_v98 : IVec S_ 1) (main_v101 : IVec S512x256 1) (main_c_39 : IVec S_ 1) : IVec S_ 1 :=
  let main_v102 : IVec S_ 1 := (fun x v => Host.reduce IntOp.andi x v reducesTo_S512x256_S_d0_1 h_S_) main_v101 main_c_39
  let main_v103 : IVec S_ 1 := andi main_v98 main_v102
  let main_v104 : FVec F S256 .f32 := Host.absf main_arg22
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  main_v108

def fn_part5 {F : FTy → Type} [FloatOps F] (main_arg19 : FVec F S256x512 .f32) (main_arg20 : FVec F S512 .f32) (main_arg21 : FVec F S512x256 .f32) (main_arg22 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x512 .f32 := Host.absf main_arg19
  let main_cst_34 : FVec F S_ .f32 := constant S_ .f32 0x7F800000#32
  let main_v90 : FVec F S256x512 .f32 := broadcastInDim S256x512 ![] bcast_S_S256x512 main_cst_34
  let main_v91 : IVec S256x512 1 := cmpf .olt main_v89 main_v90
  let main_c_35 : IVec S_ 1 := constantI S_ 1 1#1
  let main_v92 : IVec S_ 1 := (fun x v => Host.reduce IntOp.andi x v reducesTo_S256x512_S_d0_1 h_S_) main_v91 main_c_35
  let main_v93 : IVec S_ 1 := andi main_v88 main_v92
  let main_v94 : FVec F S512 .f32 := Host.absf main_arg20
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512x256 .f32 := Host.absf main_arg21
  let main_cst_38 : FVec F S_ .f32 := constant S_ .f32 0x7F800000#32
  let main_v100 : FVec F S512x256 .f32 := broadcastInDim S512x256 ![] bcast_S_S512x256 main_cst_38
  let main_v101 : IVec S512x256 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S256 .f32) (main_arg16 : FVec F S256 .f32) (main_arg17 : FVec F S256 .f32) (main_arg18 : FVec F S256 .f32) (main_arg19 : FVec F S256x512 .f32) (main_arg20 : FVec F S512 .f32) (main_arg21 : FVec F S512x256 .f32) (main_arg22 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S256x256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256x512 .f32) (main_arg20 : FVec F S512 .f32) (main_arg21 : FVec F S512x256 .f32) (main_arg22 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256x512 .f32) (main_arg20 : FVec F S512 .f32) (main_arg21 : FVec F S512x256 .f32) (main_arg22 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256x512 .f32) (main_arg20 : FVec F S512 .f32) (main_arg21 : FVec F S512x256 .f32) (main_arg22 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S8192x256 .f32) (main_arg1 : IVec S2x262144 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256x512 .f32) (main_arg20 : FVec F S512 .f32) (main_arg21 : FVec F S512x256 .f32) (main_arg22 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S8192x256 : Shape := ⟨2, ![8192, 256]⟩
abbrev S2x262144 : Shape := ⟨2, ![2, 262144]⟩
abbrev S256x256 : Shape := ⟨2, ![256, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x256 : Shape := ⟨2, ![270336, 256]⟩
abbrev S1x256 : Shape := ⟨2, ![1, 256]⟩
abbrev S1024x256 : Shape := ⟨2, ![1024, 256]⟩
abbrev S1024 : Shape := ⟨1, ![1024]⟩
abbrev S1024x1 : Shape := ⟨2, ![1024, 1]⟩
abbrev S1x512 : Shape := ⟨2, ![1, 512]⟩
abbrev S128x256 : Shape := ⟨2, ![128, 256]⟩
abbrev S128x8192 : Shape := ⟨2, ![128, 8192]⟩
abbrev S128 : Shape := ⟨1, ![128]⟩
abbrev S128x1 : Shape := ⟨2, ![128, 1]⟩
abbrev S128x512 : Shape := ⟨2, ![128, 512]⟩

abbrev nBuf : Space → Nat
  | .hbm => 104
  | .vmem => 39
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256x512, .f32⟩
  | .hbm, ⟨20, _⟩ => ⟨S512, .f32⟩
  | .hbm, ⟨21, _⟩ => ⟨S512x256, .f32⟩
  | .hbm, ⟨22, _⟩ => ⟨S256, .f32⟩
  | .hbm, ⟨23, _⟩ => ⟨S8192, .i32⟩
  | .hbm, ⟨24, _⟩ => ⟨S1x262144, .i32⟩
  | .hbm, ⟨25, _⟩ => ⟨S262144, .i32⟩
  | .hbm, ⟨26, _⟩ => ⟨S270336, .i32⟩
  | .hbm, ⟨27, _⟩ => ⟨S1x262144, .i32⟩
  | .hbm, ⟨28, _⟩ => ⟨S262144, .i32⟩
  | .hbm, ⟨29, _⟩ => ⟨S270336, .i32⟩
  | .hbm, ⟨30, _⟩ => ⟨S_, .f32⟩
  | .hbm, ⟨31, _⟩ => ⟨S270336, .f32⟩
  | .hbm, ⟨32, _⟩ => ⟨S_, .f32⟩
  | .hbm, ⟨33, _⟩ => ⟨S8192, .f32⟩
  | .hbm, ⟨34, _⟩ => ⟨S270336x1, .i32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .i1⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .i32⟩
  | .hbm, ⟨48, _⟩ => ⟨S270336, .i32⟩
  | .hbm, ⟨49, _⟩ => ⟨S270336, .i1⟩
  | .hbm, ⟨50, _⟩ => ⟨S_, .i32⟩
  | .hbm, ⟨51, _⟩ => ⟨S270336, .i32⟩
  | .hbm, ⟨52, _⟩ => ⟨S270336, .i32⟩
  | .hbm, ⟨53, _⟩ => ⟨S270336, .i32⟩
  | .hbm, ⟨54, _⟩ => ⟨S270336x1, .i32⟩
  | .hbm, ⟨55, _⟩ => ⟨S270336, .f32⟩
  | .hbm, ⟨56, _⟩ => ⟨S_, .i32⟩
  | .hbm, ⟨57, _⟩ => ⟨S270336, .i32⟩
  | .hbm, ⟨58, _⟩ => ⟨S270336, .i1⟩
  | .hbm, ⟨59, _⟩ => ⟨S_, .i32⟩
  | .hbm, ⟨60, _⟩ => ⟨S270336, .i32⟩
  | .hbm, ⟨61, _⟩ => ⟨S270336, .i32⟩
  | .hbm, ⟨62, _⟩ => ⟨S270336, .i32⟩
  | .hbm, ⟨63, _⟩ => ⟨S270336x1, .i32⟩
  | .hbm, ⟨64, _⟩ => ⟨S270336, .f32⟩
  | .hbm, ⟨65, _⟩ => ⟨S270336, .f32⟩
  | .hbm, ⟨66, _⟩ => ⟨S8192x256, .f32⟩
  | .hbm, ⟨67, _⟩ => ⟨S_, .i32⟩
  | .hbm, ⟨68, _⟩ => ⟨S270336, .i32⟩
  | .hbm, ⟨69, _⟩ => ⟨S270336, .i1⟩
  | .hbm, ⟨70, _⟩ => ⟨S_, .i32⟩
  | .hbm, ⟨71, _⟩ => ⟨S270336, .i32⟩
  | .hbm, ⟨72, _⟩ => ⟨S270336, .i32⟩
  | .hbm, ⟨73, _⟩ => ⟨S270336, .i32⟩
  | .hbm, ⟨74, _⟩ => ⟨S270336x1, .i32⟩
  | .hbm, ⟨75, _⟩ => ⟨S270336x256, .f32⟩
  | .hbm, ⟨76, _⟩ => ⟨S270336x1, .f32⟩
  | .hbm, ⟨77, _⟩ => ⟨S270336x256, .f32⟩
  | .hbm, ⟨78, _⟩ => ⟨S270336x256, .f32⟩
  | .hbm, ⟨79, _⟩ => ⟨S_, .f32⟩
  | .hbm, ⟨80, _⟩ => ⟨S8192x256, .f32⟩
  | .hbm, ⟨81, _⟩ => ⟨S270336x1, .i32⟩
  | .hbm, ⟨82, _⟩ => ⟨S8192x256, .f32⟩
  | .hbm, ⟨83, _⟩ => ⟨S1x256, .f32⟩
  | .hbm, ⟨84, _⟩ => ⟨S8192x256, .f32⟩
  | .hbm, ⟨85, _⟩ => ⟨S8192x256, .f32⟩
  | .hbm, ⟨86, _⟩ => ⟨S256x256, .f32⟩
  | .hbm, ⟨87, _⟩ => ⟨S1x256, .f32⟩
  | .hbm, ⟨88, _⟩ => ⟨S1x256, .f32⟩
  | .hbm, ⟨89, _⟩ => ⟨S1x256, .f32⟩
  | .hbm, ⟨90, _⟩ => ⟨S1x256, .f32⟩
  | .hbm, ⟨91, _⟩ => ⟨S1x256, .f32⟩
  | .hbm, ⟨92, _⟩ => ⟨S8192x256, .f32⟩
  | .hbm, ⟨93, _⟩ => ⟨S8192x256, .f32⟩
  | .hbm, ⟨94, _⟩ => ⟨S8192x256, .f32⟩
  | .hbm, ⟨95, _⟩ => ⟨S8192x256, .f32⟩
  | .hbm, ⟨96, _⟩ => ⟨S1x256, .f32⟩
  | .hbm, ⟨97, _⟩ => ⟨S1x512, .f32⟩
  | .hbm, ⟨98, _⟩ => ⟨S1x256, .f32⟩
  | .hbm, ⟨99, _⟩ => ⟨S1x256, .f32⟩
  | .hbm, ⟨100, _⟩ => ⟨S1x256, .f32⟩
  | .hbm, ⟨101, _⟩ => ⟨S1x256, .f32⟩
  | .hbm, ⟨102, _⟩ => ⟨S1x256, .f32⟩
  | .hbm, ⟨103, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S8192x256, .f32⟩
  | .local _ .vmem, ⟨26, _⟩ => ⟨S8192x256, .f32⟩
  | .local _ .vmem, ⟨27, _⟩ => ⟨S256x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S256x512, .f32⟩
  | .local _ .vmem, ⟨32, _⟩ => ⟨S1x512, .f32⟩
  | .local _ .vmem, ⟨33, _⟩ => ⟨S512x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S128x256, .f32⟩
  | .local _ .vmem, ⟨38, _⟩ => ⟨S128x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_v16 : Ref sig .tc := ⟨.hbm, 46, rfl⟩
abbrev main_c : Ref sig .tc := ⟨.hbm, 47, rfl⟩
abbrev main_v17 : Ref sig .tc := ⟨.hbm, 48, rfl⟩
abbrev main_v18 : Ref sig .tc := ⟨.hbm, 49, rfl⟩
abbrev main_c_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_5 : Ref sig .tc := ⟨.hbm, 56, rfl⟩
abbrev main_v24 : Ref sig .tc := ⟨.hbm, 57, rfl⟩
abbrev main_v25 : Ref sig .tc := ⟨.hbm, 58, rfl⟩
abbrev main_c_6 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_7 : Ref sig .tc := ⟨.hbm, 67, rfl⟩
abbrev main_v33 : Ref sig .tc := ⟨.hbm, 68, rfl⟩
abbrev main_v34 : Ref sig .tc := ⟨.hbm, 69, rfl⟩
abbrev main_c_8 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_9 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55_0 : Ref sig .tc := ⟨.hbm, 92, rfl⟩
abbrev main_v55_1 : Ref sig .tc := ⟨.hbm, 93, rfl⟩
abbrev main_v55_2 : Ref sig .tc := ⟨.hbm, 94, rfl⟩
abbrev main_v55_3 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg12_0 : Ref sig .tc := ⟨.vmem, 35, rfl⟩
abbrev cc1_stg13_0 : Ref sig .tc := ⟨.vmem, 36, rfl⟩
abbrev cc1_stg14_0 : Ref sig .tc := ⟨.vmem, 37, rfl⟩
abbrev cc1_stg14_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem12_0 : DmaSem sig := 35
abbrev cc1_sem13_0 : DmaSem sig := 36
abbrev cc1_sem14_0 : DmaSem sig := 37
abbrev cc1_sem14_1 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S128x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S256x256_S256x256_1_0 : S256x256.Transposes [1, 0] S256x256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S512_S1x512 : S512.ShapeCasts S1x512
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  reduces_S128x8192_S128 : S128x8192.Reduces [1] S128
  shapeCasts_S128_S128x1 : S128.ShapeCasts S128x1
  broadcasts_S128x1_S128x8192 : S128x1.Broadcasts S128x8192
  broadcasts_S1x256_S128x256 : S1x256.Broadcasts S128x256
  reduces_S128x256_S128 : S128x256.Reduces [1] S128
  broadcasts_S128x1_S128x256 : S128x1.Broadcasts S128x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S512x256_S512x256_0_0 : ∀ a, (![0, 0] : Fin 2 → Nat) a + S512x256.size a ≤ S512x256.size a
  h_S512x256 : 0 < S512x256.numel
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x256_S256x256_S8192x256_1_0_0_1_n_n_wf : DotDims.WF S8192x256 S256x256 S8192x256 [1] [0] [0] [1] [] []
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S1024x256_S256x256_S1024x256_1_0_0_1_n_n_wf : DotDims.WF S1024x256 S256x256 S1024x256 [1] [0] [0] [1] [] []
  dot_S128x256_S8192x256_S128x8192_1_1_0_0_n_n_wf : DotDims.WF S128x256 S8192x256 S128x8192 [1] [1] [0] [0] [] []
  dot_S128x8192_S8192x256_S128x256_1_0_0_1_n_n_wf : DotDims.WF S128x8192 S8192x256 S128x256 [1] [0] [0] [1] [] []
  dot_S128x256_S256x256_S128x256_1_0_0_1_n_n_wf : DotDims.WF S128x256 S256x256 S128x256 [1] [0] [0] [1] [] []
  dot_S128x256_S256x512_S128x512_1_0_0_1_n_n_wf : DotDims.WF S128x256 S256x512 S128x512 [1] [0] [0] [1] [] []
  dot_S128x512_S512x256_S128x256_1_0_0_1_n_n_wf : DotDims.WF S128x512 S512x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S8192x256.size a
  hwx0_11 : ∀ i : grid0.Coords, EltTy.bits .f32 = 32 ∨ (Rect.block (s := S8192x256) S1024x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x256.size a ≤ S8192x256.size a
  hwx0_12 : ∀ i : grid0.Coords, EltTy.bits .f32 = 32 ∨ (Rect.block (s := S8192x256) S1024x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x256.size a ≤ S8192x256.size a
  hwx0_13 : ∀ i : grid0.Coords, EltTy.bits .f32 = 32 ∨ (Rect.block (s := S8192x256) S1024x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x256.size a ≤ S8192x256.size a
  hwx0_14 : ∀ i : grid0.Coords, EltTy.bits .f32 = 32 ∨ (Rect.block (s := S8192x256) S1024x256.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S8192x256.size a
  hwx1_0 : ∀ i : grid1.Coords, EltTy.bits .f32 = 32 ∨ (Rect.block (s := S8192x256) S128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S8192x256.size a
  hwx1_1 : ∀ i : grid1.Coords, EltTy.bits .f32 = 32 ∨ (Rect.block (s := S8192x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S8192x256.size a
  hwx1_2 : ∀ i : grid1.Coords, EltTy.bits .f32 = 32 ∨ (Rect.block (s := S8192x256) S8192x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x256.size a ≤ S8192x256.size a
  hwx1_3 : ∀ i : grid1.Coords, EltTy.bits .f32 = 32 ∨ (Rect.block (s := S8192x256) S8192x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x512.size a ≤ S256x512.size a
  hwx1_8 : ∀ i : grid1.Coords, EltTy.bits .f32 = 32 ∨ (Rect.block (s := S256x512) S256x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x512.size a ≤ S1x512.size a
  hwx1_9 : ∀ i : grid1.Coords, EltTy.bits .f32 = 32 ∨ (Rect.block (s := S1x512) S1x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512x256.size a ≤ S512x256.size a
  hwx1_10 : ∀ i : grid1.Coords, EltTy.bits .f32 = 32 ∨ (Rect.block (s := S512x256) S512x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x256.size a
  hwx1_12 : ∀ i : grid1.Coords, EltTy.bits .f32 = 32 ∨ (Rect.block (s := S1x256) S1x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x256.size a ≤ S1x256.size a
  hwx1_13 : ∀ i : grid1.Coords, EltTy.bits .f32 = 32 ∨ (Rect.block (s := S1x256) S1x256.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S128x256.size a ≤ S8192x256.size a
  hwx1_14 : ∀ i : grid1.Coords, EltTy.bits .f32 = 32 ∨ (Rect.block (s := S8192x256) S128x256.size (cc1_transform_14 i) (hinb1_14 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf
def dot_S128x8192_S8192x256_S128x256_1_0_0_1_n_n : DotDims S128x8192 S8192x256 S128x256 where
  lhsContracting := [1]
  rhsContracting := [0]
  lhsNonContracting := [0]
  rhsNonContracting := [1]
  lhsBatch := []
  rhsBatch := []
  wf := dot_S128x8192_S8192x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v49) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v53) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v54) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v55_0) S1024x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v55_1) S1024x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v55_2) S1024x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v55_3) S1024x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v55_0) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55_1) S128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55_2) S8192x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55_3) S8192x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg19) S256x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v57) S1x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg21) S512x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v58) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v61) S1x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v62) S1x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v63) S128x256.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S8192x256 : Shape := ⟨2, ![8192, 256]⟩
abbrev S2x262144 : Shape := ⟨2, ![2, 262144]⟩
abbrev S256x256 : Shape := ⟨2, ![256, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x256 : Shape := ⟨2, ![270336, 256]⟩
abbrev S1x256 : Shape := ⟨2, ![1, 256]⟩
abbrev S8192x1 : Shape := ⟨2, ![8192, 1]⟩
abbrev S256x8192 : Shape := ⟨2, ![256, 8192]⟩
abbrev S8192x8192 : Shape := ⟨2, ![8192, 8192]⟩
abbrev S8192x512 : Shape := ⟨2, ![8192, 512]⟩
abbrev S1x512 : Shape := ⟨2, ![1, 512]⟩

abbrev nBuf : Space → Nat
  | .hbm => 228
  | .vmem => 0
  | .smem => 0
  | _ => 0

abbrev hbmTy0_0 (i : Nat) : BufTy := match i % 128 with
  | 0 => ⟨S8192x256, .f32⟩
  | 1 => ⟨S2x262144, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256, .f32⟩
  | 15 => ⟨S256, .f32⟩
  | 16 => ⟨S256, .f32⟩
  | 17 => ⟨S256, .f32⟩
  | 18 => ⟨S256, .f32⟩
  | 19 => ⟨S256x512, .f32⟩
  | 20 => ⟨S512, .f32⟩
  | 21 => ⟨S512x256, .f32⟩
  | 22 => ⟨S256, .f32⟩
  | 23 => ⟨S8192, .i32⟩
  | 24 => ⟨S1x262144, .i32⟩
  | 25 => ⟨S262144, .i32⟩
  | 26 => ⟨S270336, .i32⟩
  | 27 => ⟨S1x262144, .i32⟩
  | 28 => ⟨S262144, .i32⟩
  | 29 => ⟨S270336, .i32⟩
  | 30 => ⟨S_, .f32⟩
  | 31 => ⟨S270336, .f32⟩
  | 32 => ⟨S_, .f32⟩
  | 33 => ⟨S8192, .f32⟩
  | 34 => ⟨S270336x1, .i32⟩
  | 35 => ⟨S8192, .f32⟩
  | 36 => ⟨S_, .f32⟩
  | 37 => ⟨S8192, .f32⟩
  | 38 => ⟨S8192, .i1⟩
  | 39 => ⟨S_, .f32⟩
  | 40 => ⟨S8192, .f32⟩
  | 41 => ⟨S8192, .f32⟩
  | 42 => ⟨S8192, .f32⟩
  | 43 => ⟨S_, .f32⟩
  | 44 => ⟨S_, .f32⟩
  | 45 => ⟨S8192, .f32⟩
  | 46 => ⟨S8192, .f32⟩
  | 47 => ⟨S_, .i32⟩
  | 48 => ⟨S270336, .i32⟩
  | 49 => ⟨S270336, .i1⟩
  | 50 => ⟨S_, .i32⟩
  | 51 => ⟨S270336, .i32⟩
  | 52 => ⟨S270336, .i32⟩
  | 53 => ⟨S270336, .i32⟩
  | 54 => ⟨S270336x1, .i32⟩
  | 55 => ⟨S270336, .f32⟩
  | 56 => ⟨S_, .i32⟩
  | 57 => ⟨S270336, .i32⟩
  | 58 => ⟨S270336, .i1⟩
  | 59 => ⟨S_, .i32⟩
  | 60 => ⟨S270336, .i32⟩
  | 61 => ⟨S270336, .i32⟩
  | 62 => ⟨S270336, .i32⟩
  | 63 => ⟨S270336x1, .i32⟩
  | 64 => ⟨S270336, .f32⟩
  | 65 => ⟨S270336, .f32⟩
  | 66 => ⟨S8192x256, .f32⟩
  | 67 => ⟨S_, .i32⟩
  | 68 => ⟨S270336, .i32⟩
  | 69 => ⟨S270336, .i1⟩
  | 70 => ⟨S_, .i32⟩
  | 71 => ⟨S270336, .i32⟩
  | 72 => ⟨S270336, .i32⟩
  | 73 => ⟨S270336, .i32⟩
  | 74 => ⟨S270336x1, .i32⟩
  | 75 => ⟨S270336x256, .f32⟩
  | 76 => ⟨S270336x1, .f32⟩
  | 77 => ⟨S270336x256, .f32⟩
  | 78 => ⟨S270336x256, .f32⟩
  | 79 => ⟨S_, .f32⟩
  | 80 => ⟨S8192x256, .f32⟩
  | 81 => ⟨S270336x1, .i32⟩
  | 82 => ⟨S8192x256, .f32⟩
  | 83 => ⟨S1x256, .f32⟩
  | 84 => ⟨S8192x256, .f32⟩
  | 85 => ⟨S8192x256, .f32⟩
  | 86 => ⟨S8192x256, .f32⟩
  | 87 => ⟨S_, .f32⟩
  | 88 => ⟨S8192, .f32⟩
  | 89 => ⟨S8192x1, .f32⟩
  | 90 => ⟨S_, .f32⟩
  | 91 => ⟨S8192x1, .f32⟩
  | 92 => ⟨S8192x1, .f32⟩
  | 93 => ⟨S8192x256, .f32⟩
  | 94 => ⟨S8192x256, .f32⟩
  | 95 => ⟨S8192x256, .f32⟩
  | 96 => ⟨S_, .f32⟩
  | 97 => ⟨S8192, .f32⟩
  | 98 => ⟨S8192x1, .f32⟩
  | 99 => ⟨S_, .f32⟩
  | 100 => ⟨S8192x1, .f32⟩
  | 101 => ⟨S8192x1, .f32⟩
  | 102 => ⟨S8192x256, .f32⟩
  | 103 => ⟨S8192x256, .f32⟩
  | 104 => ⟨S_, .f32⟩
  | 105 => ⟨S8192x1, .f32⟩
  | 106 => ⟨S8192x1, .f32⟩
  | 107 => ⟨S8192x1, .f32⟩
  | 108 => ⟨S8192x256, .f32⟩
  | 109 => ⟨S8192x256, .f32⟩
  | 110 => ⟨S1x256, .f32⟩
  | 111 => ⟨S8192x256, .f32⟩
  | 112 => ⟨S8192x256, .f32⟩
  | 113 => ⟨S1x256, .f32⟩
  | 114 => ⟨S8192x256, .f32⟩
  | 115 => ⟨S8192x256, .f32⟩
  | 116 => ⟨S8192x256, .f32⟩
  | 117 => ⟨S1x256, .f32⟩
  | 118 => ⟨S8192x256, .f32⟩
  | 119 => ⟨S8192x256, .f32⟩
  | 120 => ⟨S8192x256, .f32⟩
  | 121 => ⟨S1x256, .f32⟩
  | 122 => ⟨S8192x256, .f32⟩
  | 123 => ⟨S8192x256, .f32⟩
  | 124 => ⟨S8192x256, .f32⟩
  | 125 => ⟨S1x256, .f32⟩
  | 126 => ⟨S8192x256, .f32⟩
  | 127 => ⟨S8192x256, .f32⟩
  | _ => ⟨S8192x256, .f32⟩

abbrev hbmTy0_1 (i : Nat) : BufTy := match i % 128 with
  | 0 => ⟨S256x256, .f32⟩
  | 1 => ⟨S8192x256, .f32⟩
  | 2 => ⟨S256x256, .f32⟩
  | 3 => ⟨S8192x256, .f32⟩
  | 4 => ⟨S256x8192, .f32⟩
  | 5 => ⟨S8192x8192, .f32⟩
  | 6 => ⟨S_, .f32⟩
  | 7 => ⟨S_, .f32⟩
  | 8 => ⟨S8192x8192, .f32⟩
  | 9 => ⟨S8192x8192, .f32⟩
  | 10 => ⟨S_, .f32⟩
  | 11 => ⟨S8192, .f32⟩
  | 12 => ⟨S_, .f32⟩
  | 13 => ⟨S8192, .f32⟩
  | 14 => ⟨S8192, .f32⟩
  | 15 => ⟨S8192x1, .f32⟩
  | 16 => ⟨S8192x8192, .f32⟩
  | 17 => ⟨S8192x8192, .f32⟩
  | 18 => ⟨S8192x8192, .f32⟩
  | 19 => ⟨S_, .f32⟩
  | 20 => ⟨S8192, .f32⟩
  | 21 => ⟨S8192x1, .f32⟩
  | 22 => ⟨S8192x8192, .f32⟩
  | 23 => ⟨S8192x8192, .f32⟩
  | 24 => ⟨S8192x256, .f32⟩
  | 25 => ⟨S8192x256, .f32⟩
  | 26 => ⟨S1x256, .f32⟩
  | 27 => ⟨S8192x256, .f32⟩
  | 28 => ⟨S8192x256, .f32⟩
  | 29 => ⟨S8192x256, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S8192x256, .f32⟩
  | 37 => ⟨S8192x256, .f32⟩
  | 38 => ⟨S8192x256, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S8192x256, .f32⟩
  | 46 => ⟨S8192x256, .f32⟩
  | 47 => ⟨S_, .f32⟩
  | 48 => ⟨S8192x1, .f32⟩
  | 49 => ⟨S8192x1, .f32⟩
  | 50 => ⟨S8192x1, .f32⟩
  | 51 => ⟨S8192x256, .f32⟩
  | 52 => ⟨S8192x256, .f32⟩
  | 53 => ⟨S1x256, .f32⟩
  | 54 => ⟨S8192x256, .f32⟩
  | 55 => ⟨S8192x256, .f32⟩
  | 56 => ⟨S1x256, .f32⟩
  | 57 => ⟨S8192x256, .f32⟩
  | 58 => ⟨S8192x256, .f32⟩
  | 59 => ⟨S8192x512, .f32⟩
  | 60 => ⟨S1x512, .f32⟩
  | 61 => ⟨S8192x512, .f32⟩
  | 62 => ⟨S8192x512, .f32⟩
  | 63 => ⟨S_, .f32⟩
  | 64 => ⟨S8192x512, .f32⟩
  | 65 => ⟨S8192x512, .f32⟩
  | 66 => ⟨S8192x256, .f32⟩
  | 67 => ⟨S1x256, .f32⟩
  | 68 => ⟨S8192x256, .f32⟩
  | 69 => ⟨S8192x256, .f32⟩
  | 70 => ⟨S8192x256, .f32⟩
  | 71 => ⟨S_, .f32⟩
  | 72 => ⟨S8192, .f32⟩
  | 73 => ⟨S8192x1, .f32⟩
  | 74 => ⟨S_, .f32⟩
  | 75 => ⟨S8192x1, .f32⟩
  | 76 => ⟨S8192x1, .f32⟩
  | 77 => ⟨S8192x256, .f32⟩
  | 78 => ⟨S8192x256, .f32⟩
  | 79 => ⟨S8192x256, .f32⟩
  | 80 => ⟨S_, .f32⟩
  | 81 => ⟨S8192, .f32⟩
  | 82 => ⟨S8192x1, .f32⟩
  | 83 => ⟨S_, .f32⟩
  | 84 => ⟨S8192x1, .f32⟩
  | 85 => ⟨S8192x1, .f32⟩
  | 86 => ⟨S8192x256, .f32⟩
  | 87 => ⟨S8192x256, .f32⟩
  | 88 => ⟨S_, .f32⟩
  | 89 => ⟨S8192x1, .f32⟩
  | 90 => ⟨S8192x1, .f32⟩
  | 91 => ⟨S8192x1, .f32⟩
  | 92 => ⟨S8192x256, .f32⟩
  | 93 => ⟨S8192x256, .f32⟩
  | 94 => ⟨S1x256, .f32⟩
  | 95 => ⟨S8192x256, .f32⟩
  | 96 => ⟨S8192x256, .f32⟩
  | 97 => ⟨S1x256, .f32⟩
  | 98 => ⟨S8192x256, .f32⟩
  | 99 => ⟨S8192x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_v16 : Ref sig .tc := ⟨.hbm, 46, rfl⟩
abbrev main_c : Ref sig .tc := ⟨.hbm, 47, rfl⟩
abbrev main_v17 : Ref sig .tc := ⟨.hbm, 48, rfl⟩
abbrev main_v18 : Ref sig .tc := ⟨.hbm, 49, rfl⟩
abbrev main_c_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_5 : Ref sig .tc := ⟨.hbm, 56, rfl⟩
abbrev main_v24 : Ref sig .tc := ⟨.hbm, 57, rfl⟩
abbrev main_v25 : Ref sig .tc := ⟨.hbm, 58, rfl⟩
abbrev main_c_6 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_7 : Ref sig .tc := ⟨.hbm, 67, rfl⟩
abbrev main_v33 : Ref sig .tc := ⟨.hbm, 68, rfl⟩
abbrev main_v34 : Ref sig .tc := ⟨.hbm, 69, rfl⟩
abbrev main_c_8 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_9 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_10 : Ref sig .tc := ⟨.hbm, 87, rfl⟩
abbrev main_v50 : Ref sig .tc := ⟨.hbm, 88, rfl⟩
abbrev main_v51 : Ref sig .tc := ⟨.hbm, 89, rfl⟩
abbrev main_cst_11 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_12 : Ref sig .tc := ⟨.hbm, 96, rfl⟩
abbrev main_v57 : Ref sig .tc := ⟨.hbm, 97, rfl⟩
abbrev main_v58 : Ref sig .tc := ⟨.hbm, 98, rfl⟩
abbrev main_cst_13 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_14 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_15 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_16 : Ref sig .tc := ⟨.hbm, 138, rfl⟩
abbrev main_v95 : Ref sig .tc := ⟨.hbm, 139, rfl⟩
abbrev main_cst_17 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_18 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_19 : Ref sig .tc := ⟨.hbm, 158, rfl⟩
abbrev main_v112 : Ref sig .tc := ⟨.hbm, 159, rfl⟩
abbrev main_v113 : Ref sig .tc := ⟨.hbm, 160, rfl⟩
abbrev main_cst_20 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_21 : Ref sig .tc := ⟨.hbm, 167, rfl⟩
abbrev main_v119 : Ref sig .tc := ⟨.hbm, 168, rfl⟩
abbrev main_v120 : Ref sig .tc := ⟨.hbm, 169, rfl⟩
abbrev main_cst_22 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_23 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_24 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_25 : Ref sig .tc := ⟨.hbm, 199, rfl⟩
abbrev main_v147 : Ref sig .tc := ⟨.hbm, 200, rfl⟩
abbrev main_v148 : Ref sig .tc := ⟨.hbm, 201, rfl⟩
abbrev main_cst_26 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_cst_27 : Ref sig .tc := ⟨.hbm, 208, rfl⟩
abbrev main_v154 : Ref sig .tc := ⟨.hbm, 209, rfl⟩
abbrev main_v155 : Ref sig .tc := ⟨.hbm, 210, rfl⟩
abbrev main_cst_28 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_cst_29 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S256x256_S256x256_1_0 : S256x256.Transposes [1, 0] S256x256
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x256_S256x256_S8192x256_1_0_0_1_n_n_wf : DotDims.WF S8192x256 S256x256 S8192x256 [1] [0] [0] [1] [] []
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x256_S256x512_S8192x512_1_0_0_1_n_n_wf : DotDims.WF S8192x256 S256x512 S8192x512 [1] [0] [0] [1] [] []
  dot_S8192x512_S512x256_S8192x256_1_0_0_1_n_n_wf : DotDims.WF S8192x512 S512x256 S8192x256 [1] [0] [0] [1] [] []

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

class Facts : Prop extends Facts₀ where

variable [Facts]
-- ==== Proof.KRun.lean ====
/-
  The idealized kernel's run with its result named.

  @main is six segments: three stretches of host operations, the projection region, one stretch of reshapes, the
  attention region. The buffer contents at the segment boundaries are the fold `W0 … W6` through @main; every weakly
  fair execution ends with each unscoped buffer at `W6`. Read at the argument arrays this is the frame; read at the
  result array it names the result: the result of @main is `W6` at the result's reference, which is what the second
  region's write-backs leave in its output array (`result_eq`).
-/
import proofs.«132447_j24799141167762_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and every argument array as launched. -/
theorem run_value : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c)⟩)

/-- The last boundary's contents at the result's reference: what the attention region's write-backs leave in its
    output array (window 14), from the contents `V5` the region is entered with. -/
theorem result_eq (c : Dev nD) :
    W6 m ρ c (Proc.devRef .tc main_v63) = (dat1 (V5 m ρ) c).arrAt 14 cfg1.N :=
  W6_arr m ρ c 14

end Cert.KernelIdeal.RunValue

end
-- ==== Proof.LibColumn.lean ====
/-
  A column kept as an axis of extent one, read at an index — the two layout steps of a per-row scalar
  (`inv.reshape(n, 1)`, then the product with an `[n, d]` array):

  * an `[a]` array cast to `[a, 1]` holds at `(i, 0)` what the array held at `i`: both positions are the `i`-th in
    row-major order;
  * an `[a, 1]` array broadcast to `[a, b]` holds at `(p, c)` its row `p`'s one entry, whatever the column `c`.
-/
import Idealize.ShloMosaic.Lib.Pipeline.Value
import Idealize.ShloMosaic.Lib.ValueIdx

noncomputable section

namespace Cert.Lib.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.LibPlainDot.lean ====
/-
  A plain matrix product read at an index, over the extended reals, for ANY extents.

  `DotDims.plain M K N` is the dimension record of `[M, K] × [K, N] → [M, N]`: the left operand's axis 1 contracted
  with the right operand's axis 0, no batch axis. At the ideal values both a `tpu.matmul` into a zero accumulator and
  the host's `dot_general` over that record are, at the output index `(p, q)`, the one sum
  `∑ k : Fin K, l (p, k) · r (k, q)` — no rounding, no accumulation order and no tiling is left in either.
  A printed record with the same six axis lists IS `DotDims.plain` at its extents (by `rfl`: the lists are literal and
  the well-formedness field is a proof), so these lemmas read every such product, whatever the extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- The left operand's index at output `j` and contraction index `k` has `j`'s row … -/
theorem lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- … and the contracted coordinate as its column. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right operand's index has the contracted coordinate as its row … -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- … and `j`'s column. -/
theorem rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's contraction index, re-indexed by the one contracted coordinate. -/
theorem sum_contr (l : (⟨2, ![M, K]⟩ : Shape).Idx → EReal) (r : (⟨2, ![K, N]⟩ : Shape).Idx → EReal) (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

/-- A `tpu.matmul` into the zero accumulator, at `(p, q)`: the sum over `k` of `l (p, k) · r (k, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant (F := Ideal) ⟨2, ![M, N]⟩ .f32 0x00000000#32) (ix2 p q)
      = ∑ k : Fin K, l (ix2 p k) * r (ix2 k q) :=
  (Ideal.matmul_constant_zero_apply (DotDims.plain M K N) prec l r (ix2 p q)).trans (sum_contr M K N l r p q)

/-- The host's `dot_general`, at `(p, q)`: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (sum_contr M K N l r p q)

end Cert.Lib.PlainDot

end
-- ==== Proof.LibTransposedDot.lean ====
/-
  A matrix product against a TRANSPOSED right operand read at an index, over the extended reals, for ANY extents.

  `DotDims.transposedRhs M K N` is the dimension record of `[M, K] × [N, K] → [M, N]`: both operands contracted on
  their last axis, no batch axis (a product with the transpose, the transpose never formed). At the ideal values a
  `tpu.matmul` into a zero accumulator over that record is, at the output index `(p, q)`, the inner product of row `p`
  of the left operand with row `q` of the right one, `∑ k : Fin K, l (p, k) · r (q, k)`.
-/
import Idealize.ShloMosaic.PureOps.Ideal.Laws
import Idealize.ShloMosaic.Lib.ValueIdx

noncomputable section

namespace Cert.Lib.TransposedDot

open Idealize.ShloMosaic Idealize.ShloMosaic.ValueIdx

variable (M K N : Nat)

/-- The left operand's index at output `j` and contraction index `k` has `j`'s row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … and the contracted coordinate as its column. -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right operand's index has `j`'s column as its row … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … and the contracted coordinate as its column. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The sum over the record's contraction index, re-indexed by the one contracted coordinate. -/
theorem sum_contr (l : (⟨2, ![M, K]⟩ : Shape).Idx → EReal) (r : (⟨2, ![N, K]⟩ : Shape).Idx → EReal) (p : Fin M) (q : Fin N) :
    ∑ k : (DotDims.transposedRhs M K N).contr.Idx,
        l ((DotDims.transposedRhs M K N).lhsIdx (ix2 p q) k) * r ((DotDims.transposedRhs M K N).rhsIdx (ix2 p q) k)
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row M K N _ _
      | ⟨1, _⟩ => exact (lhs_col M K N _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row M K N _ _
      | ⟨1, _⟩ => exact (rhs_col M K N _ _).trans hk)
  rw [el, er]

/-- A `tpu.matmul` into the zero accumulator, at `(p, q)`: the inner product of row `p` of `l` and row `q` of `r`. -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant (F := Ideal) ⟨2, ![M, N]⟩ .f32 0x00000000#32) (ix2 p q)
      = ∑ k : Fin K, l (ix2 p k) * r (ix2 q k) :=
  (Ideal.matmul_constant_zero_apply (DotDims.transposedRhs M K N) prec l r (ix2 p q)).trans (sum_contr M K N l r p q)

end Cert.Lib.TransposedDot

end
-- ==== Proof.Spec.lean ====
/-
  The layer as mathematics, row by row, over the extended reals.

  One graph-transformer layer on 8192 nodes of width 256: the neighbourhood aggregate `hloc` is added to the features
  and normalised (`h1`); queries, keys and values are affine images of `h1`, queries and keys then multiplied by the
  transposed feature matrix; node `i` attends to every node `n` with the softmax of the scaled products
  `⟨qf i, kf n⟩ / 16`; the attended values pass through an affine map, a residual normalisation, a two-layer
  rectified network and a last residual normalisation.

  Every operation acts on one row at a time (the attention row reads all of `kf` and `v`), so the layer is written
  as functions of rows `Fin n → EReal`. Float literals stay as the words the programs print: the same word on both
  sides is never evaluated.
-/
import Idealize.ShloMosaic.PureOps.Ideal

noncomputable section

namespace Cert.Spec

open Idealize.ShloMosaic

/-- A matrix as a function of row and column. -/
abbrev Mat (a b : ℕ) : Type := Fin a → Fin b → EReal

/-- The mean of a row of 256 entries: their sum divided by 256. -/
def mean (x : Fin 256 → EReal) : EReal := Ideal.div (∑ k, x k) (Ideal.ofBits .f32 0x43800000#32)

/-- The sum of the squared deviations of a row from its mean. -/
def ssq (x : Fin 256 → EReal) : EReal := ∑ k, (x k - mean x) * (x k - mean x)

/-- The normalisation's tail: entry `j` of a row `x` with mean `mu` and squared-deviation sum `s`, scaled by
    `rsqrt (s / 256 + 1e-5)`, then by the gain `g` and shifted by `b`. -/
def lnTail (x : Fin 256 → EReal) (mu s : EReal) (g b : Fin 256 → EReal) (j : Fin 256) : EReal :=
  (x j - mu) * Ideal.rsqrt (Ideal.div s (Ideal.ofBits .f32 0x43800000#32) + Ideal.ofBits .f32 0x3727C5AC#32) * g j + b j

/-- Layer normalisation of one row. -/
def ln (x g b : Fin 256 → EReal) (j : Fin 256) : EReal := lnTail x (mean x) (ssq x) g b j

/-- A row times a matrix. -/
def mv {K N : ℕ} (x : Fin K → EReal) (W : Mat K N) (j : Fin N) : EReal := ∑ k, x k * W k j

/-- A row times a matrix, plus a bias row. -/
def lin {K N : ℕ} (x : Fin K → EReal) (W : Mat K N) (b : Fin N → EReal) (j : Fin N) : EReal := (∑ k, x k * W k j) + b j

/-- The scaled product of a query row with key row `n`: the inner product times the word of 1/16. -/
def score {n : ℕ} (q : Fin 256 → EReal) (kf : Mat n 256) (i : Fin n) : EReal :=
  (∑ k, q k * kf i k) * Ideal.ofBits .f32 0x3D800000#32

/-- The largest entry of a row, folded from the word of -∞. -/
def rowMax {n : ℕ} (s : Fin n → EReal) : EReal :=
  (Finset.univ : Finset (Fin n)).fold max (Ideal.ofBits .f32 0xFF800000#32) s

/-- The exponentials of a row's entries less its largest one. -/
def expShift {n : ℕ} (s : Fin n → EReal) (j : Fin n) : EReal := Ideal.exp (s j - rowMax s)

/-- The softmax of a row. -/
def softmax {n : ℕ} (s : Fin n → EReal) (j : Fin n) : EReal := Ideal.div (expShift s j) (∑ k, expShift s k)

/-- The rectifier: the larger of the entry and the word of zero. -/
def relu (x : EReal) : EReal := max x (Ideal.ofBits .f32 0x00000000#32)

/-! ## The projection stage, row `i` -/

/-- The first normalisation: `h1 = ln (h + hloc)`. -/
def h1Row (h hloc : Fin 256 → EReal) (g1 be1 : Fin 256 → EReal) : Fin 256 → EReal := ln (fun k => h k + hloc k) g1 be1

/-- A projected row multiplied by the transposed feature matrix: `(x W + b) RFᵀ`. -/
def featRow (x : Fin 256 → EReal) (W : Mat 256 256) (b : Fin 256 → EReal) (RF : Mat 256 256) : Fin 256 → EReal :=
  mv (lin x W b) (fun k j => RF j k)

/-! ## The attention stage, row `i` -/

/-- The attention weights of a query row against all keys. -/
def attRow {n : ℕ} (qf : Fin 256 → EReal) (kf : Mat n 256) : Fin n → EReal := softmax (score qf kf)

/-- The residual input of the second normalisation: `h1 + ((att v) Wo + bo)`. -/
def x2Row {n : ℕ} (h1 qf : Fin 256 → EReal) (kf v : Mat n 256) (Wo : Mat 256 256) (bo : Fin 256 → EReal) (j : Fin 256) : EReal :=
  h1 j + lin (mv (attRow qf kf) v) Wo bo j

/-- The residual input of the third normalisation: `h2 + (relu (h2 W1 + b1) W2 + b2)`. -/
def x3Row (h2 : Fin 256 → EReal) (W1 : Mat 256 512) (b1 : Fin 512 → EReal) (W2 : Mat 512 256) (b2 : Fin 256 → EReal) (j : Fin 256) : EReal :=
  h2 j + lin (fun c => relu (lin h2 W1 b1 c)) W2 b2 j

/-- One row of the layer's result from its `h1` and `qf` rows and the whole `kf` and `v`. -/
def outRow {n : ℕ} (h1 qf : Fin 256 → EReal) (kf v : Mat n 256) (Wo : Mat 256 256) (bo g2 be2 : Fin 256 → EReal)
    (W1 : Mat 256 512) (b1 : Fin 512 → EReal) (W2 : Mat 512 256) (b2 g3 be3 : Fin 256 → EReal) : Fin 256 → EReal :=
  ln (x3Row (ln (x2Row h1 qf kf v Wo bo) g2 be2) W1 b1 W2 b2) g3 be3

/-! ## The whole layer -/

/-- Row `i`, entry `j` of the layer's result, as a function of the features `h`, the neighbourhood aggregate `hloc`
    and the layer's parameters: every row's `h1`; the query features of row `i`; the key features and the values of
    all rows; then the attention stage of row `i`. -/
def layer (h hloc : Mat 8192 256) (Wq : Mat 256 256) (bq : Fin 256 → EReal) (Wk : Mat 256 256) (bk : Fin 256 → EReal)
    (Wv : Mat 256 256) (bv : Fin 256 → EReal) (Wo : Mat 256 256) (bo : Fin 256 → EReal) (RF : Mat 256 256)
    (g1 be1 g2 be2 g3 be3 : Fin 256 → EReal) (W1 : Mat 256 512) (b1 : Fin 512 → EReal) (W2 : Mat 512 256) (b2 : Fin 256 → EReal) :
    Mat 8192 256 := fun i =>
  outRow (h1Row (h i) (hloc i) g1 be1) (featRow (h1Row (h i) (hloc i) g1 be1) Wq bq RF)
    (fun a => featRow (h1Row (h a) (hloc a) g1 be1) Wk bk RF) (fun a => lin (h1Row (h a) (hloc a) g1 be1) Wv bv)
    Wo bo g2 be2 W1 b1 W2 b2 g3 be3

end Cert.Spec

end
-- ==== Proof.RowOps.lean ====
/-
  Vector operations on a block of `R` rows read at an index `(p, q)`, for any `R`: what each step of the kernels'
  bodies computes in row `p`, in the words of the row-level specification.

  A sum or a maximum over the lanes, kept as a column `[R, 1]`, is the sum or the maximum of row `p`; a column
  broadcast back over the lanes gives every entry of row `p` the row's value; a `[1, C]` row broadcast down the
  rows gives entry `(p, q)` the row's `q`-th entry; a matrix product into the zero accumulator is the row's product
  with the matrix. Composed: the mean, the squared deviations and the tail of a layer normalisation, an affine map,
  the scaled scores and the softmax of a row.
-/
import Idealize.ShloMosaic.PureOps.Ideal.Laws
import Idealize.ShloMosaic.Lib.ValueIdx
import Idealize.ShloMosaic.Lib.ValueLayout
import Idealize.ShloMosaic.Lib.Pipeline.Value
import proofs.«132447_j24799141167762_2_alg».proof.Proof.LibColumn
import proofs.«132447_j24799141167762_2_alg».proof.Proof.LibPlainDot
import proofs.«132447_j24799141167762_2_alg».proof.Proof.LibTransposedDot
import proofs.«132447_j24799141167762_2_alg».proof.Proof.Spec

noncomputable section

namespace Cert.RowOps

open Idealize.ShloMosaic Idealize.ShloMosaic.ValueIdx Cert.Spec

variable {R C : ℕ}

/-- Over row `p` of the result of a reduction along the lanes, the source index with lane `k` is `(p, k)`. -/
theorem lift_ix (h : (⟨2, ![R, C]⟩ : Shape).Reduces [(1 : Fin 2)] ⟨1, ![R]⟩) (p : Fin R) (k : Fin C) :
    h.lift (ix1 p) k = ix2 p k :=
  funext fun c => Fin.ext (by
    match c with
    | ⟨0, _⟩ => rfl
    | ⟨1, _⟩ => rfl)

/-- A lane sum kept as a column: at `(p, u)` the sum of row `p`. -/
theorem colSum_apply (x : FVec Ideal ⟨2, ![R, C]⟩ .f32) (h : (⟨2, ![R, C]⟩ : Shape).Reduces [(1 : Fin 2)] ⟨1, ![R]⟩)
    (hφ : FKind.Formats FTy.f32) (hacc : (0x00000000#32 : BitVec 32) = 0x00000000#32)
    (hc : (⟨1, ![R]⟩ : Shape).ShapeCasts ⟨2, ![R, 1]⟩) (p : Fin R) (u : Fin 1) :
    shapeCast ⟨2, ![R, 1]⟩ (multiReduction .add [1] ⟨1, ![R]⟩ x 0x00000000#32 h hφ hacc) hc (ix2 p u)
      = ∑ k : Fin C, x (ix2 p k) :=
  (Cert.Lib.Column.shapeCast_a_a1_apply _ hc p u).trans
    ((Ideal.multiReduction_add_single x 0x00000000#32 h hφ hacc (ix1 p)).trans
      (Finset.sum_congr rfl fun k _ => congrArg x (lift_ix h p k)))

/-- A lane maximum kept as a column: at `(p, u)` the largest entry of row `p`, folded from the word of -∞. -/
theorem colMax_apply (x : FVec Ideal ⟨2, ![R, C]⟩ .f32) (h : (⟨2, ![R, C]⟩ : Shape).Reduces [(1 : Fin 2)] ⟨1, ![R]⟩)
    (hφ : FKind.Formats FTy.f32) (hacc : (0xFF800000#32 : BitVec 32) = 0xFF800000#32)
    (hc : (⟨1, ![R]⟩ : Shape).ShapeCasts ⟨2, ![R, 1]⟩) (p : Fin R) (u : Fin 1) :
    shapeCast ⟨2, ![R, 1]⟩ (multiReduction .maximumf [1] ⟨1, ![R]⟩ x 0xFF800000#32 h hφ hacc) hc (ix2 p u)
      = rowMax (fun k : Fin C => x (ix2 p k)) :=
  (Cert.Lib.Column.shapeCast_a_a1_apply _ hc p u).trans
    ((Ideal.multiReduction_maximumf_single x 0xFF800000#32 h hφ hacc (ix1 p)).trans
      (congrArg (fun f => (Finset.univ : Finset (Fin C)).fold max (Ideal.ofBits .f32 0xFF800000#32) f)
        (funext fun k => congrArg x (lift_ix h p k))))

/-- A `[1, C]` row, cast to its own shape and broadcast down `R` rows: at `(p, q)` the row's entry `q`. -/
theorem brow_apply (g : FVec Ideal ⟨2, ![1, C]⟩ .f32) (h11 : (⟨2, ![1, C]⟩ : Shape).ShapeCasts ⟨2, ![1, C]⟩)
    (hbr : (⟨2, ![1, C]⟩ : Shape).Broadcasts ⟨2, ![R, C]⟩) (p : Fin R) (q : Fin C) :
    broadcastTo ⟨2, ![R, C]⟩ (shapeCast ⟨2, ![1, C]⟩ g h11) hbr (ix2 p q) = g (ix2 (0 : Fin 1) q) := by
  rw [shapeCast_self]
  exact broadcastTo_1b_ab_apply g hbr p q

/-- A column broadcast over the lanes: at `(p, q)` the column's entry in row `p`. -/
theorem bcol_apply (v : FVec Ideal ⟨2, ![R, 1]⟩ .f32) (hb : (⟨2, ![R, 1]⟩ : Shape).Broadcasts ⟨2, ![R, C]⟩) (p : Fin R) (q : Fin C) :
    broadcastTo ⟨2, ![R, C]⟩ v hb (ix2 p q) = v (ix2 p (0 : Fin 1)) :=
  Cert.Lib.Column.broadcastTo_a1_ab_apply v hb p q

/-! ## Layer normalisation of a block's rows -/

section LayerNorm

variable (x : FVec Ideal ⟨2, ![R, 256]⟩ .f32)
  (h : (⟨2, ![R, 256]⟩ : Shape).Reduces [(1 : Fin 2)] ⟨1, ![R]⟩)
  (hφ : FKind.Formats FTy.f32) (hacc : (0x00000000#32 : BitVec 32) = 0x00000000#32)
  (hc : (⟨1, ![R]⟩ : Shape).ShapeCasts ⟨2, ![R, 1]⟩)
  (hb : (⟨2, ![R, 1]⟩ : Shape).Broadcasts ⟨2, ![R, 256]⟩)
  (h11 : (⟨2, ![1, 256]⟩ : Shape).ShapeCasts ⟨2, ![1, 256]⟩)
  (hbr : (⟨2, ![1, 256]⟩ : Shape).Broadcasts ⟨2, ![R, 256]⟩)

/-- The column of row means: the lane sum divided by the word of 256. -/
theorem meanCol_apply (p : Fin R) (u : Fin 1) :
    divf (shapeCast ⟨2, ![R, 1]⟩ (multiReduction .add [1] ⟨1, ![R]⟩ x 0x00000000#32 h hφ hacc) hc)
        (broadcast ⟨2, ![R, 1]⟩ (Scalar.ofBits (F := Ideal) .f32 0x43800000#32)) (ix2 p u)
      = mean (fun k => x (ix2 p k)) := by
  show Ideal.div (shapeCast ⟨2, ![R, 1]⟩ (multiReduction .add [1] ⟨1, ![R]⟩ x 0x00000000#32 h hφ hacc) hc (ix2 p u)) _ = _
  rw [colSum_apply]
  rfl

/-- The column of squared-deviation sums, given the column `mu` of means. -/
theorem ssqCol_apply (mu : FVec Ideal ⟨2, ![R, 1]⟩ .f32) (p : Fin R) (u : Fin 1)
    (hmu : mu (ix2 p (0 : Fin 1)) = mean (fun k => x (ix2 p k))) :
    shapeCast ⟨2, ![R, 1]⟩ (multiReduction .add [1] ⟨1, ![R]⟩
        (mulf (subf x (broadcastTo ⟨2, ![R, 256]⟩ mu hb)) (subf x (broadcastTo ⟨2, ![R, 256]⟩ mu hb)))
        0x00000000#32 h hφ hacc) hc (ix2 p u)
      = ssq (fun k => x (ix2 p k)) := by
  rw [colSum_apply]
  refine Finset.sum_congr rfl fun k _ => ?_
  show (x (ix2 p k) - broadcastTo ⟨2, ![R, 256]⟩ mu hb (ix2 p k)) * (x (ix2 p k) - broadcastTo ⟨2, ![R, 256]⟩ mu hb (ix2 p k)) = _
  rw [bcol_apply, hmu]

/-- The normalisation's tail at `(p, q)`, from the columns `mu` of means and `s` of squared-deviation sums and the
    divisor `c` (the word of 256). -/
theorem lnTail_apply (mu s : FVec Ideal ⟨2, ![R, 1]⟩ .f32) (c : Ideal .f32) (g b : FVec Ideal ⟨2, ![1, 256]⟩ .f32)
    (hcw : c = Ideal.ofBits .f32 0x43800000#32) (p : Fin R) (q : Fin 256) :
    addf (mulf (mulf (subf x (broadcastTo ⟨2, ![R, 256]⟩ mu hb))
            (broadcastTo ⟨2, ![R, 256]⟩
              (rsqrt (addf (divf s (broadcast ⟨2, ![R, 1]⟩ c))
                (broadcast ⟨2, ![R, 1]⟩ (Scalar.ofBits (F := Ideal) .f32 0x3727C5AC#32)))) hb))
          (broadcastTo ⟨2, ![R, 256]⟩ (shapeCast ⟨2, ![1, 256]⟩ g h11) hbr))
        (broadcastTo ⟨2, ![R, 256]⟩ (shapeCast ⟨2, ![1, 256]⟩ b h11) hbr) (ix2 p q)
      = lnTail (fun k => x (ix2 p k)) (mu (ix2 p (0 : Fin 1))) (s (ix2 p (0 : Fin 1)))
          (fun k => g (ix2 (0 : Fin 1) k)) (fun k => b (ix2 (0 : Fin 1) k)) q := by
  show (x (ix2 p q) - broadcastTo ⟨2, ![R, 256]⟩ mu hb (ix2 p q))
        * broadcastTo ⟨2, ![R, 256]⟩ (rsqrt (addf (divf s (broadcast ⟨2, ![R, 1]⟩ c))
            (broadcast ⟨2, ![R, 1]⟩ (Scalar.ofBits (F := Ideal) .f32 0x3727C5AC#32)))) hb (ix2 p q)
        * broadcastTo ⟨2, ![R, 256]⟩ (shapeCast ⟨2, ![1, 256]⟩ g h11) hbr (ix2 p q)
        + broadcastTo ⟨2, ![R, 256]⟩ (shapeCast ⟨2, ![1, 256]⟩ b h11) hbr (ix2 p q) = _
  rw [bcol_apply, bcol_apply, brow_apply, brow_apply, hcw]
  rfl

end LayerNorm

/-! ## Products -/

/-- A block times a matrix, into the zero accumulator, plus a bias row: at `(p, q)` the affine image of row `p`. -/
theorem lin_apply {K N : ℕ} (prec : Option ContractPrecision) (x : FVec Ideal ⟨2, ![R, K]⟩ .f32) (W : FVec Ideal ⟨2, ![K, N]⟩ .f32)
    (b : FVec Ideal ⟨2, ![1, N]⟩ .f32) (h11 : (⟨2, ![1, N]⟩ : Shape).ShapeCasts ⟨2, ![1, N]⟩)
    (hbr : (⟨2, ![1, N]⟩ : Shape).Broadcasts ⟨2, ![R, N]⟩) (p : Fin R) (q : Fin N) :
    addf (matmul (DotDims.plain R K N) prec x W (constant (F := Ideal) ⟨2, ![R, N]⟩ .f32 0x00000000#32))
        (broadcastTo ⟨2, ![R, N]⟩ (shapeCast ⟨2, ![1, N]⟩ b h11) hbr) (ix2 p q)
      = lin (fun k => x (ix2 p k)) (fun k j => W (ix2 k j)) (fun j => b (ix2 (0 : Fin 1) j)) q := by
  show matmul (DotDims.plain R K N) prec x W (constant (F := Ideal) ⟨2, ![R, N]⟩ .f32 0x00000000#32) (ix2 p q)
      + broadcastTo ⟨2, ![R, N]⟩ (shapeCast ⟨2, ![1, N]⟩ b h11) hbr (ix2 p q) = _
  rw [brow_apply]
  exact congrArg (· + b (ix2 (0 : Fin 1) q)) (Cert.Lib.PlainDot.matmul_zero_apply R K N prec x W p q)

/-- A block times a matrix, into the zero accumulator: at `(p, q)` row `p` times the matrix. -/
theorem mv_apply {K N : ℕ} (prec : Option ContractPrecision) (x : FVec Ideal ⟨2, ![R, K]⟩ .f32) (W : FVec Ideal ⟨2, ![K, N]⟩ .f32)
    (p : Fin R) (q : Fin N) :
    matmul (DotDims.plain R K N) prec x W (constant (F := Ideal) ⟨2, ![R, N]⟩ .f32 0x00000000#32) (ix2 p q)
      = mv (fun k => x (ix2 p k)) (fun k j => W (ix2 k j)) q :=
  Cert.Lib.PlainDot.matmul_zero_apply R K N prec x W p q

/-- The scaled scores of a block of queries against `n` keys: at `(p, i)` the score of row `p` and key `i`. -/
theorem score_apply {n : ℕ} (prec : Option ContractPrecision) (qf : FVec Ideal ⟨2, ![R, 256]⟩ .f32) (kf : FVec Ideal ⟨2, ![n, 256]⟩ .f32)
    (p : Fin R) (i : Fin n) :
    mulf (matmul (DotDims.transposedRhs R 256 n) prec qf kf (constant (F := Ideal) ⟨2, ![R, n]⟩ .f32 0x00000000#32))
        (broadcast ⟨2, ![R, n]⟩ (Scalar.ofBits (F := Ideal) .f32 0x3D800000#32)) (ix2 p i)
      = score (fun k => qf (ix2 p k)) (fun a k => kf (ix2 a k)) i := by
  show matmul (DotDims.transposedRhs R 256 n) prec qf kf (constant (F := Ideal) ⟨2, ![R, n]⟩ .f32 0x00000000#32) (ix2 p i)
      * Ideal.ofBits .f32 0x3D800000#32 = _
  exact congrArg (· * Ideal.ofBits .f32 0x3D800000#32) (Cert.Lib.TransposedDot.matmul_zero_apply R 256 n prec qf kf p i)

/-- The softmax of a block's rows, from its rows' scores `s`: exponentials of the entries less the row's maximum,
    divided by their row sum. -/
theorem softmax_apply {n : ℕ} (s : FVec Ideal ⟨2, ![R, n]⟩ .f32)
    (h : (⟨2, ![R, n]⟩ : Shape).Reduces [(1 : Fin 2)] ⟨1, ![R]⟩) (hφ : FKind.Formats FTy.f32)
    (hmax : (0xFF800000#32 : BitVec 32) = 0xFF800000#32) (hacc : (0x00000000#32 : BitVec 32) = 0x00000000#32)
    (hc : (⟨1, ![R]⟩ : Shape).ShapeCasts ⟨2, ![R, 1]⟩) (hb : (⟨2, ![R, 1]⟩ : Shape).Broadcasts ⟨2, ![R, n]⟩) (p : Fin R) (i : Fin n) :
    divf (exp (subf s (broadcastTo ⟨2, ![R, n]⟩
            (shapeCast ⟨2, ![R, 1]⟩ (multiReduction .maximumf [1] ⟨1, ![R]⟩ s 0xFF800000#32 h hφ hmax) hc) hb)))
        (broadcastTo ⟨2, ![R, n]⟩ (shapeCast ⟨2, ![R, 1]⟩ (multiReduction .add [1] ⟨1, ![R]⟩
            (exp (subf s (broadcastTo ⟨2, ![R, n]⟩
              (shapeCast ⟨2, ![R, 1]⟩ (multiReduction .maximumf [1] ⟨1, ![R]⟩ s 0xFF800000#32 h hφ hmax) hc) hb)))
            0x00000000#32 h hφ hacc) hc) hb) (ix2 p i)
      = softmax (fun k => s (ix2 p k)) i := by
  have he : ∀ k : Fin n, exp (subf s (broadcastTo ⟨2, ![R, n]⟩
            (shapeCast ⟨2, ![R, 1]⟩ (multiReduction .maximumf [1] ⟨1, ![R]⟩ s 0xFF800000#32 h hφ hmax) hc) hb)) (ix2 p k)
        = expShift (fun k => s (ix2 p k)) k := fun k => by
    show Ideal.exp (s (ix2 p k) - broadcastTo ⟨2, ![R, n]⟩
            (shapeCast ⟨2, ![R, 1]⟩ (multiReduction .maximumf [1] ⟨1, ![R]⟩ s 0xFF800000#32 h hφ hmax) hc) hb (ix2 p k)) = _
    rw [bcol_apply, colMax_apply]
    rfl
  rw [divf_apply, bcol_apply, colSum_apply, he i]
  exact congrArg (Ideal.div _) (Finset.sum_congr rfl fun k _ => he k)

end Cert.RowOps

end
-- ==== Proof.Attn.lean ====
/-
  The attention kernel's body on a block of 128 query rows, read at an index `(p, q)`.

  Row `p` of the block: its scaled scores against all 8192 keys, their softmax, the attended values through the
  output map, added to `h1`; that row's mean and squared deviations; the normalised row through the two-layer
  rectified network, added back; that row's mean and squared deviations; the last normalisation. Composed, entry
  `(p, q)` of what the body stores is the specification's `outRow` of row `p`.
-/
import proofs.«132447_j24799141167762_2_alg».proof.Proof.Gen.KernelIdeal.Skeleton
import proofs.«132447_j24799141167762_2_alg».proof.Proof.RowOps

noncomputable section

namespace Cert.KernelIdeal.Attn

open Cert.KernelIdeal Cert.KernelIdeal.Gen Idealize.ShloMosaic Idealize.ShloMosaic.ValueIdx Cert.Spec Cert.RowOps

/-- The printed dimension records are the library's: queries against keys contract both last axes; the others are
    plain products. -/
theorem dotS_eq : dot_S128x256_S8192x256_S128x8192_1_1_0_0_n_n = DotDims.transposedRhs 128 256 8192 := rfl
theorem dotAV_eq : dot_S128x8192_S8192x256_S128x256_1_0_0_1_n_n = DotDims.plain 128 8192 256 := rfl
theorem dotO_eq : dot_S128x256_S256x256_S128x256_1_0_0_1_n_n = DotDims.plain 128 256 256 := rfl
theorem dotW1_eq : dot_S128x256_S256x512_S128x512_1_0_0_1_n_n = DotDims.plain 128 256 512 := rfl
theorem dotW2_eq : dot_S128x512_S512x256_S128x256_1_0_0_1_n_n = DotDims.plain 128 512 256 := rfl

section Attention

variable (v0 : FVec Ideal S128x256 .f32) (v2 v16 : FVec Ideal S8192x256 .f32) (v19 : FVec Ideal S256x256 .f32)
  (v21 : FVec Ideal S1x256 .f32) (v25 : FVec Ideal S128x256 .f32)

/-- The second normalisation's input: `h1` plus the attended values through the output map. -/
theorem pay2_apply (p : Fin 128) (q : Fin 256) :
    k1_pay2 (F := Ideal) v0 v2 v16 v19 v21 v25 (ix2 p q)
      = x2Row (fun k => v25 (ix2 p k)) (fun k => v0 (ix2 p k)) (fun a k => v2 (ix2 a k)) (fun a k => v16 (ix2 a k))
          (fun k j => v19 (ix2 k j)) (fun j => v21 (ix2 (0 : Fin 1) j)) q := by
  unfold k1_pay2
  rw [dotS_eq, dotAV_eq, dotO_eq]
  rw [shapeCast_self v0, shapeCast_self v2, shapeCast_self v16, shapeCast_self v25]
  rw [addf_apply]
  refine congrArg (v25 (ix2 p q) + ·) ?_
  refine (lin_apply (R := 128) (some .fp32) _ v19 v21 shapeCasts_S1x256_S1x256 broadcasts_S1x256_S128x256 p q).trans ?_
  refine congrArg (fun r => lin r (fun k j => v19 (ix2 k j)) (fun j => v21 (ix2 (0 : Fin 1) j)) q) (funext fun k => ?_)
  refine (mv_apply (R := 128) (some .fp32) _ v16 p k).trans ?_
  refine congrArg (fun r => mv r (fun a k => v16 (ix2 a k)) k) (funext fun n => ?_)
  refine (softmax_apply (R := 128) _ reduces_S128x8192_S128 (.inl rfl) rfl rfl shapeCasts_S128_S128x1
    broadcasts_S128x1_S128x8192 p n).trans ?_
  refine congrArg (fun s => softmax s n) (funext fun a => ?_)
  exact score_apply (R := 128) (some .fp32) v0 v2 p a

/-- The rows' means of that input. -/
theorem pay3_apply (p : Fin 128) (u : Fin 1) :
    k1_pay3 (F := Ideal) v0 v2 v16 v19 v21 v25 (ix2 p u)
      = mean (x2Row (fun k => v25 (ix2 p k)) (fun k => v0 (ix2 p k)) (fun a k => v2 (ix2 a k)) (fun a k => v16 (ix2 a k))
          (fun k j => v19 (ix2 k j)) (fun j => v21 (ix2 (0 : Fin 1) j))) := by
  unfold k1_pay3
  refine (meanCol_apply (R := 128) (k1_pay2 (F := Ideal) v0 v2 v16 v19 v21 v25) reduces_S128x256_S128 (.inl rfl) rfl
    shapeCasts_S128_S128x1 p u).trans ?_
  exact congrArg mean (funext fun k => pay2_apply v0 v2 v16 v19 v21 v25 p k)

/-- The rows' squared-deviation sums of that input. -/
theorem pay4_apply (p : Fin 128) (u : Fin 1) :
    k1_pay4 (F := Ideal) v0 v2 v16 v19 v21 v25 (ix2 p u)
      = ssq (x2Row (fun k => v25 (ix2 p k)) (fun k => v0 (ix2 p k)) (fun a k => v2 (ix2 a k)) (fun a k => v16 (ix2 a k))
          (fun k j => v19 (ix2 k j)) (fun j => v21 (ix2 (0 : Fin 1) j))) := by
  unfold k1_pay4
  have hmu : k1_pay3 (F := Ideal) v0 v2 v16 v19 v21 v25 (ix2 p (0 : Fin 1))
      = mean (fun k => k1_pay2 (F := Ideal) v0 v2 v16 v19 v21 v25 (ix2 p k)) :=
    (pay3_apply v0 v2 v16 v19 v21 v25 p 0).trans
      (congrArg mean (funext fun k => (pay2_apply v0 v2 v16 v19 v21 v25 p k).symm))
  refine (ssqCol_apply (R := 128) (k1_pay2 (F := Ideal) v0 v2 v16 v19 v21 v25) reduces_S128x256_S128 (.inl rfl) rfl
    shapeCasts_S128_S128x1 broadcasts_S128x1_S128x256 (k1_pay3 (F := Ideal) v0 v2 v16 v19 v21 v25) p u hmu).trans ?_
  exact congrArg ssq (funext fun k => pay2_apply v0 v2 v16 v19 v21 v25 p k)

end Attention

section Network

variable (v27 : FVec Ideal S128x256 .f32) (v31 v36 : FVec Ideal S128x1 .f32) (c : Ideal .f32)
  (v46 v50 : FVec Ideal S1x256 .f32) (v54 : FVec Ideal S256x512 .f32) (v56 : FVec Ideal S1x512 .f32)
  (v62 : FVec Ideal S512x256 .f32) (v64 : FVec Ideal S1x256 .f32)

/-- The third normalisation's input: the normalised row plus its image under the two-layer rectified network. -/
theorem pay5_apply (hc : c = Ideal.ofBits .f32 0x43800000#32) (p : Fin 128) (q : Fin 256) :
    k1_pay5 (F := Ideal) v27 v31 v36 c v46 v50 v54 v56 v62 v64 (ix2 p q)
      = x3Row (lnTail (fun k => v27 (ix2 p k)) (v31 (ix2 p (0 : Fin 1))) (v36 (ix2 p (0 : Fin 1)))
            (fun k => v46 (ix2 (0 : Fin 1) k)) (fun k => v50 (ix2 (0 : Fin 1) k)))
          (fun k j => v54 (ix2 k j)) (fun j => v56 (ix2 (0 : Fin 1) j)) (fun k j => v62 (ix2 k j)) (fun j => v64 (ix2 (0 : Fin 1) j)) q := by
  have h2 : ∀ k : Fin 256, addf (mulf (mulf (subf v27 (broadcastTo S128x256 v31 broadcasts_S128x1_S128x256))
            (broadcastTo S128x256
              (rsqrt (addf (divf v36 (broadcast S128x1 c))
                (broadcast S128x1 (Scalar.ofBits (F := Ideal) .f32 0x3727C5AC#32)))) broadcasts_S128x1_S128x256))
          (broadcastTo S128x256 (shapeCast S1x256 v46 shapeCasts_S1x256_S1x256) broadcasts_S1x256_S128x256))
        (broadcastTo S128x256 (shapeCast S1x256 v50 shapeCasts_S1x256_S1x256) broadcasts_S1x256_S128x256) (ix2 p k)
      = lnTail (fun k => v27 (ix2 p k)) (v31 (ix2 p (0 : Fin 1))) (v36 (ix2 p (0 : Fin 1)))
            (fun k => v46 (ix2 (0 : Fin 1) k)) (fun k => v50 (ix2 (0 : Fin 1) k)) k := fun k =>
    lnTail_apply (R := 128) v27 broadcasts_S128x1_S128x256 shapeCasts_S1x256_S1x256 broadcasts_S1x256_S128x256 v31 v36 c v46 v50 hc p k
  unfold k1_pay5
  rw [dotW1_eq, dotW2_eq]
  rw [addf_apply, h2 q]
  refine congrArg (lnTail _ _ _ _ _ q + ·) ?_
  refine (lin_apply (R := 128) (some .fp32) _ v62 v64 shapeCasts_S1x256_S1x256 broadcasts_S1x256_S128x256 p q).trans ?_
  refine congrArg (fun r => lin r (fun k j => v62 (ix2 k j)) (fun j => v64 (ix2 (0 : Fin 1) j)) q) (funext fun n => ?_)
  rw [maximumf_apply, broadcast_apply]
  refine congrArg (max · (Ideal.ofBits .f32 0x00000000#32)) ?_
  refine (lin_apply (R := 128) (some .fp32) _ v54 v56 shapeCasts_S1x512_S1x512 broadcasts_S1x512_S128x512 p n).trans ?_
  exact congrArg (fun r => lin r (fun k j => v54 (ix2 k j)) (fun j => v56 (ix2 (0 : Fin 1) j)) n) (funext fun k => h2 k)

/-- The rows' means of that input. -/
theorem pay6_apply (hc : c = Ideal.ofBits .f32 0x43800000#32) (p : Fin 128) (u : Fin 1) :
    k1_pay6 (F := Ideal) v27 v31 v36 c v46 v50 v54 v56 v62 v64 (ix2 p u)
      = mean (fun k => k1_pay5 (F := Ideal) v27 v31 v36 c v46 v50 v54 v56 v62 v64 (ix2 p k)) := by
  unfold k1_pay6
  exact meanCol_apply (R := 128) (k1_pay5 (F := Ideal) v27 v31 v36 c v46 v50 v54 v56 v62 v64) reduces_S128x256_S128 (.inl rfl) rfl
    shapeCasts_S128_S128x1 p u

/-- The rows' squared-deviation sums of that input. -/
theorem pay7_apply (hc : c = Ideal.ofBits .f32 0x43800000#32) (p : Fin 128) (u : Fin 1) :
    k1_pay7 (F := Ideal) v27 v31 v36 c v46 v50 v54 v56 v62 v64 (ix2 p u)
      = ssq (fun k => k1_pay5 (F := Ideal) v27 v31 v36 c v46 v50 v54 v56 v62 v64 (ix2 p k)) := by
  unfold k1_pay7
  exact ssqCol_apply (R := 128) (k1_pay5 (F := Ideal) v27 v31 v36 c v46 v50 v54 v56 v62 v64) reduces_S128x256_S128 (.inl rfl) rfl
    shapeCasts_S128_S128x1 broadcasts_S128x1_S128x256 (k1_pay6 (F := Ideal) v27 v31 v36 c v46 v50 v54 v56 v62 v64) p u
    (pay6_apply v27 v31 v36 c v46 v50 v54 v56 v62 v64 hc p 0)

end Network

/-- The last normalisation's tail. -/
theorem pay1_apply (v68 : FVec Ideal S128x256 .f32) (v72 v77 : FVec Ideal S128x1 .f32) (v87 v91 : FVec Ideal S1x256 .f32)
    (p : Fin 128) (q : Fin 256) :
    k1_pay1 (F := Ideal) v68 v72 v77 v87 v91 (ix2 p q)
      = lnTail (fun k => v68 (ix2 p k)) (v72 (ix2 p (0 : Fin 1))) (v77 (ix2 p (0 : Fin 1)))
          (fun k => v87 (ix2 (0 : Fin 1) k)) (fun k => v91 (ix2 (0 : Fin 1) k)) q := by
  unfold k1_pay1
  exact lnTail_apply (R := 128) v68 broadcasts_S128x1_S128x256 shapeCasts_S1x256_S1x256 broadcasts_S1x256_S128x256 v72 v77
    (Scalar.ofBits (F := Ideal) .f32 0x43800000#32) v87 v91 rfl p q

/-- What the body stores, at `(p, q)`: the layer's result row of row `p` — from the blocks of `h1` (`a0`) and of the
    query features (`a1`), all key features (`a2`) and values (`a3`), and the parameters. -/
theorem body_apply (a0 a1 : FVec Ideal S128x256 .f32) (a2 a3 : FVec Ideal S8192x256 .f32) (a4 : FVec Ideal S256x256 .f32)
    (a5 a6 a7 : FVec Ideal S1x256 .f32) (a8 : FVec Ideal S256x512 .f32) (a9 : FVec Ideal S1x512 .f32) (a10 : FVec Ideal S512x256 .f32)
    (a11 a12 a13 : FVec Ideal S1x256 .f32) (p : Fin 128) (q : Fin 256) :
    k1_pay1 (F := Ideal)
        (k1_pay5 (k1_pay2 a1 a2 a3 a4 a5 a0) (k1_pay3 a1 a2 a3 a4 a5 a0) (k1_pay4 a1 a2 a3 a4 a5 a0)
          (Scalar.ofBits .f32 0x43800000#32) a6 a7 a8 a9 a10 a11)
        (k1_pay6 (k1_pay2 a1 a2 a3 a4 a5 a0) (k1_pay3 a1 a2 a3 a4 a5 a0) (k1_pay4 a1 a2 a3 a4 a5 a0)
          (Scalar.ofBits .f32 0x43800000#32) a6 a7 a8 a9 a10 a11)
        (k1_pay7 (k1_pay2 a1 a2 a3 a4 a5 a0) (k1_pay3 a1 a2 a3 a4 a5 a0) (k1_pay4 a1 a2 a3 a4 a5 a0)
          (Scalar.ofBits .f32 0x43800000#32) a6 a7 a8 a9 a10 a11)
        a12 a13 (ix2 p q)
      = outRow (fun k => a0 (ix2 p k)) (fun k => a1 (ix2 p k)) (fun a k => a2 (ix2 a k)) (fun a k => a3 (ix2 a k))
          (fun k j => a4 (ix2 k j)) (fun j => a5 (ix2 (0 : Fin 1) j)) (fun j => a6 (ix2 (0 : Fin 1) j)) (fun j => a7 (ix2 (0 : Fin 1) j))
          (fun k j => a8 (ix2 k j)) (fun j => a9 (ix2 (0 : Fin 1) j)) (fun k j => a10 (ix2 k j)) (fun j => a11 (ix2 (0 : Fin 1) j))
          (fun j => a12 (ix2 (0 : Fin 1) j)) (fun j => a13 (ix2 (0 : Fin 1) j)) q := by
  have hx2 : (fun k : Fin 256 => k1_pay2 (F := Ideal) a1 a2 a3 a4 a5 a0 (ix2 p k))
      = x2Row (fun k => a0 (ix2 p k)) (fun k => a1 (ix2 p k)) (fun a k => a2 (ix2 a k)) (fun a k => a3 (ix2 a k))
          (fun k j => a4 (ix2 k j)) (fun j => a5 (ix2 (0 : Fin 1) j)) := funext fun k => pay2_apply a1 a2 a3 a4 a5 a0 p k
  have hx3 : (fun k : Fin 256 => k1_pay5 (F := Ideal) (k1_pay2 a1 a2 a3 a4 a5 a0) (k1_pay3 a1 a2 a3 a4 a5 a0) (k1_pay4 a1 a2 a3 a4 a5 a0)
          (Scalar.ofBits .f32 0x43800000#32) a6 a7 a8 a9 a10 a11 (ix2 p k))
      = x3Row (ln (x2Row (fun k => a0 (ix2 p k)) (fun k => a1 (ix2 p k)) (fun a k => a2 (ix2 a k)) (fun a k => a3 (ix2 a k))
            (fun k j => a4 (ix2 k j)) (fun j => a5 (ix2 (0 : Fin 1) j))) (fun j => a6 (ix2 (0 : Fin 1) j)) (fun j => a7 (ix2 (0 : Fin 1) j)))
          (fun k j => a8 (ix2 k j)) (fun j => a9 (ix2 (0 : Fin 1) j)) (fun k j => a10 (ix2 k j)) (fun j => a11 (ix2 (0 : Fin 1) j)) :=
    funext fun k => by
      rw [pay5_apply _ _ _ (Scalar.ofBits (F := Ideal) .f32 0x43800000#32) a6 a7 a8 a9 a10 a11 rfl p k, pay3_apply a1 a2 a3 a4 a5 a0 p 0, pay4_apply a1 a2 a3 a4 a5 a0 p 0, hx2]
      rfl
  rw [pay1_apply, pay6_apply _ _ _ (Scalar.ofBits (F := Ideal) .f32 0x43800000#32) a6 a7 a8 a9 a10 a11 rfl p 0,
    pay7_apply _ _ _ (Scalar.ofBits (F := Ideal) .f32 0x43800000#32) a6 a7 a8 a9 a10 a11 rfl p 0, hx3]
  rfl

end Cert.KernelIdeal.Attn

end
-- ==== Proof.AttnArr.lean ====
/-
  The attention region's output array after the region, as one function of the arrays the region is entered with.

  The grid has 64 points; point `t` reads rows `128 t … 128 t + 127` of `h1` and of the query features, the whole
  key-feature and value arrays and the parameters, and writes back rows `128 t … 128 t + 127` of the result. Row
  `r = 128 t + p` of what it writes is the layer's result row of row `r` of the inputs, so every block is the
  restriction of ONE whole-array function `outArr`; the 64 blocks tile the 8192 rows, so the array ends at `outArr`.
-/
import proofs.«132447_j24799141167762_2_alg».proof.Proof.Gen.KernelIdeal.Frame
import proofs.«132447_j24799141167762_2_alg».proof.Proof.Attn
import Idealize.ShloMosaic.Lib.Pipeline.Value

set_option maxRecDepth 16384

noncomputable section

namespace Cert.KernelIdeal.AttnArr

open Cert.KernelIdeal Cert.KernelIdeal.Gen Idealize.ShloMosaic Idealize.ShloMosaic.TcCoe Idealize.SL.Sem
open Idealize.ShloMosaic.ValueIdx Cert.Spec

variable (V : (c : Dev nD) → (b : Ref sig .tc) → Buf (Elt Ideal) ((c : Thread nD τ).loc b))

theorem hz : (![0, 0] : Fin 2 → Nat) = fun _ => 0 := funext fun a => by fin_cases a <;> rfl

/-- The result array as a function of the region's input arrays: row `I 0`, entry `I 1` is the layer's result row
    of that row of `h1` and of the query features, against all key features and values. -/
def outArr (A0 A1 A2 A3 : S8192x256.Idx → EReal) (A4 : S256x256.Idx → EReal) (A5 A6 A7 : S1x256.Idx → EReal)
    (A8 : S256x512.Idx → EReal) (A9 : S1x512.Idx → EReal) (A10 : S512x256.Idx → EReal) (A11 A12 A13 : S1x256.Idx → EReal) :
    S8192x256.Idx → EReal := fun I =>
  outRow (fun k => A0 (ix2 (I 0) k)) (fun k => A1 (ix2 (I 0) k)) (fun a k => A2 (ix2 a k)) (fun a k => A3 (ix2 a k))
    (fun k j => A4 (ix2 k j)) (fun j => A5 (ix2 (0 : Fin 1) j)) (fun j => A6 (ix2 (0 : Fin 1) j)) (fun j => A7 (ix2 (0 : Fin 1) j))
    (fun k j => A8 (ix2 k j)) (fun j => A9 (ix2 (0 : Fin 1) j)) (fun k j => A10 (ix2 k j)) (fun j => A11 (ix2 (0 : Fin 1) j))
    (fun j => A12 (ix2 (0 : Fin 1) j)) (fun j => A13 (ix2 (0 : Fin 1) j)) (I 1)

/-- The index maps over the grid: the two row-blocked inputs and the output move with the point, every other window
    stays at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_14.index t (0 : Fin 2) = t.val ∧ win1_14.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = 0 ∧ win1_13.index t (1 : Fin 2) = 0 :=
  (by decide +kernel : ∀ t : Fin grid1.N, _)

set_option maxHeartbeats 8000000 in
/-- What point `t` writes back is block `t` of `outArr` of the arrays the region is entered with. -/
theorem flushed_eq (c : Dev nD) (t : Fin cfg1.N) :
    (dat1 V c).flushed 14 t = ((cfg1.win 14).blk t).view.read (Elt Ideal)
      (outArr (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) (V c (Pipeline.arrRef spec1 7))
        (V c (Pipeline.arrRef spec1 8)) (V c (Pipeline.arrRef spec1 9)) (V c (Pipeline.arrRef spec1 10)) (V c (Pipeline.arrRef spec1 11))
        (V c (Pipeline.arrRef spec1 12)) (V c (Pipeline.arrRef spec1 13))) := by
  obtain ⟨e00, e01, e10, e11, eo0, eo1, e20, e21, e30, e31, e40, e41, e50, e51, e60, e61, e70, e71, e80, e81, e90, e91,
    ea0, ea1, eb0, eb1, ec0, ec1, ed0, ed1⟩ := idx_facts t
  show (cfg1.win 14).cut (grid1.coords t) ((dat1 V c).after 14 t) = _
  rw [after1_14]
  unfold out1_14
  rw [View.canon_unit_zero hz]
  simp only [View.ld_unit_zero (S := S128x256) hz, View.ld_unit_zero (S := S8192x256) hz, View.ld_unit_zero (S := S256x256) hz,
    View.ld_unit_zero (S := S1x256) hz, View.ld_unit_zero (S := S256x512) hz, View.ld_unit_zero (S := S1x512) hz,
    View.ld_unit_zero (S := S512x256) hz]
  funext y
  obtain ⟨p, q, rfl⟩ : ∃ (p : Fin 128) (q : Fin 256), y = ix2 p q := ⟨y 0, y 1, eq_ix2 y⟩
  refine (Attn.body_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t)
    (iblk1 V c 13 t) p q).trans ?_
  have hp : p.val < 128 := p.isLt
  have hq : q.val < 256 := q.isLt
  -- the output block's element (p, q) sits at row 128 t + p, column q of the array
  have hE0 : ((((cfg1.win 14).blk t).view.emb (ix2 p q)) 0).val = t.val * 128 + p.val := by
    show win1_14.index t (0 : Fin 2) * 128 + 1 * p.val = _; omega
  have hE1 : ((((cfg1.win 14).blk t).view.emb (ix2 p q)) 1).val = q.val := by
    show win1_14.index t (1 : Fin 2) * 256 + 1 * q.val = _; omega
  have r0 : (fun k : Fin 256 => iblk1 V c 0 t (ix2 p k))
      = fun k => V c (Pipeline.arrRef spec1 0) (ix2 ((((cfg1.win 14).blk t).view.emb (ix2 p q)) 0) k) := funext fun k => by
    show V c (Pipeline.arrRef spec1 0) (((cfg1.win 0).blk t).view.emb (ix2 p k)) = _
    refine congrArg _ (funext fun a => Fin.ext ?_)
    match a with
    | ⟨0, _⟩ => show win1_0.index t (0 : Fin 2) * 128 + 1 * p.val = _; rw [hE0]; omega
    | ⟨1, _⟩ => show win1_0.index t (1 : Fin 2) * 256 + 1 * k.val = k.val; omega
  have r1 : (fun k : Fin 256 => iblk1 V c 1 t (ix2 p k))
      = fun k => V c (Pipeline.arrRef spec1 1) (ix2 ((((cfg1.win 14).blk t).view.emb (ix2 p q)) 0) k) := funext fun k => by
    show V c (Pipeline.arrRef spec1 1) (((cfg1.win 1).blk t).view.emb (ix2 p k)) = _
    refine congrArg _ (funext fun a => Fin.ext ?_)
    match a with
    | ⟨0, _⟩ => show win1_1.index t (0 : Fin 2) * 128 + 1 * p.val = _; rw [hE0]; omega
    | ⟨1, _⟩ => show win1_1.index t (1 : Fin 2) * 256 + 1 * k.val = k.val; omega
  have r2 : (fun (a : Fin 8192) (k : Fin 256) => iblk1 V c 2 t (ix2 a k)) = fun a k => V c (Pipeline.arrRef spec1 2) (ix2 a k) :=
    funext fun a => funext fun k => by
      show V c (Pipeline.arrRef spec1 2) (((cfg1.win 2).blk t).view.emb (ix2 a k)) = _
      refine congrArg _ (funext fun d => Fin.ext ?_)
      match d with
      | ⟨0, _⟩ => show win1_2.index t (0 : Fin 2) * 8192 + 1 * a.val = a.val; omega
      | ⟨1, _⟩ => show win1_2.index t (1 : Fin 2) * 256 + 1 * k.val = k.val; omega
  have r3 : (fun (a : Fin 8192) (k : Fin 256) => iblk1 V c 3 t (ix2 a k)) = fun a k => V c (Pipeline.arrRef spec1 3) (ix2 a k) :=
    funext fun a => funext fun k => by
      show V c (Pipeline.arrRef spec1 3) (((cfg1.win 3).blk t).view.emb (ix2 a k)) = _
      refine congrArg _ (funext fun d => Fin.ext ?_)
      match d with
      | ⟨0, _⟩ => show win1_3.index t (0 : Fin 2) * 8192 + 1 * a.val = a.val; omega
      | ⟨1, _⟩ => show win1_3.index t (1 : Fin 2) * 256 + 1 * k.val = k.val; omega
  have r4 : (fun (a : Fin 256) (k : Fin 256) => iblk1 V c 4 t (ix2 a k)) = fun a k => V c (Pipeline.arrRef spec1 4) (ix2 a k) :=
    funext fun a => funext fun k => by
      show V c (Pipeline.arrRef spec1 4) (((cfg1.win 4).blk t).view.emb (ix2 a k)) = _
      refine congrArg _ (funext fun d => Fin.ext ?_)
      match d with
      | ⟨0, _⟩ => show win1_4.index t (0 : Fin 2) * 256 + 1 * a.val = a.val; omega
      | ⟨1, _⟩ => show win1_4.index t (1 : Fin 2) * 256 + 1 * k.val = k.val; omega
  have r8 : (fun (a : Fin 256) (k : Fin 512) => iblk1 V c 8 t (ix2 a k)) = fun a k => V c (Pipeline.arrRef spec1 8) (ix2 a k) :=
    funext fun a => funext fun k => by
      show V c (Pipeline.arrRef spec1 8) (((cfg1.win 8).blk t).view.emb (ix2 a k)) = _
      refine congrArg _ (funext fun d => Fin.ext ?_)
      match d with
      | ⟨0, _⟩ => show win1_8.index t (0 : Fin 2) * 256 + 1 * a.val = a.val; omega
      | ⟨1, _⟩ => show win1_8.index t (1 : Fin 2) * 512 + 1 * k.val = k.val; omega
  have r10 : (fun (a : Fin 512) (k : Fin 256) => iblk1 V c 10 t (ix2 a k)) = fun a k => V c (Pipeline.arrRef spec1 10) (ix2 a k) :=
    funext fun a => funext fun k => by
      show V c (Pipeline.arrRef spec1 10) (((cfg1.win 10).blk t).view.emb (ix2 a k)) = _
      refine congrArg _ (funext fun d => Fin.ext ?_)
      match d with
      | ⟨0, _⟩ => show win1_10.index t (0 : Fin 2) * 512 + 1 * a.val = a.val; omega
      | ⟨1, _⟩ => show win1_10.index t (1 : Fin 2) * 256 + 1 * k.val = k.val; omega
  have r5 : (fun k : Fin 256 => iblk1 V c 5 t (ix2 (0 : Fin 1) k)) = fun k => V c (Pipeline.arrRef spec1 5) (ix2 (0 : Fin 1) k) :=
    funext fun k => by
      show V c (Pipeline.arrRef spec1 5) (((cfg1.win 5).blk t).view.emb (ix2 (0 : Fin 1) k)) = _
      refine congrArg _ (funext fun d => Fin.ext ?_)
      match d with
      | ⟨0, _⟩ => show win1_5.index t (0 : Fin 2) * 1 + 1 * 0 = 0; omega
      | ⟨1, _⟩ => show win1_5.index t (1 : Fin 2) * 256 + 1 * k.val = k.val; omega
  have r6 : (fun k : Fin 256 => iblk1 V c 6 t (ix2 (0 : Fin 1) k)) = fun k => V c (Pipeline.arrRef spec1 6) (ix2 (0 : Fin 1) k) :=
    funext fun k => by
      show V c (Pipeline.arrRef spec1 6) (((cfg1.win 6).blk t).view.emb (ix2 (0 : Fin 1) k)) = _
      refine congrArg _ (funext fun d => Fin.ext ?_)
      match d with
      | ⟨0, _⟩ => show win1_6.index t (0 : Fin 2) * 1 + 1 * 0 = 0; omega
      | ⟨1, _⟩ => show win1_6.index t (1 : Fin 2) * 256 + 1 * k.val = k.val; omega
  have r7 : (fun k : Fin 256 => iblk1 V c 7 t (ix2 (0 : Fin 1) k)) = fun k => V c (Pipeline.arrRef spec1 7) (ix2 (0 : Fin 1) k) :=
    funext fun k => by
      show V c (Pipeline.arrRef spec1 7) (((cfg1.win 7).blk t).view.emb (ix2 (0 : Fin 1) k)) = _
      refine congrArg _ (funext fun d => Fin.ext ?_)
      match d with
      | ⟨0, _⟩ => show win1_7.index t (0 : Fin 2) * 1 + 1 * 0 = 0; omega
      | ⟨1, _⟩ => show win1_7.index t (1 : Fin 2) * 256 + 1 * k.val = k.val; omega
  have r9 : (fun k : Fin 512 => iblk1 V c 9 t (ix2 (0 : Fin 1) k)) = fun k => V c (Pipeline.arrRef spec1 9) (ix2 (0 : Fin 1) k) :=
    funext fun k => by
      show V c (Pipeline.arrRef spec1 9) (((cfg1.win 9).blk t).view.emb (ix2 (0 : Fin 1) k)) = _
      refine congrArg _ (funext fun d => Fin.ext ?_)
      match d with
      | ⟨0, _⟩ => show win1_9.index t (0 : Fin 2) * 1 + 1 * 0 = 0; omega
      | ⟨1, _⟩ => show win1_9.index t (1 : Fin 2) * 512 + 1 * k.val = k.val; omega
  have r11 : (fun k : Fin 256 => iblk1 V c 11 t (ix2 (0 : Fin 1) k)) = fun k => V c (Pipeline.arrRef spec1 11) (ix2 (0 : Fin 1) k) :=
    funext fun k => by
      show V c (Pipeline.arrRef spec1 11) (((cfg1.win 11).blk t).view.emb (ix2 (0 : Fin 1) k)) = _
      refine congrArg _ (funext fun d => Fin.ext ?_)
      match d with
      | ⟨0, _⟩ => show win1_11.index t (0 : Fin 2) * 1 + 1 * 0 = 0; omega
      | ⟨1, _⟩ => show win1_11.index t (1 : Fin 2) * 256 + 1 * k.val = k.val; omega
  have r12 : (fun k : Fin 256 => iblk1 V c 12 t (ix2 (0 : Fin 1) k)) = fun k => V c (Pipeline.arrRef spec1 12) (ix2 (0 : Fin 1) k) :=
    funext fun k => by
      show V c (Pipeline.arrRef spec1 12) (((cfg1.win 12).blk t).view.emb (ix2 (0 : Fin 1) k)) = _
      refine congrArg _ (funext fun d => Fin.ext ?_)
      match d with
      | ⟨0, _⟩ => show win1_12.index t (0 : Fin 2) * 1 + 1 * 0 = 0; omega
      | ⟨1, _⟩ => show win1_12.index t (1 : Fin 2) * 256 + 1 * k.val = k.val; omega
  have r13 : (fun k : Fin 256 => iblk1 V c 13 t (ix2 (0 : Fin 1) k)) = fun k => V c (Pipeline.arrRef spec1 13) (ix2 (0 : Fin 1) k) :=
    funext fun k => by
      show V c (Pipeline.arrRef spec1 13) (((cfg1.win 13).blk t).view.emb (ix2 (0 : Fin 1) k)) = _
      refine congrArg _ (funext fun d => Fin.ext ?_)
      match d with
      | ⟨0, _⟩ => show win1_13.index t (0 : Fin 2) * 1 + 1 * 0 = 0; omega
      | ⟨1, _⟩ => show win1_13.index t (1 : Fin 2) * 256 + 1 * k.val = k.val; omega
  rw [r0, r1, r2, r3, r4, r5, r6, r7, r8, r9, r10, r11, r12, r13]
  show _ = outArr _ _ _ _ _ _ _ _ _ _ _ _ _ _ (((cfg1.win 14).blk t).view.emb (ix2 p q))
  unfold outArr
  exact congrArg (outRow _ _ _ _ _ _ _ _ _ _ _ _ _ _) (Fin.ext hE1.symm)

/-- An index of the array is in point `t`'s block iff each coordinate is in the block's range on its axis. -/
theorem mem_blk (t : Fin cfg1.N) (i : S8192x256.Idx) :
    i ∈ ((cfg1.win 14).blk t).view.set ↔ ∀ a : Fin 2, win1_14.index t a * S128x256.size a ≤ (i a).val ∧ (i a).val < win1_14.index t a * S128x256.size a + S128x256.size a := by
  show i ∈ ((View.whole main_v63).slice (win1_14.rect t)).set ↔ _
  rw [View.set_slice_whole, Rect.mem_set_unit]
  exact Iff.rfl

set_option maxHeartbeats 2000000 in
/-- The 64 blocks tile the array: row `r` is in the block of point `r / 128`. -/
theorem cover (i : S8192x256.Idx) : ∃ t : Fin cfg1.N, (cfg1.win 14).flush t = true ∧ i ∈ ((cfg1.win 14).blk t).view.set := by
  have hi0 : (i 0).val < 8192 := (i 0).isLt
  have hi1 : (i 1).val < 256 := (i 1).isLt
  refine ⟨⟨(i 0).val / 128, by show (i 0).val / 128 < 64; omega⟩, flush1_14 _, ?_⟩
  rw [mem_blk]
  obtain ⟨-, -, -, -, eo0, eo1, -⟩ := idx_facts ⟨(i 0).val / 128, by show (i 0).val / 128 < 64; omega⟩
  intro a
  match a with
  | ⟨0, _⟩ =>
    show win1_14.index _ (0 : Fin 2) * 128 ≤ (i 0).val ∧ (i 0).val < win1_14.index _ (0 : Fin 2) * 128 + 128
    rw [eo0]; show (i 0).val / 128 * 128 ≤ (i 0).val ∧ (i 0).val < (i 0).val / 128 * 128 + 128; omega
  | ⟨1, _⟩ =>
    show win1_14.index _ (1 : Fin 2) * 256 ≤ (i 1).val ∧ (i 1).val < win1_14.index _ (1 : Fin 2) * 256 + 256
    rw [eo1]; omega

/-- The output array after the region: `outArr` of the arrays the region is entered with. -/
theorem final (c : Dev nD) :
    (dat1 V c).arrAt 14 cfg1.N
      = outArr (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) (V c (Pipeline.arrRef spec1 7))
        (V c (Pipeline.arrRef spec1 8)) (V c (Pipeline.arrRef spec1 9)) (V c (Pipeline.arrRef spec1 10)) (V c (Pipeline.arrRef spec1 11))
        (V c (Pipeline.arrRef spec1 12)) (V c (Pipeline.arrRef spec1 13)) :=
  (dat1 V c).arrAt_eq_of_cover 14 _ (fun t _ => flushed_eq V c t) cover

end Cert.KernelIdeal.AttnArr

end
-- ==== Proof.Proj.lean ====
/-
  The projection kernel's body on a block of 1024 rows, read at an index `(p, q)`.

  From the loaded blocks of `h` and of the neighbourhood aggregate the body forms the normalised row `h1`; the three
  affine images of `h1`; and the products of the query and key images with the transposed feature matrix. Each is
  the specification's row function of row `p` of the blocks.
-/
import proofs.«132447_j24799141167762_2_alg».proof.Proof.Gen.KernelIdeal.Skeleton
import proofs.«132447_j24799141167762_2_alg».proof.Proof.RowOps

noncomputable section

namespace Cert.KernelIdeal.Proj

open Cert.KernelIdeal Cert.KernelIdeal.Gen Idealize.ShloMosaic Idealize.ShloMosaic.ValueIdx Cert.Spec Cert.RowOps

/-- The printed dimension record of the block products is the plain `[1024, 256] × [256, 256]` one. -/
theorem dot_eq : dot_S1024x256_S256x256_S1024x256_1_0_0_1_n_n = DotDims.plain 1024 256 256 := rfl

/-- The normalised block: entry `(p, q)` is `h1` of row `p` of the two loaded blocks. -/
theorem pay5_apply (v0 v1 : FVec Ideal S1024x256 .f32) (v22 v26 : FVec Ideal S1x256 .f32) (p : Fin 1024) (q : Fin 256) :
    k0_pay5 (F := Ideal) v0 v1 v22 v26 (ix2 p q)
      = h1Row (fun k => v0 (ix2 p k)) (fun k => v1 (ix2 p k)) (fun k => v22 (ix2 (0 : Fin 1) k)) (fun k => v26 (ix2 (0 : Fin 1) k)) q := by
  unfold k0_pay5
  refine (lnTail_apply (R := 1024) (addf v0 (shapeCast S1024x256 v1 shapeCasts_S1024x256_S1024x256))
    broadcasts_S1024x1_S1024x256 shapeCasts_S1x256_S1x256 broadcasts_S1x256_S1024x256 _ _ _ v22 v26 rfl p q).trans ?_
  have hx : (fun k : Fin 256 => addf v0 (shapeCast S1024x256 v1 shapeCasts_S1024x256_S1024x256) (ix2 p k))
      = fun k => v0 (ix2 p k) + v1 (ix2 p k) := by
    funext k; rw [shapeCast_self]; rfl
  have hmu := meanCol_apply (R := 1024) (addf v0 (shapeCast S1024x256 v1 shapeCasts_S1024x256_S1024x256))
    reduces_S1024x256_S1024 (.inl rfl) rfl shapeCasts_S1024_S1024x1 p (0 : Fin 1)
  rw [hmu, ssqCol_apply (R := 1024) _ reduces_S1024x256_S1024 (.inl rfl) rfl shapeCasts_S1024_S1024x1
    broadcasts_S1024x1_S1024x256 _ p (0 : Fin 1) hmu, hx]
  rfl

/-- The query image: entry `(p, q)` is the affine image of `h1` of row `p`. -/
theorem pay6_apply (v0 v1 : FVec Ideal S1024x256 .f32) (v22 v26 : FVec Ideal S1x256 .f32) (v31 : FVec Ideal S256x256 .f32)
    (v33 : FVec Ideal S1x256 .f32) (p : Fin 1024) (q : Fin 256) :
    k0_pay6 (F := Ideal) v0 v1 v22 v26 v31 v33 (ix2 p q)
      = lin (h1Row (fun k => v0 (ix2 p k)) (fun k => v1 (ix2 p k)) (fun k => v22 (ix2 (0 : Fin 1) k)) (fun k => v26 (ix2 (0 : Fin 1) k)))
          (fun k j => v31 (ix2 k j)) (fun j => v33 (ix2 (0 : Fin 1) j)) q := by
  unfold k0_pay6
  rw [dot_eq]
  refine (lin_apply (R := 1024) (some .fp32) (k0_pay5 (F := Ideal) v0 v1 v22 v26) v31 v33 shapeCasts_S1x256_S1x256
    broadcasts_S1x256_S1024x256 p q).trans ?_
  exact congrArg (fun r => lin r (fun k j => v31 (ix2 k j)) (fun j => v33 (ix2 (0 : Fin 1) j)) q)
    (funext fun k => pay5_apply v0 v1 v22 v26 p k)

/-- A block times the loaded transposed feature matrix: entry `(p, q)` is row `p` times the matrix. -/
theorem pay3_apply (v36 : FVec Ideal S1024x256 .f32) (v49 : FVec Ideal S256x256 .f32) (p : Fin 1024) (q : Fin 256) :
    k0_pay3 (F := Ideal) v36 v49 (ix2 p q) = mv (fun k => v36 (ix2 p k)) (fun k j => v49 (ix2 k j)) q := by
  unfold k0_pay3 k0_pay2
  rw [dot_eq, shapeCast_self v49]
  exact mv_apply (R := 1024) (some .fp32) v36 v49 p q

/-- The key features: the affine image of row `p`, times the loaded transposed feature matrix. -/
theorem pay4_apply (v29 : FVec Ideal S1024x256 .f32) (v37 : FVec Ideal S256x256 .f32) (v39 : FVec Ideal S1x256 .f32)
    (v49 : FVec Ideal S256x256 .f32) (p : Fin 1024) (q : Fin 256) :
    k0_pay4 (F := Ideal) v29 v37 v39 v49 (ix2 p q)
      = mv (lin (fun k => v29 (ix2 p k)) (fun k j => v37 (ix2 k j)) (fun j => v39 (ix2 (0 : Fin 1) j))) (fun k j => v49 (ix2 k j)) q := by
  unfold k0_pay4 k0_pay2
  rw [dot_eq, shapeCast_self v49]
  refine (mv_apply (R := 1024) (some .fp32) _ v49 p q).trans ?_
  exact congrArg (fun r => mv r (fun k j => v49 (ix2 k j)) q)
    (funext fun k => lin_apply (R := 1024) (some .fp32) v29 v37 v39 shapeCasts_S1x256_S1x256 broadcasts_S1x256_S1024x256 p k)

/-- The value image: entry `(p, q)` is the affine image of row `p`. -/
theorem pay1_apply (v29 : FVec Ideal S1024x256 .f32) (v43 : FVec Ideal S256x256 .f32) (v45 : FVec Ideal S1x256 .f32)
    (p : Fin 1024) (q : Fin 256) :
    k0_pay1 (F := Ideal) v29 v43 v45 (ix2 p q)
      = lin (fun k => v29 (ix2 p k)) (fun k j => v43 (ix2 k j)) (fun j => v45 (ix2 (0 : Fin 1) j)) q := by
  unfold k0_pay1
  rw [dot_eq]
  exact lin_apply (R := 1024) (some .fp32) v29 v43 v45 shapeCasts_S1x256_S1x256 broadcasts_S1x256_S1024x256 p q

end Cert.KernelIdeal.Proj

end
-- ==== Proof.ProjArr.lean ====
/-
  The projection region's four output arrays after the region, each as one function of the arrays the region is
  entered with.

  The grid has 8 points; point `t` reads rows `1024 t … 1024 t + 1023` of the features and of the neighbourhood
  aggregate and the whole parameter arrays, and writes back the same rows of `h1`, of the query and key features
  and of the values. Row `r = 1024 t + p` of what it writes is the specification's row function of row `r` of the
  inputs, so the blocks are restrictions of whole-array functions; the 8 blocks tile the 8192 rows.
-/
import proofs.«132447_j24799141167762_2_alg».proof.Proof.Gen.KernelIdeal.Frame
import proofs.«132447_j24799141167762_2_alg».proof.Proof.Proj
import Idealize.ShloMosaic.Lib.Pipeline.Value

set_option maxRecDepth 16384

noncomputable section

namespace Cert.KernelIdeal.ProjArr

open Cert.KernelIdeal Cert.KernelIdeal.Gen Idealize.ShloMosaic Idealize.ShloMosaic.TcCoe Idealize.SL.Sem
open Idealize.ShloMosaic.ValueIdx Cert.Spec

variable (V : (c : Dev nD) → (b : Ref sig .tc) → Buf (Elt Ideal) ((c : Thread nD τ).loc b))

theorem hz : (![0, 0] : Fin 2 → Nat) = fun _ => 0 := funext fun a => by fin_cases a <;> rfl

/-- Row `I 0` of `h1`, as a row function of the features `A0`, the aggregate `A1`, the gain `A9` and the shift `A10`. -/
def h1At (A0 A1 : S8192x256.Idx → EReal) (A9 A10 : S1x256.Idx → EReal) (r : Fin 8192) : Fin 256 → EReal :=
  h1Row (fun k => A0 (ix2 r k)) (fun k => A1 (ix2 r k)) (fun k => A9 (ix2 (0 : Fin 1) k)) (fun k => A10 (ix2 (0 : Fin 1) k))

/-- The array `h1`. -/
def h1Arr (A0 A1 : S8192x256.Idx → EReal) (A9 A10 : S1x256.Idx → EReal) : S8192x256.Idx → EReal :=
  fun I => h1At A0 A1 A9 A10 (I 0) (I 1)

/-- An affine image of `h1` times the (transposed) feature matrix `A8`: the query or the key features. -/
def featArr (A0 A1 : S8192x256.Idx → EReal) (A9 A10 : S1x256.Idx → EReal) (W : S256x256.Idx → EReal) (b : S1x256.Idx → EReal)
    (A8 : S256x256.Idx → EReal) : S8192x256.Idx → EReal :=
  fun I => mv (lin (h1At A0 A1 A9 A10 (I 0)) (fun k j => W (ix2 k j)) (fun j => b (ix2 (0 : Fin 1) j))) (fun k j => A8 (ix2 k j)) (I 1)

/-- An affine image of `h1`: the values. -/
def linArr (A0 A1 : S8192x256.Idx → EReal) (A9 A10 : S1x256.Idx → EReal) (W : S256x256.Idx → EReal) (b : S1x256.Idx → EReal) :
    S8192x256.Idx → EReal :=
  fun I => lin (h1At A0 A1 A9 A10 (I 0)) (fun k j => W (ix2 k j)) (fun j => b (ix2 (0 : Fin 1) j)) (I 1)

/-- The index maps over the grid: the two row-blocked inputs and the four outputs move with the point, every parameter
    window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- The array row that row `p` of point `t`'s blocks is. -/
def rowOf (t : Fin cfg0.N) (p : Fin 1024) : Fin 8192 :=
  ⟨t.val * 1024 + p.val, by have ht : t.val < 8 := t.isLt; have hp := p.isLt; omega⟩

set_option maxHeartbeats 8000000 in
/-- Row `p` of every input block at point `t`, read off the arrays the region is entered with. -/
theorem blocks (c : Dev nD) (t : Fin cfg0.N) (p : Fin 1024) :
    ((fun k : Fin 256 => iblk0 V c 0 t (ix2 p k)) = fun k => V c (Pipeline.arrRef spec0 0) (ix2 (rowOf t p) k))
    ∧ ((fun k : Fin 256 => iblk0 V c 1 t (ix2 p k)) = fun k => V c (Pipeline.arrRef spec0 1) (ix2 (rowOf t p) k))
    ∧ ((fun (a : Fin 256) (k : Fin 256) => iblk0 V c 2 t (ix2 a k)) = fun a k => V c (Pipeline.arrRef spec0 2) (ix2 a k))
    ∧ ((fun k : Fin 256 => iblk0 V c 3 t (ix2 (0 : Fin 1) k)) = fun k => V c (Pipeline.arrRef spec0 3) (ix2 (0 : Fin 1) k))
    ∧ ((fun (a : Fin 256) (k : Fin 256) => iblk0 V c 4 t (ix2 a k)) = fun a k => V c (Pipeline.arrRef spec0 4) (ix2 a k))
    ∧ ((fun k : Fin 256 => iblk0 V c 5 t (ix2 (0 : Fin 1) k)) = fun k => V c (Pipeline.arrRef spec0 5) (ix2 (0 : Fin 1) k))
    ∧ ((fun (a : Fin 256) (k : Fin 256) => iblk0 V c 6 t (ix2 a k)) = fun a k => V c (Pipeline.arrRef spec0 6) (ix2 a k))
    ∧ ((fun k : Fin 256 => iblk0 V c 7 t (ix2 (0 : Fin 1) k)) = fun k => V c (Pipeline.arrRef spec0 7) (ix2 (0 : Fin 1) k))
    ∧ ((fun (a : Fin 256) (k : Fin 256) => iblk0 V c 8 t (ix2 a k)) = fun a k => V c (Pipeline.arrRef spec0 8) (ix2 a k))
    ∧ ((fun k : Fin 256 => iblk0 V c 9 t (ix2 (0 : Fin 1) k)) = fun k => V c (Pipeline.arrRef spec0 9) (ix2 (0 : Fin 1) k))
    ∧ ((fun k : Fin 256 => iblk0 V c 10 t (ix2 (0 : Fin 1) k)) = fun k => V c (Pipeline.arrRef spec0 10) (ix2 (0 : Fin 1) k)) := by
  obtain ⟨e0a, e0b, e1a, e1b, e11a, e11b, e12a, e12b, e13a, e13b, e14a, e14b, e2a, e2b, e3a, e3b, e4a, e4b, e5a, e5b, e6a, e6b, e7a, e7b, e8a, e8b, e9a, e9b, e10a, e10b⟩ := idx_facts t
  have hp : p.val < 1024 := p.isLt
  have r0 : (fun k : Fin 256 => iblk0 V c 0 t (ix2 p k)) = fun k => V c (Pipeline.arrRef spec0 0) (ix2 (rowOf t p) k) :=
    funext fun k => by
      show V c (Pipeline.arrRef spec0 0) (((cfg0.win 0).blk t).view.emb (ix2 p k)) = _
      refine congrArg _ (funext fun d => Fin.ext ?_)
      match d with
      | ⟨0, _⟩ => show win0_0.index t (0 : Fin 2) * 1024 + 1 * p.val = t.val * 1024 + p.val; omega
      | ⟨1, _⟩ => show win0_0.index t (1 : Fin 2) * 256 + 1 * k.val = k.val; omega
  have r1 : (fun k : Fin 256 => iblk0 V c 1 t (ix2 p k)) = fun k => V c (Pipeline.arrRef spec0 1) (ix2 (rowOf t p) k) :=
    funext fun k => by
      show V c (Pipeline.arrRef spec0 1) (((cfg0.win 1).blk t).view.emb (ix2 p k)) = _
      refine congrArg _ (funext fun d => Fin.ext ?_)
      match d with
      | ⟨0, _⟩ => show win0_1.index t (0 : Fin 2) * 1024 + 1 * p.val = t.val * 1024 + p.val; omega
      | ⟨1, _⟩ => show win0_1.index t (1 : Fin 2) * 256 + 1 * k.val = k.val; omega
  have r2 : (fun (a : Fin 256) (k : Fin 256) => iblk0 V c 2 t (ix2 a k)) = fun a k => V c (Pipeline.arrRef spec0 2) (ix2 a k) :=
    funext fun a => funext fun k => by
      show V c (Pipeline.arrRef spec0 2) (((cfg0.win 2).blk t).view.emb (ix2 a k)) = _
      refine congrArg _ (funext fun d => Fin.ext ?_)
      match d with
      | ⟨0, _⟩ => show win0_2.index t (0 : Fin 2) * 256 + 1 * a.val = a.val; omega
      | ⟨1, _⟩ => show win0_2.index t (1 : Fin 2) * 256 + 1 * k.val = k.val; omega
  have r3 : (fun k : Fin 256 => iblk0 V c 3 t (ix2 (0 : Fin 1) k)) = fun k => V c (Pipeline.arrRef spec0 3) (ix2 (0 : Fin 1) k) :=
    funext fun k => by
      show V c (Pipeline.arrRef spec0 3) (((cfg0.win 3).blk t).view.emb (ix2 (0 : Fin 1) k)) = _
      refine congrArg _ (funext fun d => Fin.ext ?_)
      match d with
      | ⟨0, _⟩ => show win0_3.index t (0 : Fin 2) * 1 + 1 * 0 = 0; omega
      | ⟨1, _⟩ => show win0_3.index t (1 : Fin 2) * 256 + 1 * k.val = k.val; omega
  have r4 : (fun (a : Fin 256) (k : Fin 256) => iblk0 V c 4 t (ix2 a k)) = fun a k => V c (Pipeline.arrRef spec0 4) (ix2 a k) :=
    funext fun a => funext fun k => by
      show V c (Pipeline.arrRef spec0 4) (((cfg0.win 4).blk t).view.emb (ix2 a k)) = _
      refine congrArg _ (funext fun d => Fin.ext ?_)
      match d with
      | ⟨0, _⟩ => show win0_4.index t (0 : Fin 2) * 256 + 1 * a.val = a.val; omega
      | ⟨1, _⟩ => show win0_4.index t (1 : Fin 2) * 256 + 1 * k.val = k.val; omega
  have r5 : (fun k : Fin 256 => iblk0 V c 5 t (ix2 (0 : Fin 1) k)) = fun k => V c (Pipeline.arrRef spec0 5) (ix2 (0 : Fin 1) k) :=
    funext fun k => by
      show V c (Pipeline.arrRef spec0 5) (((cfg0.win 5).blk t).view.emb (ix2 (0 : Fin 1) k)) = _
      refine congrArg _ (funext fun d => Fin.ext ?_)
      match d with
      | ⟨0, _⟩ => show win0_5.index t (0 : Fin 2) * 1 + 1 * 0 = 0; omega
      | ⟨1, _⟩ => show win0_5.index t (1 : Fin 2) * 256 + 1 * k.val = k.val; omega
  have r6 : (fun (a : Fin 256) (k : Fin 256) => iblk0 V c 6 t (ix2 a k)) = fun a k => V c (Pipeline.arrRef spec0 6) (ix2 a k) :=
    funext fun a => funext fun k => by
      show V c (Pipeline.arrRef spec0 6) (((cfg0.win 6).blk t).view.emb (ix2 a k)) = _
      refine congrArg _ (funext fun d => Fin.ext ?_)
      match d with
      | ⟨0, _⟩ => show win0_6.index t (0 : Fin 2) * 256 + 1 * a.val = a.val; omega
      | ⟨1, _⟩ => show win0_6.index t (1 : Fin 2) * 256 + 1 * k.val = k.val; omega
  have r7 : (fun k : Fin 256 => iblk0 V c 7 t (ix2 (0 : Fin 1) k)) = fun k => V c (Pipeline.arrRef spec0 7) (ix2 (0 : Fin 1) k) :=
    funext fun k => by
      show V c (Pipeline.arrRef spec0 7) (((cfg0.win 7).blk t).view.emb (ix2 (0 : Fin 1) k)) = _
      refine congrArg _ (funext fun d => Fin.ext ?_)
      match d with
      | ⟨0, _⟩ => show win0_7.index t (0 : Fin 2) * 1 + 1 * 0 = 0; omega
      | ⟨1, _⟩ => show win0_7.index t (1 : Fin 2) * 256 + 1 * k.val = k.val; omega
  have r8 : (fun (a : Fin 256) (k : Fin 256) => iblk0 V c 8 t (ix2 a k)) = fun a k => V c (Pipeline.arrRef spec0 8) (ix2 a k) :=
    funext fun a => funext fun k => by
      show V c (Pipeline.arrRef spec0 8) (((cfg0.win 8).blk t).view.emb (ix2 a k)) = _
      refine congrArg _ (funext fun d => Fin.ext ?_)
      match d with
      | ⟨0, _⟩ => show win0_8.index t (0 : Fin 2) * 256 + 1 * a.val = a.val; omega
      | ⟨1, _⟩ => show win0_8.index t (1 : Fin 2) * 256 + 1 * k.val = k.val; omega
  have r9 : (fun k : Fin 256 => iblk0 V c 9 t (ix2 (0 : Fin 1) k)) = fun k => V c (Pipeline.arrRef spec0 9) (ix2 (0 : Fin 1) k) :=
    funext fun k => by
      show V c (Pipeline.arrRef spec0 9) (((cfg0.win 9).blk t).view.emb (ix2 (0 : Fin 1) k)) = _
      refine congrArg _ (funext fun d => Fin.ext ?_)
      match d with
      | ⟨0, _⟩ => show win0_9.index t (0 : Fin 2) * 1 + 1 * 0 = 0; omega
      | ⟨1, _⟩ => show win0_9.index t (1 : Fin 2) * 256 + 1 * k.val = k.val; omega
  have r10 : (fun k : Fin 256 => iblk0 V c 10 t (ix2 (0 : Fin 1) k)) = fun k => V c (Pipeline.arrRef spec0 10) (ix2 (0 : Fin 1) k) :=
    funext fun k => by
      show V c (Pipeline.arrRef spec0 10) (((cfg0.win 10).blk t).view.emb (ix2 (0 : Fin 1) k)) = _
      refine congrArg _ (funext fun d => Fin.ext ?_)
      match d with
      | ⟨0, _⟩ => show win0_10.index t (0 : Fin 2) * 1 + 1 * 0 = 0; omega
      | ⟨1, _⟩ => show win0_10.index t (1 : Fin 2) * 256 + 1 * k.val = k.val; omega
  exact ⟨r0, r1, r2, r3, r4, r5, r6, r7, r8, r9, r10⟩

set_option maxHeartbeats 8000000 in
/-- What point `t` writes back to window 11 is block `t` of `h1Arr`. -/
theorem flushed11_eq (c : Dev nD) (t : Fin cfg0.N) :
    (dat0 V c).flushed 11 t = ((cfg0.win 11).blk t).view.read (Elt Ideal) (h1Arr (V c (Pipeline.arrRef spec0 0)) (V c (Pipeline.arrRef spec0 1)) (V c (Pipeline.arrRef spec0 9)) (V c (Pipeline.arrRef spec0 10))) := by
  obtain ⟨e0a, e0b, e1a, e1b, e11a, e11b, e12a, e12b, e13a, e13b, e14a, e14b, e2a, e2b, e3a, e3b, e4a, e4b, e5a, e5b, e6a, e6b, e7a, e7b, e8a, e8b, e9a, e9b, e10a, e10b⟩ := idx_facts t
  show (cfg0.win 11).cut (grid0.coords t) ((dat0 V c).after 11 t) = _
  rw [after0_11]
  unfold out0_11
  rw [View.canon_unit_zero hz]
  simp only [View.ld_unit_zero (S := S1024x256) hz, View.ld_unit_zero (S := S256x256) hz, View.ld_unit_zero (S := S1x256) hz]
  funext y
  obtain ⟨p, q, rfl⟩ : ∃ (p : Fin 1024) (q : Fin 256), y = ix2 p q := ⟨y 0, y 1, eq_ix2 y⟩
  have hp : p.val < 1024 := p.isLt
  have hq : q.val < 256 := q.isLt
  have hE : ((cfg0.win 11).blk t).view.emb (ix2 p q) = ix2 (rowOf t p) q := funext fun d => Fin.ext (by
    match d with
    | ⟨0, _⟩ => show win0_11.index t (0 : Fin 2) * 1024 + 1 * p.val = t.val * 1024 + p.val; omega
    | ⟨1, _⟩ => show win0_11.index t (1 : Fin 2) * 256 + 1 * q.val = q.val; omega)
  refine (Proj.pay5_apply (iblk0 V c 0 t) (iblk0 V c 1 t) (iblk0 V c 9 t) (iblk0 V c 10 t) p q).trans ?_
  show _ = h1Arr _ _ _ _ (((cfg0.win 11).blk t).view.emb (ix2 p q))
  rw [hE]
  obtain ⟨r0, r1, r2, r3, r4, r5, r6, r7, r8, r9, r10⟩ := blocks V c t p
  rw [r0, r1, r9, r10]
  rfl

theorem mem_blk11 (t : Fin cfg0.N) (i : S8192x256.Idx) :
    i ∈ ((cfg0.win 11).blk t).view.set ↔ ∀ a : Fin 2, win0_11.index t a * S1024x256.size a ≤ (i a).val ∧ (i a).val < win0_11.index t a * S1024x256.size a + S1024x256.size a := by
  show i ∈ ((View.whole main_v55_0).slice (win0_11.rect t)).set ↔ _
  rw [View.set_slice_whole, Rect.mem_set_unit]
  exact Iff.rfl

set_option maxHeartbeats 2000000 in
theorem cover11 (i : S8192x256.Idx) : ∃ t : Fin cfg0.N, (cfg0.win 11).flush t = true ∧ i ∈ ((cfg0.win 11).blk t).view.set := by
  have hi0 : (i 0).val < 8192 := (i 0).isLt
  have hi1 : (i 1).val < 256 := (i 1).isLt
  refine ⟨⟨(i 0).val / 1024, by show (i 0).val / 1024 < 8; omega⟩, flush0_11 _, ?_⟩
  rw [mem_blk11]
  obtain ⟨e0a, e0b, e1a, e1b, e11a, e11b, e12a, e12b, e13a, e13b, e14a, e14b, e2a, e2b, e3a, e3b, e4a, e4b, e5a, e5b, e6a, e6b, e7a, e7b, e8a, e8b, e9a, e9b, e10a, e10b⟩ := idx_facts ⟨(i 0).val / 1024, by show (i 0).val / 1024 < 8; omega⟩
  intro a
  match a with
  | ⟨0, _⟩ =>
    show win0_11.index _ (0 : Fin 2) * 1024 ≤ (i 0).val ∧ (i 0).val < win0_11.index _ (0 : Fin 2) * 1024 + 1024
    rw [e11a]; show (i 0).val / 1024 * 1024 ≤ (i 0).val ∧ (i 0).val < (i 0).val / 1024 * 1024 + 1024; omega
  | ⟨1, _⟩ =>
    show win0_11.index _ (1 : Fin 2) * 256 ≤ (i 1).val ∧ (i 1).val < win0_11.index _ (1 : Fin 2) * 256 + 256
    rw [e11b]; omega

theorem final11 (c : Dev nD) : (dat0 V c).arrAt 11 cfg0.N = h1Arr (V c (Pipeline.arrRef spec0 0)) (V c (Pipeline.arrRef spec0 1)) (V c (Pipeline.arrRef spec0 9)) (V c (Pipeline.arrRef spec0 10)) :=
  (dat0 V c).arrAt_eq_of_cover 11 _ (fun t _ => flushed11_eq V c t) cover11

set_option maxHeartbeats 8000000 in
/-- What point `t` writes back to window 12 is block `t` of the query features. -/
theorem flushed12_eq (c : Dev nD) (t : Fin cfg0.N) :
    (dat0 V c).flushed 12 t = ((cfg0.win 12).blk t).view.read (Elt Ideal) (featArr (V c (Pipeline.arrRef spec0 0)) (V c (Pipeline.arrRef spec0 1)) (V c (Pipeline.arrRef spec0 9)) (V c (Pipeline.arrRef spec0 10)) (V c (Pipeline.arrRef spec0 2)) (V c (Pipeline.arrRef spec0 3)) (V c (Pipeline.arrRef spec0 8))) := by
  obtain ⟨e0a, e0b, e1a, e1b, e11a, e11b, e12a, e12b, e13a, e13b, e14a, e14b, e2a, e2b, e3a, e3b, e4a, e4b, e5a, e5b, e6a, e6b, e7a, e7b, e8a, e8b, e9a, e9b, e10a, e10b⟩ := idx_facts t
  show (cfg0.win 12).cut (grid0.coords t) ((dat0 V c).after 12 t) = _
  rw [after0_12]
  unfold out0_12
  rw [View.canon_unit_zero hz]
  simp only [View.ld_unit_zero (S := S1024x256) hz, View.ld_unit_zero (S := S256x256) hz, View.ld_unit_zero (S := S1x256) hz]
  funext y
  obtain ⟨p, q, rfl⟩ : ∃ (p : Fin 1024) (q : Fin 256), y = ix2 p q := ⟨y 0, y 1, eq_ix2 y⟩
  have hp : p.val < 1024 := p.isLt
  have hq : q.val < 256 := q.isLt
  have hE : ((cfg0.win 12).blk t).view.emb (ix2 p q) = ix2 (rowOf t p) q := funext fun d => Fin.ext (by
    match d with
    | ⟨0, _⟩ => show win0_12.index t (0 : Fin 2) * 1024 + 1 * p.val = t.val * 1024 + p.val; omega
    | ⟨1, _⟩ => show win0_12.index t (1 : Fin 2) * 256 + 1 * q.val = q.val; omega)
  refine ((Proj.pay3_apply (k0_pay6 (F := Ideal) (iblk0 V c 0 t) (iblk0 V c 1 t) (iblk0 V c 9 t) (iblk0 V c 10 t) (iblk0 V c 2 t) (iblk0 V c 3 t)) (iblk0 V c 8 t) p q).trans
    (congrArg (fun r => mv r (fun k j => iblk0 V c 8 t (ix2 k j)) q)
      (funext fun k => Proj.pay6_apply (iblk0 V c 0 t) (iblk0 V c 1 t) (iblk0 V c 9 t) (iblk0 V c 10 t) (iblk0 V c 2 t) (iblk0 V c 3 t) p k))).trans ?_
  show _ = featArr _ _ _ _ _ _ _ (((cfg0.win 12).blk t).view.emb (ix2 p q))
  rw [hE]
  obtain ⟨r0, r1, r2, r3, r4, r5, r6, r7, r8, r9, r10⟩ := blocks V c t p
  rw [r0, r1, r9, r10, r2, r3, r8]
  rfl

theorem mem_blk12 (t : Fin cfg0.N) (i : S8192x256.Idx) :
    i ∈ ((cfg0.win 12).blk t).view.set ↔ ∀ a : Fin 2, win0_12.index t a * S1024x256.size a ≤ (i a).val ∧ (i a).val < win0_12.index t a * S1024x256.size a + S1024x256.size a := by
  show i ∈ ((View.whole main_v55_1).slice (win0_12.rect t)).set ↔ _
  rw [View.set_slice_whole, Rect.mem_set_unit]
  exact Iff.rfl

set_option maxHeartbeats 2000000 in
theorem cover12 (i : S8192x256.Idx) : ∃ t : Fin cfg0.N, (cfg0.win 12).flush t = true ∧ i ∈ ((cfg0.win 12).blk t).view.set := by
  have hi0 : (i 0).val < 8192 := (i 0).isLt
  have hi1 : (i 1).val < 256 := (i 1).isLt
  refine ⟨⟨(i 0).val / 1024, by show (i 0).val / 1024 < 8; omega⟩, flush0_12 _, ?_⟩
  rw [mem_blk12]
  obtain ⟨e0a, e0b, e1a, e1b, e11a, e11b, e12a, e12b, e13a, e13b, e14a, e14b, e2a, e2b, e3a, e3b, e4a, e4b, e5a, e5b, e6a, e6b, e7a, e7b, e8a, e8b, e9a, e9b, e10a, e10b⟩ := idx_facts ⟨(i 0).val / 1024, by show (i 0).val / 1024 < 8; omega⟩
  intro a
  match a with
  | ⟨0, _⟩ =>
    show win0_12.index _ (0 : Fin 2) * 1024 ≤ (i 0).val ∧ (i 0).val < win0_12.index _ (0 : Fin 2) * 1024 + 1024
    rw [e12a]; show (i 0).val / 1024 * 1024 ≤ (i 0).val ∧ (i 0).val < (i 0).val / 1024 * 1024 + 1024; omega
  | ⟨1, _⟩ =>
    show win0_12.index _ (1 : Fin 2) * 256 ≤ (i 1).val ∧ (i 1).val < win0_12.index _ (1 : Fin 2) * 256 + 256
    rw [e12b]; omega

theorem final12 (c : Dev nD) : (dat0 V c).arrAt 12 cfg0.N = featArr (V c (Pipeline.arrRef spec0 0)) (V c (Pipeline.arrRef spec0 1)) (V c (Pipeline.arrRef spec0 9)) (V c (Pipeline.arrRef spec0 10)) (V c (Pipeline.arrRef spec0 2)) (V c (Pipeline.arrRef spec0 3)) (V c (Pipeline.arrRef spec0 8)) :=
  (dat0 V c).arrAt_eq_of_cover 12 _ (fun t _ => flushed12_eq V c t) cover12

set_option maxHeartbeats 8000000 in
/-- What point `t` writes back to window 13 is block `t` of the key features. -/
theorem flushed13_eq (c : Dev nD) (t : Fin cfg0.N) :
    (dat0 V c).flushed 13 t = ((cfg0.win 13).blk t).view.read (Elt Ideal) (featArr (V c (Pipeline.arrRef spec0 0)) (V c (Pipeline.arrRef spec0 1)) (V c (Pipeline.arrRef spec0 9)) (V c (Pipeline.arrRef spec0 10)) (V c (Pipeline.arrRef spec0 4)) (V c (Pipeline.arrRef spec0 5)) (V c (Pipeline.arrRef spec0 8))) := by
  obtain ⟨e0a, e0b, e1a, e1b, e11a, e11b, e12a, e12b, e13a, e13b, e14a, e14b, e2a, e2b, e3a, e3b, e4a, e4b, e5a, e5b, e6a, e6b, e7a, e7b, e8a, e8b, e9a, e9b, e10a, e10b⟩ := idx_facts t
  show (cfg0.win 13).cut (grid0.coords t) ((dat0 V c).after 13 t) = _
  rw [after0_13]
  unfold out0_13
  rw [View.canon_unit_zero hz]
  simp only [View.ld_unit_zero (S := S1024x256) hz, View.ld_unit_zero (S := S256x256) hz, View.ld_unit_zero (S := S1x256) hz]
  funext y
  obtain ⟨p, q, rfl⟩ : ∃ (p : Fin 1024) (q : Fin 256), y = ix2 p q := ⟨y 0, y 1, eq_ix2 y⟩
  have hp : p.val < 1024 := p.isLt
  have hq : q.val < 256 := q.isLt
  have hE : ((cfg0.win 13).blk t).view.emb (ix2 p q) = ix2 (rowOf t p) q := funext fun d => Fin.ext (by
    match d with
    | ⟨0, _⟩ => show win0_13.index t (0 : Fin 2) * 1024 + 1 * p.val = t.val * 1024 + p.val; omega
    | ⟨1, _⟩ => show win0_13.index t (1 : Fin 2) * 256 + 1 * q.val = q.val; omega)
  refine ((Proj.pay4_apply (k0_pay5 (F := Ideal) (iblk0 V c 0 t) (iblk0 V c 1 t) (iblk0 V c 9 t) (iblk0 V c 10 t)) (iblk0 V c 4 t) (iblk0 V c 5 t) (iblk0 V c 8 t) p q).trans
    (congrArg (fun r => mv (lin r (fun k j => iblk0 V c 4 t (ix2 k j)) (fun j => iblk0 V c 5 t (ix2 (0 : Fin 1) j))) (fun k j => iblk0 V c 8 t (ix2 k j)) q)
      (funext fun k => Proj.pay5_apply (iblk0 V c 0 t) (iblk0 V c 1 t) (iblk0 V c 9 t) (iblk0 V c 10 t) p k))).trans ?_
  show _ = featArr _ _ _ _ _ _ _ (((cfg0.win 13).blk t).view.emb (ix2 p q))
  rw [hE]
  obtain ⟨r0, r1, r2, r3, r4, r5, r6, r7, r8, r9, r10⟩ := blocks V c t p
  rw [r0, r1, r9, r10, r4, r5, r8]
  rfl

theorem mem_blk13 (t : Fin cfg0.N) (i : S8192x256.Idx) :
    i ∈ ((cfg0.win 13).blk t).view.set ↔ ∀ a : Fin 2, win0_13.index t a * S1024x256.size a ≤ (i a).val ∧ (i a).val < win0_13.index t a * S1024x256.size a + S1024x256.size a := by
  show i ∈ ((View.whole main_v55_2).slice (win0_13.rect t)).set ↔ _
  rw [View.set_slice_whole, Rect.mem_set_unit]
  exact Iff.rfl

set_option maxHeartbeats 2000000 in
theorem cover13 (i : S8192x256.Idx) : ∃ t : Fin cfg0.N, (cfg0.win 13).flush t = true ∧ i ∈ ((cfg0.win 13).blk t).view.set := by
  have hi0 : (i 0).val < 8192 := (i 0).isLt
  have hi1 : (i 1).val < 256 := (i 1).isLt
  refine ⟨⟨(i 0).val / 1024, by show (i 0).val / 1024 < 8; omega⟩, flush0_13 _, ?_⟩
  rw [mem_blk13]
  obtain ⟨e0a, e0b, e1a, e1b, e11a, e11b, e12a, e12b, e13a, e13b, e14a, e14b, e2a, e2b, e3a, e3b, e4a, e4b, e5a, e5b, e6a, e6b, e7a, e7b, e8a, e8b, e9a, e9b, e10a, e10b⟩ := idx_facts ⟨(i 0).val / 1024, by show (i 0).val / 1024 < 8; omega⟩
  intro a
  match a with
  | ⟨0, _⟩ =>
    show win0_13.index _ (0 : Fin 2) * 1024 ≤ (i 0).val ∧ (i 0).val < win0_13.index _ (0 : Fin 2) * 1024 + 1024
    rw [e13a]; show (i 0).val / 1024 * 1024 ≤ (i 0).val ∧ (i 0).val < (i 0).val / 1024 * 1024 + 1024; omega
  | ⟨1, _⟩ =>
    show win0_13.index _ (1 : Fin 2) * 256 ≤ (i 1).val ∧ (i 1).val < win0_13.index _ (1 : Fin 2) * 256 + 256
    rw [e13b]; omega

theorem final13 (c : Dev nD) : (dat0 V c).arrAt 13 cfg0.N = featArr (V c (Pipeline.arrRef spec0 0)) (V c (Pipeline.arrRef spec0 1)) (V c (Pipeline.arrRef spec0 9)) (V c (Pipeline.arrRef spec0 10)) (V c (Pipeline.arrRef spec0 4)) (V c (Pipeline.arrRef spec0 5)) (V c (Pipeline.arrRef spec0 8)) :=
  (dat0 V c).arrAt_eq_of_cover 13 _ (fun t _ => flushed13_eq V c t) cover13

set_option maxHeartbeats 8000000 in
/-- What point `t` writes back to window 14 is block `t` of the values. -/
theorem flushed14_eq (c : Dev nD) (t : Fin cfg0.N) :
    (dat0 V c).flushed 14 t = ((cfg0.win 14).blk t).view.read (Elt Ideal) (linArr (V c (Pipeline.arrRef spec0 0)) (V c (Pipeline.arrRef spec0 1)) (V c (Pipeline.arrRef spec0 9)) (V c (Pipeline.arrRef spec0 10)) (V c (Pipeline.arrRef spec0 6)) (V c (Pipeline.arrRef spec0 7))) := by
  obtain ⟨e0a, e0b, e1a, e1b, e11a, e11b, e12a, e12b, e13a, e13b, e14a, e14b, e2a, e2b, e3a, e3b, e4a, e4b, e5a, e5b, e6a, e6b, e7a, e7b, e8a, e8b, e9a, e9b, e10a, e10b⟩ := idx_facts t
  show (cfg0.win 14).cut (grid0.coords t) ((dat0 V c).after 14 t) = _
  rw [after0_14]
  unfold out0_14
  rw [View.canon_unit_zero hz]
  simp only [View.ld_unit_zero (S := S1024x256) hz, View.ld_unit_zero (S := S256x256) hz, View.ld_unit_zero (S := S1x256) hz]
  funext y
  obtain ⟨p, q, rfl⟩ : ∃ (p : Fin 1024) (q : Fin 256), y = ix2 p q := ⟨y 0, y 1, eq_ix2 y⟩
  have hp : p.val < 1024 := p.isLt
  have hq : q.val < 256 := q.isLt
  have hE : ((cfg0.win 14).blk t).view.emb (ix2 p q) = ix2 (rowOf t p) q := funext fun d => Fin.ext (by
    match d with
    | ⟨0, _⟩ => show win0_14.index t (0 : Fin 2) * 1024 + 1 * p.val = t.val * 1024 + p.val; omega
    | ⟨1, _⟩ => show win0_14.index t (1 : Fin 2) * 256 + 1 * q.val = q.val; omega)
  refine ((Proj.pay1_apply (k0_pay5 (F := Ideal) (iblk0 V c 0 t) (iblk0 V c 1 t) (iblk0 V c 9 t) (iblk0 V c 10 t)) (iblk0 V c 6 t) (iblk0 V c 7 t) p q).trans
    (congrArg (fun r => lin r (fun k j => iblk0 V c 6 t (ix2 k j)) (fun j => iblk0 V c 7 t (ix2 (0 : Fin 1) j)) q)
      (funext fun k => Proj.pay5_apply (iblk0 V c 0 t) (iblk0 V c 1 t) (iblk0 V c 9 t) (iblk0 V c 10 t) p k))).trans ?_
  show _ = linArr _ _ _ _ _ _ (((cfg0.win 14).blk t).view.emb (ix2 p q))
  rw [hE]
  obtain ⟨r0, r1, r2, r3, r4, r5, r6, r7, r8, r9, r10⟩ := blocks V c t p
  rw [r0, r1, r9, r10, r6, r7]
  rfl

theorem mem_blk14 (t : Fin cfg0.N) (i : S8192x256.Idx) :
    i ∈ ((cfg0.win 14).blk t).view.set ↔ ∀ a : Fin 2, win0_14.index t a * S1024x256.size a ≤ (i a).val ∧ (i a).val < win0_14.index t a * S1024x256.size a + S1024x256.size a := by
  show i ∈ ((View.whole main_v55_3).slice (win0_14.rect t)).set ↔ _
  rw [View.set_slice_whole, Rect.mem_set_unit]
  exact Iff.rfl

set_option maxHeartbeats 2000000 in
theorem cover14 (i : S8192x256.Idx) : ∃ t : Fin cfg0.N, (cfg0.win 14).flush t = true ∧ i ∈ ((cfg0.win 14).blk t).view.set := by
  have hi0 : (i 0).val < 8192 := (i 0).isLt
  have hi1 : (i 1).val < 256 := (i 1).isLt
  refine ⟨⟨(i 0).val / 1024, by show (i 0).val / 1024 < 8; omega⟩, flush0_14 _, ?_⟩
  rw [mem_blk14]
  obtain ⟨e0a, e0b, e1a, e1b, e11a, e11b, e12a, e12b, e13a, e13b, e14a, e14b, e2a, e2b, e3a, e3b, e4a, e4b, e5a, e5b, e6a, e6b, e7a, e7b, e8a, e8b, e9a, e9b, e10a, e10b⟩ := idx_facts ⟨(i 0).val / 1024, by show (i 0).val / 1024 < 8; omega⟩
  intro a
  match a with
  | ⟨0, _⟩ =>
    show win0_14.index _ (0 : Fin 2) * 1024 ≤ (i 0).val ∧ (i 0).val < win0_14.index _ (0 : Fin 2) * 1024 + 1024
    rw [e14a]; show (i 0).val / 1024 * 1024 ≤ (i 0).val ∧ (i 0).val < (i 0).val / 1024 * 1024 + 1024; omega
  | ⟨1, _⟩ =>
    show win0_14.index _ (1 : Fin 2) * 256 ≤ (i 1).val ∧ (i 1).val < win0_14.index _ (1 : Fin 2) * 256 + 256
    rw [e14b]; omega

theorem final14 (c : Dev nD) : (dat0 V c).arrAt 14 cfg0.N = linArr (V c (Pipeline.arrRef spec0 0)) (V c (Pipeline.arrRef spec0 1)) (V c (Pipeline.arrRef spec0 9)) (V c (Pipeline.arrRef spec0 10)) (V c (Pipeline.arrRef spec0 6)) (V c (Pipeline.arrRef spec0 7)) :=
  (dat0 V c).arrAt_eq_of_cover 14 _ (fun t _ => flushed14_eq V c t) cover14

end Cert.KernelIdeal.ProjArr

end
-- ==== Proof.Entry.lean ====
/-
  What the arrays of each region's windows hold when the region is entered.

  No host operation and no region writes an argument array, so a window on an argument sees the launch contents. The
  bias and gain vectors reach the kernels as `[1, n]` rows: reshapes of the arguments. The feature matrix reaches the
  projection kernel transposed. The attention region's first four windows are the projection region's four output
  arrays as that region leaves them.
-/
import proofs.«132447_j24799141167762_2_alg».proof.Proof.Gen.KernelIdeal.Frame
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The arguments at the boundaries -/

theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg0) := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg4) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg5) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg6) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg6) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg7) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg7) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg8) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg8) := rfl

theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg9) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg9) := rfl

theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg12) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg12) := rfl

theorem W2_arg13 (c : Dev nD) : W2 m ρ c (Proc.devRef .tc main_arg13) = m ((c : Thread nD τ).loc main_arg13) :=
  calc W2 m ρ c (Proc.devRef .tc main_arg13)
    _ = W1 m ρ c (Proc.devRef .tc main_arg13) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg13) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg13) := rfl

theorem W2_arg14 (c : Dev nD) : W2 m ρ c (Proc.devRef .tc main_arg14) = m ((c : Thread nD τ).loc main_arg14) :=
  calc W2 m ρ c (Proc.devRef .tc main_arg14)
    _ = W1 m ρ c (Proc.devRef .tc main_arg14) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg14) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg14) := rfl

theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg10) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg10) := rfl

theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg11) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg11) := rfl

theorem W2_arg15 (c : Dev nD) : W2 m ρ c (Proc.devRef .tc main_arg15) = m ((c : Thread nD τ).loc main_arg15) :=
  calc W2 m ρ c (Proc.devRef .tc main_arg15)
    _ = W1 m ρ c (Proc.devRef .tc main_arg15) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg15) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg15) := rfl

theorem W2_arg16 (c : Dev nD) : W2 m ρ c (Proc.devRef .tc main_arg16) = m ((c : Thread nD τ).loc main_arg16) :=
  calc W2 m ρ c (Proc.devRef .tc main_arg16)
    _ = W1 m ρ c (Proc.devRef .tc main_arg16) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg16) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg16) := rfl

theorem W2_arg17 (c : Dev nD) : W2 m ρ c (Proc.devRef .tc main_arg17) = m ((c : Thread nD τ).loc main_arg17) :=
  calc W2 m ρ c (Proc.devRef .tc main_arg17)
    _ = W1 m ρ c (Proc.devRef .tc main_arg17) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg17) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg17) := rfl

theorem W2_arg18 (c : Dev nD) : W2 m ρ c (Proc.devRef .tc main_arg18) = m ((c : Thread nD τ).loc main_arg18) :=
  calc W2 m ρ c (Proc.devRef .tc main_arg18)
    _ = W1 m ρ c (Proc.devRef .tc main_arg18) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg18) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg18) := rfl

theorem W2_arg19 (c : Dev nD) : W2 m ρ c (Proc.devRef .tc main_arg19) = m ((c : Thread nD τ).loc main_arg19) :=
  calc W2 m ρ c (Proc.devRef .tc main_arg19)
    _ = W1 m ρ c (Proc.devRef .tc main_arg19) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg19) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg19) := rfl

theorem W2_arg20 (c : Dev nD) : W2 m ρ c (Proc.devRef .tc main_arg20) = m ((c : Thread nD τ).loc main_arg20) :=
  calc W2 m ρ c (Proc.devRef .tc main_arg20)
    _ = W1 m ρ c (Proc.devRef .tc main_arg20) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg20) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg20) := rfl

theorem W2_arg21 (c : Dev nD) : W2 m ρ c (Proc.devRef .tc main_arg21) = m ((c : Thread nD τ).loc main_arg21) :=
  calc W2 m ρ c (Proc.devRef .tc main_arg21)
    _ = W1 m ρ c (Proc.devRef .tc main_arg21) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg21) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg21) := rfl

theorem W2_arg22 (c : Dev nD) : W2 m ρ c (Proc.devRef .tc main_arg22) = m ((c : Thread nD τ).loc main_arg22) :=
  calc W2 m ρ c (Proc.devRef .tc main_arg22)
    _ = W1 m ρ c (Proc.devRef .tc main_arg22) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W0 m ρ c (Proc.devRef .tc main_arg22) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = m ((c : Thread nD τ).loc main_arg22) := rfl

theorem W3_arg0 (c : Dev nD) : W3 m ρ c (Proc.devRef .tc main_arg0) = m ((c : Thread nD τ).loc main_arg0) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg0 m ρ c)

theorem W3_arg4 (c : Dev nD) : W3 m ρ c (Proc.devRef .tc main_arg4) = m ((c : Thread nD τ).loc main_arg4) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg4 m ρ c)

theorem W3_arg6 (c : Dev nD) : W3 m ρ c (Proc.devRef .tc main_arg6) = m ((c : Thread nD τ).loc main_arg6) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg6 m ρ c)

theorem W3_arg8 (c : Dev nD) : W3 m ρ c (Proc.devRef .tc main_arg8) = m ((c : Thread nD τ).loc main_arg8) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg8 m ρ c)

theorem W3_arg10 (c : Dev nD) : W3 m ρ c (Proc.devRef .tc main_arg10) = m ((c : Thread nD τ).loc main_arg10) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg10 m ρ c)

theorem W3_arg11 (c : Dev nD) : W3 m ρ c (Proc.devRef .tc main_arg11) = m ((c : Thread nD τ).loc main_arg11) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg11 m ρ c)

theorem W3_arg15 (c : Dev nD) : W3 m ρ c (Proc.devRef .tc main_arg15) = m ((c : Thread nD τ).loc main_arg15) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg15 m ρ c)

theorem W3_arg16 (c : Dev nD) : W3 m ρ c (Proc.devRef .tc main_arg16) = m ((c : Thread nD τ).loc main_arg16) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg16 m ρ c)

theorem W3_arg17 (c : Dev nD) : W3 m ρ c (Proc.devRef .tc main_arg17) = m ((c : Thread nD τ).loc main_arg17) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg17 m ρ c)

theorem W3_arg18 (c : Dev nD) : W3 m ρ c (Proc.devRef .tc main_arg18) = m ((c : Thread nD τ).loc main_arg18) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg18 m ρ c)

theorem W3_arg19 (c : Dev nD) : W3 m ρ c (Proc.devRef .tc main_arg19) = m ((c : Thread nD τ).loc main_arg19) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg19 m ρ c)

theorem W3_arg20 (c : Dev nD) : W3 m ρ c (Proc.devRef .tc main_arg20) = m ((c : Thread nD τ).loc main_arg20) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg20 m ρ c)

theorem W3_arg21 (c : Dev nD) : W3 m ρ c (Proc.devRef .tc main_arg21) = m ((c : Thread nD τ).loc main_arg21) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg21 m ρ c)

theorem W3_arg22 (c : Dev nD) : W3 m ρ c (Proc.devRef .tc main_arg22) = m ((c : Thread nD τ).loc main_arg22) :=
  (StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_arg22 m ρ c)

theorem W4_arg10 (c : Dev nD) : W4 m ρ c (Proc.devRef .tc main_arg10) = m ((c : Thread nD τ).loc main_arg10) :=
  (W4_of_ne m ρ c main_arg10 (by decide)).trans (W3_arg10 m ρ c)

theorem W4_arg11 (c : Dev nD) : W4 m ρ c (Proc.devRef .tc main_arg11) = m ((c : Thread nD τ).loc main_arg11) :=
  (W4_of_ne m ρ c main_arg11 (by decide)).trans (W3_arg11 m ρ c)

theorem W4_arg15 (c : Dev nD) : W4 m ρ c (Proc.devRef .tc main_arg15) = m ((c : Thread nD τ).loc main_arg15) :=
  (W4_of_ne m ρ c main_arg15 (by decide)).trans (W3_arg15 m ρ c)

theorem W4_arg16 (c : Dev nD) : W4 m ρ c (Proc.devRef .tc main_arg16) = m ((c : Thread nD τ).loc main_arg16) :=
  (W4_of_ne m ρ c main_arg16 (by decide)).trans (W3_arg16 m ρ c)

theorem W4_arg17 (c : Dev nD) : W4 m ρ c (Proc.devRef .tc main_arg17) = m ((c : Thread nD τ).loc main_arg17) :=
  (W4_of_ne m ρ c main_arg17 (by decide)).trans (W3_arg17 m ρ c)

theorem W4_arg18 (c : Dev nD) : W4 m ρ c (Proc.devRef .tc main_arg18) = m ((c : Thread nD τ).loc main_arg18) :=
  (W4_of_ne m ρ c main_arg18 (by decide)).trans (W3_arg18 m ρ c)

theorem W4_arg19 (c : Dev nD) : W4 m ρ c (Proc.devRef .tc main_arg19) = m ((c : Thread nD τ).loc main_arg19) :=
  (W4_of_ne m ρ c main_arg19 (by decide)).trans (W3_arg19 m ρ c)

theorem W4_arg20 (c : Dev nD) : W4 m ρ c (Proc.devRef .tc main_arg20) = m ((c : Thread nD τ).loc main_arg20) :=
  (W4_of_ne m ρ c main_arg20 (by decide)).trans (W3_arg20 m ρ c)

theorem W4_arg21 (c : Dev nD) : W4 m ρ c (Proc.devRef .tc main_arg21) = m ((c : Thread nD τ).loc main_arg21) :=
  (W4_of_ne m ρ c main_arg21 (by decide)).trans (W3_arg21 m ρ c)

theorem W4_arg22 (c : Dev nD) : W4 m ρ c (Proc.devRef .tc main_arg22) = m ((c : Thread nD τ).loc main_arg22) :=
  (W4_of_ne m ρ c main_arg22 (by decide)).trans (W3_arg22 m ρ c)

/-! ## The projection region's entry -/

theorem V3_arg0 (c : Dev nD) : V3 m ρ c main_arg0 = m ((c : Thread nD τ).loc main_arg0) := W3_arg0 m ρ c
theorem V3_arg4 (c : Dev nD) : V3 m ρ c main_arg4 = m ((c : Thread nD τ).loc main_arg4) := W3_arg4 m ρ c
theorem V3_arg6 (c : Dev nD) : V3 m ρ c main_arg6 = m ((c : Thread nD τ).loc main_arg6) := W3_arg6 m ρ c
theorem V3_arg8 (c : Dev nD) : V3 m ρ c main_arg8 = m ((c : Thread nD τ).loc main_arg8) := W3_arg8 m ρ c

/-- The row `main_v50` the projection region is entered with: argument 5 as one row. -/
theorem V3_v50 (c : Dev nD) : V3 m ρ c main_v50 = shapeCast S1x256 (m ((c : Thread nD τ).loc main_arg5)) shapeCasts_S256_S1x256 := by
  have h : W3 m ρ c (Proc.devRef .tc main_v50)
      = shapeCast S1x256 (W2 m ρ c (Proc.devRef .tc main_arg5)) shapeCasts_S256_S1x256 := by
    show StableHlo.after hostOps0_2 (W2 m ρ c) (Proc.devRef .tc main_v50) = _
    generalize W2 m ρ c = W
    after_results_simp
    rfl
  exact h.trans (congrArg (shapeCast S1x256 · shapeCasts_S256_S1x256) (W2_arg5 m ρ c))

/-- The row `main_v51` the projection region is entered with: argument 7 as one row. -/
theorem V3_v51 (c : Dev nD) : V3 m ρ c main_v51 = shapeCast S1x256 (m ((c : Thread nD τ).loc main_arg7)) shapeCasts_S256_S1x256 := by
  have h : W3 m ρ c (Proc.devRef .tc main_v51)
      = shapeCast S1x256 (W2 m ρ c (Proc.devRef .tc main_arg7)) shapeCasts_S256_S1x256 := by
    show StableHlo.after hostOps0_2 (W2 m ρ c) (Proc.devRef .tc main_v51) = _
    generalize W2 m ρ c = W
    after_results_simp
    rfl
  exact h.trans (congrArg (shapeCast S1x256 · shapeCasts_S256_S1x256) (W2_arg7 m ρ c))

/-- The row `main_v52` the projection region is entered with: argument 9 as one row. -/
theorem V3_v52 (c : Dev nD) : V3 m ρ c main_v52 = shapeCast S1x256 (m ((c : Thread nD τ).loc main_arg9)) shapeCasts_S256_S1x256 := by
  have h : W3 m ρ c (Proc.devRef .tc main_v52)
      = shapeCast S1x256 (W2 m ρ c (Proc.devRef .tc main_arg9)) shapeCasts_S256_S1x256 := by
    show StableHlo.after hostOps0_2 (W2 m ρ c) (Proc.devRef .tc main_v52) = _
    generalize W2 m ρ c = W
    after_results_simp
    rfl
  exact h.trans (congrArg (shapeCast S1x256 · shapeCasts_S256_S1x256) (W2_arg9 m ρ c))

/-- The row `main_v53` the projection region is entered with: argument 13 as one row. -/
theorem V3_v53 (c : Dev nD) : V3 m ρ c main_v53 = shapeCast S1x256 (m ((c : Thread nD τ).loc main_arg13)) shapeCasts_S256_S1x256 := by
  have h : W3 m ρ c (Proc.devRef .tc main_v53)
      = shapeCast S1x256 (W2 m ρ c (Proc.devRef .tc main_arg13)) shapeCasts_S256_S1x256 := by
    show StableHlo.after hostOps0_2 (W2 m ρ c) (Proc.devRef .tc main_v53) = _
    generalize W2 m ρ c = W
    after_results_simp
    rfl
  exact h.trans (congrArg (shapeCast S1x256 · shapeCasts_S256_S1x256) (W2_arg13 m ρ c))

/-- The row `main_v54` the projection region is entered with: argument 14 as one row. -/
theorem V3_v54 (c : Dev nD) : V3 m ρ c main_v54 = shapeCast S1x256 (m ((c : Thread nD τ).loc main_arg14)) shapeCasts_S256_S1x256 := by
  have h : W3 m ρ c (Proc.devRef .tc main_v54)
      = shapeCast S1x256 (W2 m ρ c (Proc.devRef .tc main_arg14)) shapeCasts_S256_S1x256 := by
    show StableHlo.after hostOps0_2 (W2 m ρ c) (Proc.devRef .tc main_v54) = _
    generalize W2 m ρ c = W
    after_results_simp
    rfl
  exact h.trans (congrArg (shapeCast S1x256 · shapeCasts_S256_S1x256) (W2_arg14 m ρ c))

/-- The feature matrix the projection region is entered with: argument 12 transposed. -/
theorem V3_v49 (c : Dev nD) : V3 m ρ c main_v49
    = transpose S256x256 [1, 0] (m ((c : Thread nD τ).loc main_arg12)) transposes_S256x256_S256x256_1_0 := by
  have h : W3 m ρ c (Proc.devRef .tc main_v49)
      = transpose S256x256 [1, 0] (W2 m ρ c (Proc.devRef .tc main_arg12)) transposes_S256x256_S256x256_1_0 := by
    show StableHlo.after hostOps0_2 (W2 m ρ c) (Proc.devRef .tc main_v49) = _
    generalize W2 m ρ c = W
    after_results_simp
  exact h.trans (congrArg (transpose S256x256 [1, 0] · transposes_S256x256_S256x256_1_0) (W2_arg12 m ρ c))

/-! ## The attention region's entry -/

/-- The projection region's output array of window 11, untouched by the reshapes between the regions. -/
theorem V5_out11 (c : Dev nD) : V5 m ρ c main_v55_0 = (dat0 (V3 m ρ) c).arrAt 11 cfg0.N :=
  (show W5 m ρ c (Proc.devRef .tc main_v55_0) = W4 m ρ c (Proc.devRef .tc main_v55_0) from
    StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_arr m ρ c 11)

/-- The projection region's output array of window 12, untouched by the reshapes between the regions. -/
theorem V5_out12 (c : Dev nD) : V5 m ρ c main_v55_1 = (dat0 (V3 m ρ) c).arrAt 12 cfg0.N :=
  (show W5 m ρ c (Proc.devRef .tc main_v55_1) = W4 m ρ c (Proc.devRef .tc main_v55_1) from
    StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_arr m ρ c 12)

/-- The projection region's output array of window 13, untouched by the reshapes between the regions. -/
theorem V5_out13 (c : Dev nD) : V5 m ρ c main_v55_2 = (dat0 (V3 m ρ) c).arrAt 13 cfg0.N :=
  (show W5 m ρ c (Proc.devRef .tc main_v55_2) = W4 m ρ c (Proc.devRef .tc main_v55_2) from
    StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_arr m ρ c 13)

/-- The projection region's output array of window 14, untouched by the reshapes between the regions. -/
theorem V5_out14 (c : Dev nD) : V5 m ρ c main_v55_3 = (dat0 (V3 m ρ) c).arrAt 14 cfg0.N :=
  (show W5 m ρ c (Proc.devRef .tc main_v55_3) = W4 m ρ c (Proc.devRef .tc main_v55_3) from
    StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_arr m ρ c 14)

theorem V5_arg10 (c : Dev nD) : V5 m ρ c main_arg10 = m ((c : Thread nD τ).loc main_arg10) :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_arg10 m ρ c)
theorem V5_arg19 (c : Dev nD) : V5 m ρ c main_arg19 = m ((c : Thread nD τ).loc main_arg19) :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_arg19 m ρ c)
theorem V5_arg21 (c : Dev nD) : V5 m ρ c main_arg21 = m ((c : Thread nD τ).loc main_arg21) :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_arg21 m ρ c)

/-- The row `main_v56` the attention region is entered with: argument 11 as one row. -/
theorem V5_v56 (c : Dev nD) : V5 m ρ c main_v56 = shapeCast S1x256 (m ((c : Thread nD τ).loc main_arg11)) shapeCasts_S256_S1x256 := by
  have h : W5 m ρ c (Proc.devRef .tc main_v56)
      = shapeCast S1x256 (W4 m ρ c (Proc.devRef .tc main_arg11)) shapeCasts_S256_S1x256 := by
    show StableHlo.after hostOps1 (W4 m ρ c) (Proc.devRef .tc main_v56) = _
    generalize W4 m ρ c = W
    after_results_simp
    rfl
  exact h.trans (congrArg (shapeCast S1x256 · shapeCasts_S256_S1x256) (W4_arg11 m ρ c))

/-- The row `main_v57` the attention region is entered with: argument 20 as one row. -/
theorem V5_v57 (c : Dev nD) : V5 m ρ c main_v57 = shapeCast S1x512 (m ((c : Thread nD τ).loc main_arg20)) shapeCasts_S512_S1x512 := by
  have h : W5 m ρ c (Proc.devRef .tc main_v57)
      = shapeCast S1x512 (W4 m ρ c (Proc.devRef .tc main_arg20)) shapeCasts_S512_S1x512 := by
    show StableHlo.after hostOps1 (W4 m ρ c) (Proc.devRef .tc main_v57) = _
    generalize W4 m ρ c = W
    after_results_simp
    rfl
  exact h.trans (congrArg (shapeCast S1x512 · shapeCasts_S512_S1x512) (W4_arg20 m ρ c))

/-- The row `main_v58` the attention region is entered with: argument 22 as one row. -/
theorem V5_v58 (c : Dev nD) : V5 m ρ c main_v58 = shapeCast S1x256 (m ((c : Thread nD τ).loc main_arg22)) shapeCasts_S256_S1x256 := by
  have h : W5 m ρ c (Proc.devRef .tc main_v58)
      = shapeCast S1x256 (W4 m ρ c (Proc.devRef .tc main_arg22)) shapeCasts_S256_S1x256 := by
    show StableHlo.after hostOps1 (W4 m ρ c) (Proc.devRef .tc main_v58) = _
    generalize W4 m ρ c = W
    after_results_simp
    rfl
  exact h.trans (congrArg (shapeCast S1x256 · shapeCasts_S256_S1x256) (W4_arg22 m ρ c))

/-- The row `main_v59` the attention region is entered with: argument 15 as one row. -/
theorem V5_v59 (c : Dev nD) : V5 m ρ c main_v59 = shapeCast S1x256 (m ((c : Thread nD τ).loc main_arg15)) shapeCasts_S256_S1x256 := by
  have h : W5 m ρ c (Proc.devRef .tc main_v59)
      = shapeCast S1x256 (W4 m ρ c (Proc.devRef .tc main_arg15)) shapeCasts_S256_S1x256 := by
    show StableHlo.after hostOps1 (W4 m ρ c) (Proc.devRef .tc main_v59) = _
    generalize W4 m ρ c = W
    after_results_simp
    rfl
  exact h.trans (congrArg (shapeCast S1x256 · shapeCasts_S256_S1x256) (W4_arg15 m ρ c))

/-- The row `main_v60` the attention region is entered with: argument 16 as one row. -/
theorem V5_v60 (c : Dev nD) : V5 m ρ c main_v60 = shapeCast S1x256 (m ((c : Thread nD τ).loc main_arg16)) shapeCasts_S256_S1x256 := by
  have h : W5 m ρ c (Proc.devRef .tc main_v60)
      = shapeCast S1x256 (W4 m ρ c (Proc.devRef .tc main_arg16)) shapeCasts_S256_S1x256 := by
    show StableHlo.after hostOps1 (W4 m ρ c) (Proc.devRef .tc main_v60) = _
    generalize W4 m ρ c = W
    after_results_simp
    rfl
  exact h.trans (congrArg (shapeCast S1x256 · shapeCasts_S256_S1x256) (W4_arg16 m ρ c))

/-- The row `main_v61` the attention region is entered with: argument 17 as one row. -/
theorem V5_v61 (c : Dev nD) : V5 m ρ c main_v61 = shapeCast S1x256 (m ((c : Thread nD τ).loc main_arg17)) shapeCasts_S256_S1x256 := by
  have h : W5 m ρ c (Proc.devRef .tc main_v61)
      = shapeCast S1x256 (W4 m ρ c (Proc.devRef .tc main_arg17)) shapeCasts_S256_S1x256 := by
    show StableHlo.after hostOps1 (W4 m ρ c) (Proc.devRef .tc main_v61) = _
    generalize W4 m ρ c = W
    after_results_simp
    rfl
  exact h.trans (congrArg (shapeCast S1x256 · shapeCasts_S256_S1x256) (W4_arg17 m ρ c))

/-- The row `main_v62` the attention region is entered with: argument 18 as one row. -/
theorem V5_v62 (c : Dev nD) : V5 m ρ c main_v62 = shapeCast S1x256 (m ((c : Thread nD τ).loc main_arg18)) shapeCasts_S256_S1x256 := by
  have h : W5 m ρ c (Proc.devRef .tc main_v62)
      = shapeCast S1x256 (W4 m ρ c (Proc.devRef .tc main_arg18)) shapeCasts_S256_S1x256 := by
    show StableHlo.after hostOps1 (W4 m ρ c) (Proc.devRef .tc main_v62) = _
    generalize W4 m ρ c = W
    after_results_simp
    rfl
  exact h.trans (congrArg (shapeCast S1x256 · shapeCasts_S256_S1x256) (W4_arg18 m ρ c))

end Cert.KernelIdeal.Entry

end
-- ==== Proof.KValue.lean ====
/-
  The idealized kernel's result, entry by entry, is the layer.

  The result array is what the attention region's write-backs leave: the whole-array function `outArr` of the arrays
  that region is entered with. Its first four are the projection region's outputs — `h1`, the query and key features
  and the values, each a whole-array function of the arrays THAT region is entered with — and the rest are argument
  arrays, the vectors among them as one-row arrays. The projection region is entered with the features, the
  neighbourhood aggregate, parameter arrays, one-row vectors and the feature matrix transposed. Reading a one-row
  array at `(0, n)` gives the vector's entry `n`, and the transposed matrix at `(k, n)` gives the matrix at
  `(n, k)`; with that, entry `(i, j)` of the result is `layer … i j`.
-/
import proofs.«132447_j24799141167762_2_alg».proof.Proof.KRun
import proofs.«132447_j24799141167762_2_alg».proof.Proof.AttnArr
import proofs.«132447_j24799141167762_2_alg».proof.Proof.ProjArr
import proofs.«132447_j24799141167762_2_alg».proof.Proof.Entry
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.Spec

/-- A vector as a one-row array, at `(0, n)`: the vector's entry `n`. -/
theorem row_apply {n : ℕ} (g : (⟨1, ![n]⟩ : Shape).Idx → EReal) (h : (⟨1, ![n]⟩ : Shape).ShapeCasts ⟨2, ![1, n]⟩) (k : Fin n) :
    shapeCast ⟨2, ![1, n]⟩ g h (ix2 (0 : Fin 1) k) = g (ix1 k) :=
  shapeCast_apply g h _ _ (by
    rw [Shape.rowMajor_val_two, Shape.rowMajor_val_one]
    show k.val = 0 * n + k.val
    omega)

/-- A square matrix transposed, at `(k, n)`: the matrix at `(n, k)`. -/
theorem transpose_apply' {a : ℕ} (X : (⟨2, ![a, a]⟩ : Shape).Idx → EReal)
    (h : (⟨2, ![a, a]⟩ : Shape).Transposes [(1 : Fin 2), 0] ⟨2, ![a, a]⟩) (k n : Fin a) :
    transpose ⟨2, ![a, a]⟩ [1, 0] X h (ix2 k n) = X (ix2 n k) :=
  transpose_apply [1, 0] X h (ix2 k n) (ix2 n k) (fun b => by
    match b with
    | ⟨0, _⟩ => rfl
    | ⟨1, _⟩ => rfl)

variable (m : (ℓ : Loc nD τ sig) → Buf (Elt Ideal) ℓ) (ρ : Dev nD → PrngReg)

set_option maxHeartbeats 8000000 in
/-- Entry `(i, j)` of the kernel's result is the layer of the launch contents, with the neighbourhood aggregate as the
    projection region finds it. -/
theorem result_layer (c : Dev nD) (i : Fin 8192) (j : Fin 256) :
    W6 m ρ c (Proc.devRef .tc main_v63) (ix2 i j)
      = layer (fun a k => (m ((c : Thread nD τ).loc main_arg0)) (ix2 a k)) (fun a k => V3 m ρ c main_v48 (ix2 a k))
          (fun k n => (m ((c : Thread nD τ).loc main_arg4)) (ix2 k n)) (fun n => (m ((c : Thread nD τ).loc main_arg5)) (ix1 n))
          (fun k n => (m ((c : Thread nD τ).loc main_arg6)) (ix2 k n)) (fun n => (m ((c : Thread nD τ).loc main_arg7)) (ix1 n))
          (fun k n => (m ((c : Thread nD τ).loc main_arg8)) (ix2 k n)) (fun n => (m ((c : Thread nD τ).loc main_arg9)) (ix1 n))
          (fun k n => (m ((c : Thread nD τ).loc main_arg10)) (ix2 k n)) (fun n => (m ((c : Thread nD τ).loc main_arg11)) (ix1 n))
          (fun k n => (m ((c : Thread nD τ).loc main_arg12)) (ix2 k n))
          (fun n => (m ((c : Thread nD τ).loc main_arg13)) (ix1 n)) (fun n => (m ((c : Thread nD τ).loc main_arg14)) (ix1 n))
          (fun n => (m ((c : Thread nD τ).loc main_arg15)) (ix1 n)) (fun n => (m ((c : Thread nD τ).loc main_arg16)) (ix1 n))
          (fun n => (m ((c : Thread nD τ).loc main_arg17)) (ix1 n)) (fun n => (m ((c : Thread nD τ).loc main_arg18)) (ix1 n))
          (fun k n => (m ((c : Thread nD τ).loc main_arg19)) (ix2 k n)) (fun n => (m ((c : Thread nD τ).loc main_arg20)) (ix1 n))
          (fun k n => (m ((c : Thread nD τ).loc main_arg21)) (ix2 k n)) (fun n => (m ((c : Thread nD τ).loc main_arg22)) (ix1 n)) i j := by
  -- the projection region's outputs, as functions of what that region is entered with
  have p0 : V3 m ρ c (Pipeline.arrRef spec0 0) = (m ((c : Thread nD τ).loc main_arg0)) := Entry.V3_arg0 m ρ c
  have p2 : V3 m ρ c (Pipeline.arrRef spec0 2) = (m ((c : Thread nD τ).loc main_arg4)) := Entry.V3_arg4 m ρ c
  have p3 : V3 m ρ c (Pipeline.arrRef spec0 3) = shapeCast S1x256 (m ((c : Thread nD τ).loc main_arg5)) shapeCasts_S256_S1x256 := Entry.V3_v50 m ρ c
  have p4 : V3 m ρ c (Pipeline.arrRef spec0 4) = (m ((c : Thread nD τ).loc main_arg6)) := Entry.V3_arg6 m ρ c
  have p5 : V3 m ρ c (Pipeline.arrRef spec0 5) = shapeCast S1x256 (m ((c : Thread nD τ).loc main_arg7)) shapeCasts_S256_S1x256 := Entry.V3_v51 m ρ c
  have p6 : V3 m ρ c (Pipeline.arrRef spec0 6) = (m ((c : Thread nD τ).loc main_arg8)) := Entry.V3_arg8 m ρ c
  have p7 : V3 m ρ c (Pipeline.arrRef spec0 7) = shapeCast S1x256 (m ((c : Thread nD τ).loc main_arg9)) shapeCasts_S256_S1x256 := Entry.V3_v52 m ρ c
  have p8 : V3 m ρ c (Pipeline.arrRef spec0 8) = transpose S256x256 [1, 0] (m ((c : Thread nD τ).loc main_arg12)) transposes_S256x256_S256x256_1_0 := Entry.V3_v49 m ρ c
  have p9 : V3 m ρ c (Pipeline.arrRef spec0 9) = shapeCast S1x256 (m ((c : Thread nD τ).loc main_arg13)) shapeCasts_S256_S1x256 := Entry.V3_v53 m ρ c
  have p10 : V3 m ρ c (Pipeline.arrRef spec0 10) = shapeCast S1x256 (m ((c : Thread nD τ).loc main_arg14)) shapeCasts_S256_S1x256 := Entry.V3_v54 m ρ c
  have p1 : V3 m ρ c (Pipeline.arrRef spec0 1) = V3 m ρ c main_v48 := rfl
  -- the attention region's entry
  have a0 : V5 m ρ c (Pipeline.arrRef spec1 0) = _ := (Entry.V5_out11 m ρ c).trans (ProjArr.final11 (V3 m ρ) c)
  have a1 : V5 m ρ c (Pipeline.arrRef spec1 1) = _ := (Entry.V5_out12 m ρ c).trans (ProjArr.final12 (V3 m ρ) c)
  have a2 : V5 m ρ c (Pipeline.arrRef spec1 2) = _ := (Entry.V5_out13 m ρ c).trans (ProjArr.final13 (V3 m ρ) c)
  have a3 : V5 m ρ c (Pipeline.arrRef spec1 3) = _ := (Entry.V5_out14 m ρ c).trans (ProjArr.final14 (V3 m ρ) c)
  have a4 : V5 m ρ c (Pipeline.arrRef spec1 4) = (m ((c : Thread nD τ).loc main_arg10)) := Entry.V5_arg10 m ρ c
  have a5 : V5 m ρ c (Pipeline.arrRef spec1 5) = shapeCast S1x256 (m ((c : Thread nD τ).loc main_arg11)) shapeCasts_S256_S1x256 := Entry.V5_v56 m ρ c
  have a6 : V5 m ρ c (Pipeline.arrRef spec1 6) = shapeCast S1x256 (m ((c : Thread nD τ).loc main_arg15)) shapeCasts_S256_S1x256 := Entry.V5_v59 m ρ c
  have a7 : V5 m ρ c (Pipeline.arrRef spec1 7) = shapeCast S1x256 (m ((c : Thread nD τ).loc main_arg16)) shapeCasts_S256_S1x256 := Entry.V5_v60 m ρ c
  have a8 : V5 m ρ c (Pipeline.arrRef spec1 8) = (m ((c : Thread nD τ).loc main_arg19)) := Entry.V5_arg19 m ρ c
  have a9 : V5 m ρ c (Pipeline.arrRef spec1 9) = shapeCast S1x512 (m ((c : Thread nD τ).loc main_arg20)) shapeCasts_S512_S1x512 := Entry.V5_v57 m ρ c
  have a10 : V5 m ρ c (Pipeline.arrRef spec1 10) = (m ((c : Thread nD τ).loc main_arg21)) := Entry.V5_arg21 m ρ c
  have a11 : V5 m ρ c (Pipeline.arrRef spec1 11) = shapeCast S1x256 (m ((c : Thread nD τ).loc main_arg22)) shapeCasts_S256_S1x256 := Entry.V5_v58 m ρ c
  have a12 : V5 m ρ c (Pipeline.arrRef spec1 12) = shapeCast S1x256 (m ((c : Thread nD τ).loc main_arg17)) shapeCasts_S256_S1x256 := Entry.V5_v61 m ρ c
  have a13 : V5 m ρ c (Pipeline.arrRef spec1 13) = shapeCast S1x256 (m ((c : Thread nD τ).loc main_arg18)) shapeCasts_S256_S1x256 := Entry.V5_v62 m ρ c
  rw [RunValue.result_eq, AttnArr.final (V5 m ρ) c, a0, a1, a2, a3, a4, a5, a6, a7, a8, a9, a10, a11, a12, a13,
    p0, p1, p2, p3, p4, p5, p6, p7, p8, p9, p10]
  unfold AttnArr.outArr ProjArr.h1Arr ProjArr.featArr ProjArr.linArr ProjArr.h1At layer featRow
  simp only [row_apply (n := 256) (m ((c : Thread nD τ).loc main_arg5)) shapeCasts_S256_S1x256,
    row_apply (n := 256) (m ((c : Thread nD τ).loc main_arg7)) shapeCasts_S256_S1x256,
    row_apply (n := 256) (m ((c : Thread nD τ).loc main_arg9)) shapeCasts_S256_S1x256,
    row_apply (n := 256) (m ((c : Thread nD τ).loc main_arg11)) shapeCasts_S256_S1x256,
    row_apply (n := 256) (m ((c : Thread nD τ).loc main_arg13)) shapeCasts_S256_S1x256,
    row_apply (n := 256) (m ((c : Thread nD τ).loc main_arg14)) shapeCasts_S256_S1x256,
    row_apply (n := 256) (m ((c : Thread nD τ).loc main_arg15)) shapeCasts_S256_S1x256,
    row_apply (n := 256) (m ((c : Thread nD τ).loc main_arg16)) shapeCasts_S256_S1x256,
    row_apply (n := 256) (m ((c : Thread nD τ).loc main_arg17)) shapeCasts_S256_S1x256,
    row_apply (n := 256) (m ((c : Thread nD τ).loc main_arg18)) shapeCasts_S256_S1x256,
    row_apply (n := 256) (m ((c : Thread nD τ).loc main_arg22)) shapeCasts_S256_S1x256,
    row_apply (n := 512) (m ((c : Thread nD τ).loc main_arg20)) shapeCasts_S512_S1x512,
    transpose_apply' (a := 256) (m ((c : Thread nD τ).loc main_arg12)) transposes_S256x256_S256x256_1_0]

end Cert.KernelIdeal.KValue

end
-- ==== Proof.RefOps.lean ====
/-
  The reference's @main as a list of host operations, and its run.

  @main is a straight line of 205 host operations. Listed in order, every weakly fair execution terminates with each
  buffer at the fold of the operations' results over the launch contents (`after ops`). The list is cut into nine
  stretches, each ending at a value that later operations read more than once, so that a value can be read stretch by
  stretch from the contents the stretch is entered with and no shared value is ever written out twice.
-/
import proofs.«132447_j24799141167762_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 205 operations, in order (the called function's operations stand in its call's place). -/
abbrev ops : List (HloOp τ sig (Elt F)) :=
  [ nullary main_v0 (iotaInDim S8192 32 0),
    unary main_arg1 main_v1 ((extractStridedSlice S1x262144 ![0, 0] · slices_S2x262144_S1x262144_0_0) : (⟨S2x262144, .i32⟩ : BufTy).Contents (Elt F) → (⟨S1x262144, .i32⟩ : BufTy).Contents (Elt F)),
    reshape main_v1 main_v2 rfl shapeCasts_S1x262144_S262144,
    binary main_v2 main_v0 main_v3 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    unary main_arg1 main_v4 ((extractStridedSlice S1x262144 ![1, 0] · slices_S2x262144_S1x262144_1_0) : (⟨S2x262144, .i32⟩ : BufTy).Contents (Elt F) → (⟨S1x262144, .i32⟩ : BufTy).Contents (Elt F)),
    reshape main_v4 main_v5 rfl shapeCasts_S1x262144_S262144,
    binary main_v5 main_v0 main_v6 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst (constant S_ .f32 0x3F800000#32),
    unary main_cst main_v7 (broadcastInDim S270336 ![] bcast_S_S270336 : (⟨S_, .f32⟩ : BufTy).Contents (Elt F) → (⟨S270336, .f32⟩ : BufTy).Contents (Elt F)),
    nullary main_cst_0 (constant S_ .f32 0x00000000#32),
    unary main_cst_0 main_v8 (broadcastInDim S8192 ![] bcast_S_S8192 : (⟨S_, .f32⟩ : BufTy).Contents (Elt F) → (⟨S8192, .f32⟩ : BufTy).Contents (Elt F)),
    unary main_v6 main_v9 (broadcastInDim S270336x1 ![0] bcast_S270336_S270336x1_0 : (⟨S270336, .i32⟩ : BufTy).Contents (Elt F) → (⟨S270336x1, .i32⟩ : BufTy).Contents (Elt F)),
    ternary main_v8 main_v9 main_v7 main_v10 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_1 (constant S_ .f32 0x00000000#32),
    unary main_cst_1 main_v11 (broadcastInDim S8192 ![] bcast_S_S8192 : (⟨S_, .f32⟩ : BufTy).Contents (Elt F) → (⟨S8192, .f32⟩ : BufTy).Contents (Elt F)),
    binary main_v10 main_v11 main_v12 (cmpf .ogt : (⟨S8192, .f32⟩ : BufTy).Contents (Elt F) → (⟨S8192, .f32⟩ : BufTy).Contents (Elt F) → (⟨S8192, .i1⟩ : BufTy).Contents (Elt F)),
    nullary main_cst_2 (constant S_ .f32 0x2B8CBCCC#32),
    unary main_cst_2 main_v13 (broadcastInDim S8192 ![] bcast_S_S8192 : (⟨S_, .f32⟩ : BufTy).Contents (Elt F) → (⟨S8192, .f32⟩ : BufTy).Contents (Elt F)),
    binary main_v10 main_v13 main_v14 (maximumf : (⟨S8192, .f32⟩ : BufTy).Contents (Elt F) → (⟨S8192, .f32⟩ : BufTy).Contents (Elt F) → (⟨S8192, .f32⟩ : BufTy).Contents (Elt F)),
    unary main_v14 main_v15 (Host.rsqrt : (⟨S8192, .f32⟩ : BufTy).Contents (Elt F) → (⟨S8192, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v12) (TRef.of (T := ⟨S8192, .f32⟩) main_v15) (TRef.of (T := ⟨S8192, .f32⟩) main_call0_v1) (TRef.of (T := ⟨S8192, .f32⟩) main_v16) select,
    nullary main_c (constantI S_ 32 0#32),
    unary main_c main_v17 (broadcastInDim S270336 ![] bcast_S_S270336 : (⟨S_, .i32⟩ : BufTy).Contents (Elt F) → (⟨S270336, .i32⟩ : BufTy).Contents (Elt F)),
    binary main_v3 main_v17 main_v18 (cmpi .slt : (⟨S270336, .i32⟩ : BufTy).Contents (Elt F) → (⟨S270336, .i32⟩ : BufTy).Contents (Elt F) → (⟨S270336, .i1⟩ : BufTy).Contents (Elt F)),
    nullary main_c_4 (constantI S_ 32 8192#32),
    unary main_c_4 main_v19 (broadcastInDim S270336 ![] bcast_S_S270336 : (⟨S_, .i32⟩ : BufTy).Contents (Elt F) → (⟨S270336, .i32⟩ : BufTy).Contents (Elt F)),
    binary main_v3 main_v19 main_v20 (addi : (⟨S270336, .i32⟩ : BufTy).Contents (Elt F) → (⟨S270336, .i32⟩ : BufTy).Contents (Elt F) → (⟨S270336, .i32⟩ : BufTy).Contents (Elt F)),
    ternary main_v18 main_v20 main_v3 main_v21 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v21 main_v22 (broadcastInDim S270336x1 ![0] bcast_S270336_S270336x1_0 : (⟨S270336, .i32⟩ : BufTy).Contents (Elt F) → (⟨S270336x1, .i32⟩ : BufTy).Contents (Elt F)),
    binary main_v16 main_v22 main_v23 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_5 (constantI S_ 32 0#32),
    unary main_c_5 main_v24 (broadcastInDim S270336 ![] bcast_S_S270336 : (⟨S_, .i32⟩ : BufTy).Contents (Elt F) → (⟨S270336, .i32⟩ : BufTy).Contents (Elt F)),
    binary main_v6 main_v24 main_v25 (cmpi .slt : (⟨S270336, .i32⟩ : BufTy).Contents (Elt F) → (⟨S270336, .i32⟩ : BufTy).Contents (Elt F) → (⟨S270336, .i1⟩ : BufTy).Contents (Elt F)),
    nullary main_c_6 (constantI S_ 32 8192#32),
    unary main_c_6 main_v26 (broadcastInDim S270336 ![] bcast_S_S270336 : (⟨S_, .i32⟩ : BufTy).Contents (Elt F) → (⟨S270336, .i32⟩ : BufTy).Contents (Elt F)),
    binary main_v6 main_v26 main_v27 (addi : (⟨S270336, .i32⟩ : BufTy).Contents (Elt F) → (⟨S270336, .i32⟩ : BufTy).Contents (Elt F) → (⟨S270336, .i32⟩ : BufTy).Contents (Elt F)),
    ternary main_v25 main_v27 main_v6 main_v28 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v28 main_v29 (broadcastInDim S270336x1 ![0] bcast_S270336_S270336x1_0 : (⟨S270336, .i32⟩ : BufTy).Contents (Elt F) → (⟨S270336x1, .i32⟩ : BufTy).Contents (Elt F)),
    binary main_v16 main_v29 main_v30 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v23 main_v30 main_v31 (mulf : (⟨S270336, .f32⟩ : BufTy).Contents (Elt F) → (⟨S270336, .f32⟩ : BufTy).Contents (Elt F) → (⟨S270336, .f32⟩ : BufTy).Contents (Elt F)),
    binary main_arg0 main_arg2 main_v32 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    nullary main_c_7 (constantI S_ 32 0#32),
    unary main_c_7 main_v33 (broadcastInDim S270336 ![] bcast_S_S270336 : (⟨S_, .i32⟩ : BufTy).Contents (Elt F) → (⟨S270336, .i32⟩ : BufTy).Contents (Elt F)),
    binary main_v3 main_v33 main_v34 (cmpi .slt : (⟨S270336, .i32⟩ : BufTy).Contents (Elt F) → (⟨S270336, .i32⟩ : BufTy).Contents (Elt F) → (⟨S270336, .i1⟩ : BufTy).Contents (Elt F)),
    nullary main_c_8 (constantI S_ 32 8192#32),
    unary main_c_8 main_v35 (broadcastInDim S270336 ![] bcast_S_S270336 : (⟨S_, .i32⟩ : BufTy).Contents (Elt F) → (⟨S270336, .i32⟩ : BufTy).Contents (Elt F)),
    binary main_v3 main_v35 main_v36 (addi : (⟨S270336, .i32⟩ : BufTy).Contents (Elt F) → (⟨S270336, .i32⟩ : BufTy).Contents (Elt F) → (⟨S270336, .i32⟩ : BufTy).Contents (Elt F)),
    ternary main_v34 main_v36 main_v3 main_v37 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v37 main_v38 (broadcastInDim S270336x1 ![0] bcast_S270336_S270336x1_0 : (⟨S270336, .i32⟩ : BufTy).Contents (Elt F) → (⟨S270336x1, .i32⟩ : BufTy).Contents (Elt F)),
    binary main_v32 main_v38 main_v39 ((fun x i => Host.gather gather_S8192x256_S270336x1_S270336x256_1_0_n_n_0_1_1256 x i) : (⟨S8192x256, .f32⟩ : BufTy).Contents (Elt F) → (⟨S270336x1, .i32⟩ : BufTy).Contents (Elt F) → (⟨S270336x256, .f32⟩ : BufTy).Contents (Elt F)),
    unary main_v31 main_v40 (broadcastInDim S270336x1 ![0] bcast_S270336_S270336x1_0 : (⟨S270336, .f32⟩ : BufTy).Contents (Elt F) → (⟨S270336x1, .f32⟩ : BufTy).Contents (Elt F)),
    unary main_v40 main_v41 (broadcastInDim S270336x256 ![0, 1] bcast_S270336x1_S270336x256_0_1 : (⟨S270336x1, .f32⟩ : BufTy).Contents (Elt F) → (⟨S270336x256, .f32⟩ : BufTy).Contents (Elt F)),
    binary main_v39 main_v41 main_v42 (mulf : (⟨S270336x256, .f32⟩ : BufTy).Contents (Elt F) → (⟨S270336x256, .f32⟩ : BufTy).Contents (Elt F) → (⟨S270336x256, .f32⟩ : BufTy).Contents (Elt F)),
    nullary main_cst_9 (constant S_ .f32 0x00000000#32),
    unary main_cst_9 main_v43 (broadcastInDim S8192x256 ![] bcast_S_S8192x256 : (⟨S_, .f32⟩ : BufTy).Contents (Elt F) → (⟨S8192x256, .f32⟩ : BufTy).Contents (Elt F)),
    unary main_v6 main_v44 (broadcastInDim S270336x1 ![0] bcast_S270336_S270336x1_0 : (⟨S270336, .i32⟩ : BufTy).Contents (Elt F) → (⟨S270336x1, .i32⟩ : BufTy).Contents (Elt F)),
    ternary main_v43 main_v44 main_v42 main_v45 ((fun x i u => Host.scatterAdd scatter_S8192x256_S270336x1_S270336x256_1_0_0_1 x i u) : (⟨S8192x256, .f32⟩ : BufTy).Contents (Elt F) → (⟨S270336x1, .i32⟩ : BufTy).Contents (Elt F) → (⟨S270336x256, .f32⟩ : BufTy).Contents (Elt F) → (⟨S8192x256, .f32⟩ : BufTy).Contents (Elt F)),
    unary main_arg3 main_v46 (broadcastInDim S1x256 ![1] bcast_S256_S1x256_1 : (⟨S256, .f32⟩ : BufTy).Contents (Elt F) → (⟨S1x256, .f32⟩ : BufTy).Contents (Elt F)),
    unary main_v46 main_v47 (broadcastInDim S8192x256 ![0, 1] bcast_S1x256_S8192x256_0_1 : (⟨S1x256, .f32⟩ : BufTy).Contents (Elt F) → (⟨S8192x256, .f32⟩ : BufTy).Contents (Elt F)),
    binary main_v45 main_v47 main_v48 (addf : (⟨S8192x256, .f32⟩ : BufTy).Contents (Elt F) → (⟨S8192x256, .f32⟩ : BufTy).Contents (Elt F) → (⟨S8192x256, .f32⟩ : BufTy).Contents (Elt F)),
    binary main_arg0 main_v48 main_v49 (addf : (⟨S8192x256, .f32⟩ : BufTy).Contents (Elt F) → (⟨S8192x256, .f32⟩ : BufTy).Contents (Elt F) → (⟨S8192x256, .f32⟩ : BufTy).Contents (Elt F)),
    nullary main_cst_10 (constant S_ .f32 0x00000000#32),
    binary main_v49 main_cst_10 main_v50 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v50 main_v51 (broadcastInDim S8192x1 ![0] bcast_S8192_S8192x1_0 : (⟨S8192, .f32⟩ : BufTy).Contents (Elt F) → (⟨S8192x1, .f32⟩ : BufTy).Contents (Elt F)),
    nullary main_cst_11 (constant S_ .f32 0x43800000#32),
    unary main_cst_11 main_v52 (broadcastInDim S8192x1 ![] bcast_S_S8192x1 : (⟨S_, .f32⟩ : BufTy).Contents (Elt F) → (⟨S8192x1, .f32⟩ : BufTy).Contents (Elt F)),
    binary main_v51 main_v52 main_v53 (Host.divf : (⟨S8192x1, .f32⟩ : BufTy).Contents (Elt F) → (⟨S8192x1, .f32⟩ : BufTy).Contents (Elt F) → (⟨S8192x1, .f32⟩ : BufTy).Contents (Elt F)),
    unary main_v53 main_v54 (broadcastInDim S8192x256 ![0, 1] bcast_S8192x1_S8192x256_0_1 : (⟨S8192x1, .f32⟩ : BufTy).Contents (Elt F) → (⟨S8192x256, .f32⟩ : BufTy).Contents (Elt F)),
    binary main_v49 main_v54 main_v55 (subf : (⟨S8192x256, .f32⟩ : BufTy).Contents (Elt F) → (⟨S8192x256, .f32⟩ : BufTy).Contents (Elt F) → (⟨S8192x256, .f32⟩ : BufTy).Contents (Elt F)),
    binary main_v55 main_v55 main_v56 (mulf : (⟨S8192x256, .f32⟩ : BufTy).Contents (Elt F) → (⟨S8192x256, .f32⟩ : BufTy).Contents (Elt F) → (⟨S8192x256, .f32⟩ : BufTy).Contents (Elt F)),
    nullary main_cst_12 (constant S_ .f32 0x00000000#32),
    binary main_v56 main_cst_12 main_v57 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v57 main_v58 (broadcastInDim S8192x1 ![0] bcast_S8192_S8192x1_0 : (⟨S8192, .f32⟩ : BufTy).Contents (Elt F) → (⟨S8192x1, .f32⟩ : BufTy).Contents (Elt F)),
    nullary main_cst_13 (constant S_ .f32 0x43800000#32),
    unary main_cst_13 main_v59 (broadcastInDim S8192x1 ![] bcast_S_S8192x1 : (⟨S_, .f32⟩ : BufTy).Contents (Elt F) → (⟨S8192x1, .f32⟩ : BufTy).Contents (Elt F)),
    binary main_v58 main_v59 main_v60 (Host.divf : (⟨S8192x1, .f32⟩ : BufTy).Contents (Elt F) → (⟨S8192x1, .f32⟩ : BufTy).Contents (Elt F) → (⟨S8192x1, .f32⟩ : BufTy).Contents (Elt F)),
    unary main_v53 main_v61 (broadcastInDim S8192x256 ![0, 1] bcast_S8192x1_S8192x256_0_1 : (⟨S8192x1, .f32⟩ : BufTy).Contents (Elt F) → (⟨S8192x256, .f32⟩ : BufTy).Contents (Elt F)),
    binary main_v49 main_v61 main_v62 (subf : (⟨S8192x256, .f32⟩ : BufTy).Contents (Elt F) → (⟨S8192x256, .f32⟩ : BufTy).Contents (Elt F) → (⟨S8192x256, .f32⟩ : BufTy).Contents (Elt F)),
    nullary main_cst_14 (constant S_ .f32 0x3727C5AC#32),
    unary main_cst_14 main_v63 (broadcastInDim S8192x1 ![] bcast_S_S8192x1 : (⟨S_, .f32⟩ : BufTy).Contents (Elt F) → (⟨S8192x1, .f32⟩ : BufTy).Contents (Elt F)),
    binary main_v60 main_v63 main_v64 (addf : (⟨S8192x1, .f32⟩ : BufTy).Contents (Elt F) → (⟨S8192x1, .f32⟩ : BufTy).Contents (Elt F) → (⟨S8192x1, .f32⟩ : BufTy).Contents (Elt F)),
    unary main_v64 main_v65 (Host.rsqrt : (⟨S8192x1, .f32⟩ : BufTy).Contents (Elt F) → (⟨S8192x1, .f32⟩ : BufTy).Contents (Elt F)),
    unary main_v65 main_v66 (broadcastInDim S8192x256 ![0, 1] bcast_S8192x1_S8192x256_0_1 : (⟨S8192x1, .f32⟩ : BufTy).Contents (Elt F) → (⟨S8192x256, .f32⟩ : BufTy).Contents (Elt F)),
    binary main_v62 main_v66 main_v67 (mulf : (⟨S8192x256, .f32⟩ : BufTy).Contents (Elt F) → (⟨S8192x256, .f32⟩ : BufTy).Contents (Elt F) → (⟨S8192x256, .f32⟩ : BufTy).Contents (Elt F)),
    unary main_arg13 main_v68 (broadcastInDim S1x256 ![1] bcast_S256_S1x256_1 : (⟨S256, .f32⟩ : BufTy).Contents (Elt F) → (⟨S1x256, .f32⟩ : BufTy).Contents (Elt F)),
    unary main_v68 main_v69 (broadcastInDim S8192x256 ![0, 1] bcast_S1x256_S8192x256_0_1 : (⟨S1x256, .f32⟩ : BufTy).Contents (Elt F) → (⟨S8192x256, .f32⟩ : BufTy).Contents (Elt F)),
    binary main_v67 main_v69 main_v70 (mulf : (⟨S8192x256, .f32⟩ : BufTy).Contents (Elt F) → (⟨S8192x256, .f32⟩ : BufTy).Contents (Elt F) → (⟨S8192x256, .f32⟩ : BufTy).Contents (Elt F)),
    unary main_arg14 main_v71 (broadcastInDim S1x256 ![1] bcast_S256_S1x256_1 : (⟨S256, .f32⟩ : BufTy).Contents (Elt F) → (⟨S1x256, .f32⟩ : BufTy).Contents (Elt F)),
    unary main_v71 main_v72 (broadcastInDim S8192x256 ![0, 1] bcast_S1x256_S8192x256_0_1 : (⟨S1x256, .f32⟩ : BufTy).Contents (Elt F) → (⟨S8192x256, .f32⟩ : BufTy).Contents (Elt F)),
    binary main_v70 main_v72 main_v73 (addf : (⟨S8192x256, .f32⟩ : BufTy).Contents (Elt F) → (⟨S8192x256, .f32⟩ : BufTy).Contents (Elt F) → (⟨S8192x256, .f32⟩ : BufTy).Contents (Elt F)),
    binary main_v73 main_arg4 main_v74 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg5 main_v75 (broadcastInDim S1x256 ![1] bcast_S256_S1x256_1 : (⟨S256, .f32⟩ : BufTy).Contents (Elt F) → (⟨S1x256, .f32⟩ : BufTy).Contents (Elt F)),
    unary main_v75 main_v76 (broadcastInDim S8192x256 ![0, 1] bcast_S1x256_S8192x256_0_1 : (⟨S1x256, .f32⟩ : BufTy).Contents (Elt F) → (⟨S8192x256, .f32⟩ : BufTy).Contents (Elt F)),
    binary main_v74 main_v76 main_v77 (addf : (⟨S8192x256, .f32⟩ : BufTy).Contents (Elt F) → (⟨S8192x256, .f32⟩ : BufTy).Contents (Elt F) → (⟨S8192x256, .f32⟩ : BufTy).Contents (Elt F)),
    binary main_v73 main_arg6 main_v78 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg7 main_v79 (broadcastInDim S1x256 ![1] bcast_S256_S1x256_1 : (⟨S256, .f32⟩ : BufTy).Contents (Elt F) → (⟨S1x256, .f32⟩ : BufTy).Contents (Elt F)),
    unary main_v79 main_v80 (broadcastInDim S8192x256 ![0, 1] bcast_S1x256_S8192x256_0_1 : (⟨S1x256, .f32⟩ : BufTy).Contents (Elt F) → (⟨S8192x256, .f32⟩ : BufTy).Contents (Elt F)),
    binary main_v78 main_v80 main_v81 (addf : (⟨S8192x256, .f32⟩ : BufTy).Contents (Elt F) → (⟨S8192x256, .f32⟩ : BufTy).Contents (Elt F) → (⟨S8192x256, .f32⟩ : BufTy).Contents (Elt F)),
    binary main_v73 main_arg8 main_v82 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg9 main_v83 (broadcastInDim S1x256 ![1] bcast_S256_S1x256_1 : (⟨S256, .f32⟩ : BufTy).Contents (Elt F) → (⟨S1x256, .f32⟩ : BufTy).Contents (Elt F)),
    unary main_v83 main_v84 (broadcastInDim S8192x256 ![0, 1] bcast_S1x256_S8192x256_0_1 : (⟨S1x256, .f32⟩ : BufTy).Contents (Elt F) → (⟨S8192x256, .f32⟩ : BufTy).Contents (Elt F)),
    binary main_v82 main_v84 main_v85 (addf : (⟨S8192x256, .f32⟩ : BufTy).Contents (Elt F) → (⟨S8192x256, .f32⟩ : BufTy).Contents (Elt F) → (⟨S8192x256, .f32⟩ : BufTy).Contents (Elt F)),
    unary main_arg12 main_v86 ((transpose S256x256 [1, 0] · transposes_S256x256_S256x256_1_0) : (⟨S256x256, .f32⟩ : BufTy).Contents (Elt F) → (⟨S256x256, .f32⟩ : BufTy).Contents (Elt F)),
    binary main_v77 main_v86 main_v87 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg12 main_v88 ((transpose S256x256 [1, 0] · transposes_S256x256_S256x256_1_0) : (⟨S256x256, .f32⟩ : BufTy).Contents (Elt F) → (⟨S256x256, .f32⟩ : BufTy).Contents (Elt F)),
    binary main_v81 main_v88 main_v89 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_v89 main_v90 ((transpose S256x8192 [1, 0] · transposes_S8192x256_S256x8192_1_0) : (⟨S8192x256, .f32⟩ : BufTy).Contents (Elt F) → (⟨S256x8192, .f32⟩ : BufTy).Contents (Elt F)),
    binary main_v87 main_v90 main_v91 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_15 (constant S_ .f32 0x43800000#32),
    unary main_cst_15 main_v92 (Host.sqrt : (⟨S_, .f32⟩ : BufTy).Contents (Elt F) → (⟨S_, .f32⟩ : BufTy).Contents (Elt F)),
    unary main_v92 main_v93 (broadcastInDim S8192x8192 ![] bcast_S_S8192x8192 : (⟨S_, .f32⟩ : BufTy).Contents (Elt F) → (⟨S8192x8192, .f32⟩ : BufTy).Contents (Elt F)),
    binary main_v91 main_v93 main_v94 (Host.divf : (⟨S8192x8192, .f32⟩ : BufTy).Contents (Elt F) → (⟨S8192x8192, .f32⟩ : BufTy).Contents (Elt F) → (⟨S8192x8192, .f32⟩ : BufTy).Contents (Elt F)),
    nullary main_cst_16 (constant S_ .f32 0xFF800000#32),
    binary main_v94 main_cst_16 main_v95 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_17 (constant S_ .f32 0xFF800000#32),
    unary main_cst_17 main_v96 (broadcastInDim S8192 ![] bcast_S_S8192 : (⟨S_, .f32⟩ : BufTy).Contents (Elt F) → (⟨S8192, .f32⟩ : BufTy).Contents (Elt F)),
    binary main_v96 main_v95 main_v97 (maximumf : (⟨S8192, .f32⟩ : BufTy).Contents (Elt F) → (⟨S8192, .f32⟩ : BufTy).Contents (Elt F) → (⟨S8192, .f32⟩ : BufTy).Contents (Elt F)),
    unary main_v97 main_v98 (broadcastInDim S8192x1 ![0] bcast_S8192_S8192x1_0 : (⟨S8192, .f32⟩ : BufTy).Contents (Elt F) → (⟨S8192x1, .f32⟩ : BufTy).Contents (Elt F)),
    unary main_v98 main_v99 (broadcastInDim S8192x8192 ![0, 1] bcast_S8192x1_S8192x8192_0_1 : (⟨S8192x1, .f32⟩ : BufTy).Contents (Elt F) → (⟨S8192x8192, .f32⟩ : BufTy).Contents (Elt F)),
    binary main_v94 main_v99 main_v100 (subf : (⟨S8192x8192, .f32⟩ : BufTy).Contents (Elt F) → (⟨S8192x8192, .f32⟩ : BufTy).Contents (Elt F) → (⟨S8192x8192, .f32⟩ : BufTy).Contents (Elt F)),
    unary main_v100 main_v101 (Host.exp : (⟨S8192x8192, .f32⟩ : BufTy).Contents (Elt F) → (⟨S8192x8192, .f32⟩ : BufTy).Contents (Elt F)),
    nullary main_cst_18 (constant S_ .f32 0x00000000#32),
    binary main_v101 main_cst_18 main_v102 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v102 main_v103 (broadcastInDim S8192x1 ![0] bcast_S8192_S8192x1_0 : (⟨S8192, .f32⟩ : BufTy).Contents (Elt F) → (⟨S8192x1, .f32⟩ : BufTy).Contents (Elt F)),
    unary main_v103 main_v104 (broadcastInDim S8192x8192 ![0, 1] bcast_S8192x1_S8192x8192_0_1 : (⟨S8192x1, .f32⟩ : BufTy).Contents (Elt F) → (⟨S8192x8192, .f32⟩ : BufTy).Contents (Elt F)),
    binary main_v101 main_v104 main_v105 (Host.divf : (⟨S8192x8192, .f32⟩ : BufTy).Contents (Elt F) → (⟨S8192x8192, .f32⟩ : BufTy).Contents (Elt F) → (⟨S8192x8192, .f32⟩ : BufTy).Contents (Elt F)),
    binary main_v105 main_v85 main_v106 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_v106 main_arg10 main_v107 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg11 main_v108 (broadcastInDim S1x256 ![1] bcast_S256_S1x256_1 : (⟨S256, .f32⟩ : BufTy).Contents (Elt F) → (⟨S1x256, .f32⟩ : BufTy).Contents (Elt F)),
    unary main_v108 main_v109 (broadcastInDim S8192x256 ![0, 1] bcast_S1x256_S8192x256_0_1 : (⟨S1x256, .f32⟩ : BufTy).Contents (Elt F) → (⟨S8192x256, .f32⟩ : BufTy).Contents (Elt F)),
    binary main_v107 main_v109 main_v110 (addf : (⟨S8192x256, .f32⟩ : BufTy).Contents (Elt F) → (⟨S8192x256, .f32⟩ : BufTy).Contents (Elt F) → (⟨S8192x256, .f32⟩ : BufTy).Contents (Elt F)),
    binary main_v73 main_v110 main_v111 (addf : (⟨S8192x256, .f32⟩ : BufTy).Contents (Elt F) → (⟨S8192x256, .f32⟩ : BufTy).Contents (Elt F) → (⟨S8192x256, .f32⟩ : BufTy).Contents (Elt F)),
    nullary main_cst_19 (constant S_ .f32 0x00000000#32),
    binary main_v111 main_cst_19 main_v112 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v112 main_v113 (broadcastInDim S8192x1 ![0] bcast_S8192_S8192x1_0 : (⟨S8192, .f32⟩ : BufTy).Contents (Elt F) → (⟨S8192x1, .f32⟩ : BufTy).Contents (Elt F)),
    nullary main_cst_20 (constant S_ .f32 0x43800000#32),
    unary main_cst_20 main_v114 (broadcastInDim S8192x1 ![] bcast_S_S8192x1 : (⟨S_, .f32⟩ : BufTy).Contents (Elt F) → (⟨S8192x1, .f32⟩ : BufTy).Contents (Elt F)),
    binary main_v113 main_v114 main_v115 (Host.divf : (⟨S8192x1, .f32⟩ : BufTy).Contents (Elt F) → (⟨S8192x1, .f32⟩ : BufTy).Contents (Elt F) → (⟨S8192x1, .f32⟩ : BufTy).Contents (Elt F)),
    unary main_v115 main_v116 (broadcastInDim S8192x256 ![0, 1] bcast_S8192x1_S8192x256_0_1 : (⟨S8192x1, .f32⟩ : BufTy).Contents (Elt F) → (⟨S8192x256, .f32⟩ : BufTy).Contents (Elt F)),
    binary main_v111 main_v116 main_v117 (subf : (⟨S8192x256, .f32⟩ : BufTy).Contents (Elt F) → (⟨S8192x256, .f32⟩ : BufTy).Contents (Elt F) → (⟨S8192x256, .f32⟩ : BufTy).Contents (Elt F)),
    binary main_v117 main_v117 main_v118 (mulf : (⟨S8192x256, .f32⟩ : BufTy).Contents (Elt F) → (⟨S8192x256, .f32⟩ : BufTy).Contents (Elt F) → (⟨S8192x256, .f32⟩ : BufTy).Contents (Elt F)),
    nullary main_cst_21 (constant S_ .f32 0x00000000#32),
    binary main_v118 main_cst_21 main_v119 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v119 main_v120 (broadcastInDim S8192x1 ![0] bcast_S8192_S8192x1_0 : (⟨S8192, .f32⟩ : BufTy).Contents (Elt F) → (⟨S8192x1, .f32⟩ : BufTy).Contents (Elt F)),
    nullary main_cst_22 (constant S_ .f32 0x43800000#32),
    unary main_cst_22 main_v121 (broadcastInDim S8192x1 ![] bcast_S_S8192x1 : (⟨S_, .f32⟩ : BufTy).Contents (Elt F) → (⟨S8192x1, .f32⟩ : BufTy).Contents (Elt F)),
    binary main_v120 main_v121 main_v122 (Host.divf : (⟨S8192x1, .f32⟩ : BufTy).Contents (Elt F) → (⟨S8192x1, .f32⟩ : BufTy).Contents (Elt F) → (⟨S8192x1, .f32⟩ : BufTy).Contents (Elt F)),
    unary main_v115 main_v123 (broadcastInDim S8192x256 ![0, 1] bcast_S8192x1_S8192x256_0_1 : (⟨S8192x1, .f32⟩ : BufTy).Contents (Elt F) → (⟨S8192x256, .f32⟩ : BufTy).Contents (Elt F)),
    binary main_v111 main_v123 main_v124 (subf : (⟨S8192x256, .f32⟩ : BufTy).Contents (Elt F) → (⟨S8192x256, .f32⟩ : BufTy).Contents (Elt F) → (⟨S8192x256, .f32⟩ : BufTy).Contents (Elt F)),
    nullary main_cst_23 (constant S_ .f32 0x3727C5AC#32),
    unary main_cst_23 main_v125 (broadcastInDim S8192x1 ![] bcast_S_S8192x1 : (⟨S_, .f32⟩ : BufTy).Contents (Elt F) → (⟨S8192x1, .f32⟩ : BufTy).Contents (Elt F)),
    binary main_v122 main_v125 main_v126 (addf : (⟨S8192x1, .f32⟩ : BufTy).Contents (Elt F) → (⟨S8192x1, .f32⟩ : BufTy).Contents (Elt F) → (⟨S8192x1, .f32⟩ : BufTy).Contents (Elt F)),
    unary main_v126 main_v127 (Host.rsqrt : (⟨S8192x1, .f32⟩ : BufTy).Contents (Elt F) → (⟨S8192x1, .f32⟩ : BufTy).Contents (Elt F)),
    unary main_v127 main_v128 (broadcastInDim S8192x256 ![0, 1] bcast_S8192x1_S8192x256_0_1 : (⟨S8192x1, .f32⟩ : BufTy).Contents (Elt F) → (⟨S8192x256, .f32⟩ : BufTy).Contents (Elt F)),
    binary main_v124 main_v128 main_v129 (mulf : (⟨S8192x256, .f32⟩ : BufTy).Contents (Elt F) → (⟨S8192x256, .f32⟩ : BufTy).Contents (Elt F) → (⟨S8192x256, .f32⟩ : BufTy).Contents (Elt F)),
    unary main_arg15 main_v130 (broadcastInDim S1x256 ![1] bcast_S256_S1x256_1 : (⟨S256, .f32⟩ : BufTy).Contents (Elt F) → (⟨S1x256, .f32⟩ : BufTy).Contents (Elt F)),
    unary main_v130 main_v131 (broadcastInDim S8192x256 ![0, 1] bcast_S1x256_S8192x256_0_1 : (⟨S1x256, .f32⟩ : BufTy).Contents (Elt F) → (⟨S8192x256, .f32⟩ : BufTy).Contents (Elt F)),
    binary main_v129 main_v131 main_v132 (mulf : (⟨S8192x256, .f32⟩ : BufTy).Contents (Elt F) → (⟨S8192x256, .f32⟩ : BufTy).Contents (Elt F) → (⟨S8192x256, .f32⟩ : BufTy).Contents (Elt F)),
    unary main_arg16 main_v133 (broadcastInDim S1x256 ![1] bcast_S256_S1x256_1 : (⟨S256, .f32⟩ : BufTy).Contents (Elt F) → (⟨S1x256, .f32⟩ : BufTy).Contents (Elt F)),
    unary main_v133 main_v134 (broadcastInDim S8192x256 ![0, 1] bcast_S1x256_S8192x256_0_1 : (⟨S1x256, .f32⟩ : BufTy).Contents (Elt F) → (⟨S8192x256, .f32⟩ : BufTy).Contents (Elt F)),
    binary main_v132 main_v134 main_v135 (addf : (⟨S8192x256, .f32⟩ : BufTy).Contents (Elt F) → (⟨S8192x256, .f32⟩ : BufTy).Contents (Elt F) → (⟨S8192x256, .f32⟩ : BufTy).Contents (Elt F)),
    binary main_v135 main_arg19 main_v136 ((fun l r => Host.dotGeneral dot_S8192x256_S256x512_S8192x512_1_0_0_1_n_n none l r) : (⟨S8192x256, .f32⟩ : BufTy).Contents (Elt F) → (⟨S256x512, .f32⟩ : BufTy).Contents (Elt F) → (⟨S8192x512, .f32⟩ : BufTy).Contents (Elt F)),
    unary main_arg20 main_v137 (broadcastInDim S1x512 ![1] bcast_S512_S1x512_1 : (⟨S512, .f32⟩ : BufTy).Contents (Elt F) → (⟨S1x512, .f32⟩ : BufTy).Contents (Elt F)),
    unary main_v137 main_v138 (broadcastInDim S8192x512 ![0, 1] bcast_S1x512_S8192x512_0_1 : (⟨S1x512, .f32⟩ : BufTy).Contents (Elt F) → (⟨S8192x512, .f32⟩ : BufTy).Contents (Elt F)),
    binary main_v136 main_v138 main_v139 (addf : (⟨S8192x512, .f32⟩ : BufTy).Contents (Elt F) → (⟨S8192x512, .f32⟩ : BufTy).Contents (Elt F) → (⟨S8192x512, .f32⟩ : BufTy).Contents (Elt F)),
    nullary main_cst_24 (constant S_ .f32 0x00000000#32),
    unary main_cst_24 main_v140 (broadcastInDim S8192x512 ![] bcast_S_S8192x512 : (⟨S_, .f32⟩ : BufTy).Contents (Elt F) → (⟨S8192x512, .f32⟩ : BufTy).Contents (Elt F)),
    binary main_v139 main_v140 main_v141 (maximumf : (⟨S8192x512, .f32⟩ : BufTy).Contents (Elt F) → (⟨S8192x512, .f32⟩ : BufTy).Contents (Elt F) → (⟨S8192x512, .f32⟩ : BufTy).Contents (Elt F)),
    binary main_v141 main_arg21 main_v142 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg22 main_v143 (broadcastInDim S1x256 ![1] bcast_S256_S1x256_1 : (⟨S256, .f32⟩ : BufTy).Contents (Elt F) → (⟨S1x256, .f32⟩ : BufTy).Contents (Elt F)),
    unary main_v143 main_v144 (broadcastInDim S8192x256 ![0, 1] bcast_S1x256_S8192x256_0_1 : (⟨S1x256, .f32⟩ : BufTy).Contents (Elt F) → (⟨S8192x256, .f32⟩ : BufTy).Contents (Elt F)),
    binary main_v142 main_v144 main_v145 (addf : (⟨S8192x256, .f32⟩ : BufTy).Contents (Elt F) → (⟨S8192x256, .f32⟩ : BufTy).Contents (Elt F) → (⟨S8192x256, .f32⟩ : BufTy).Contents (Elt F)),
    binary main_v135 main_v145 main_v146 (addf : (⟨S8192x256, .f32⟩ : BufTy).Contents (Elt F) → (⟨S8192x256, .f32⟩ : BufTy).Contents (Elt F) → (⟨S8192x256, .f32⟩ : BufTy).Contents (Elt F)),
    nullary main_cst_25 (constant S_ .f32 0x00000000#32),
    binary main_v146 main_cst_25 main_v147 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v147 main_v148 (broadcastInDim S8192x1 ![0] bcast_S8192_S8192x1_0 : (⟨S8192, .f32⟩ : BufTy).Contents (Elt F) → (⟨S8192x1, .f32⟩ : BufTy).Contents (Elt F)),
    nullary main_cst_26 (constant S_ .f32 0x43800000#32),
    unary main_cst_26 main_v149 (broadcastInDim S8192x1 ![] bcast_S_S8192x1 : (⟨S_, .f32⟩ : BufTy).Contents (Elt F) → (⟨S8192x1, .f32⟩ : BufTy).Contents (Elt F)),
    binary main_v148 main_v149 main_v150 (Host.divf : (⟨S8192x1, .f32⟩ : BufTy).Contents (Elt F) → (⟨S8192x1, .f32⟩ : BufTy).Contents (Elt F) → (⟨S8192x1, .f32⟩ : BufTy).Contents (Elt F)),
    unary main_v150 main_v151 (broadcastInDim S8192x256 ![0, 1] bcast_S8192x1_S8192x256_0_1 : (⟨S8192x1, .f32⟩ : BufTy).Contents (Elt F) → (⟨S8192x256, .f32⟩ : BufTy).Contents (Elt F)),
    binary main_v146 main_v151 main_v152 (subf : (⟨S8192x256, .f32⟩ : BufTy).Contents (Elt F) → (⟨S8192x256, .f32⟩ : BufTy).Contents (Elt F) → (⟨S8192x256, .f32⟩ : BufTy).Contents (Elt F)),
    binary main_v152 main_v152 main_v153 (mulf : (⟨S8192x256, .f32⟩ : BufTy).Contents (Elt F) → (⟨S8192x256, .f32⟩ : BufTy).Contents (Elt F) → (⟨S8192x256, .f32⟩ : BufTy).Contents (Elt F)),
    nullary main_cst_27 (constant S_ .f32 0x00000000#32),
    binary main_v153 main_cst_27 main_v154 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v154 main_v155 (broadcastInDim S8192x1 ![0] bcast_S8192_S8192x1_0 : (⟨S8192, .f32⟩ : BufTy).Contents (Elt F) → (⟨S8192x1, .f32⟩ : BufTy).Contents (Elt F)),
    nullary main_cst_28 (constant S_ .f32 0x43800000#32),
    unary main_cst_28 main_v156 (broadcastInDim S8192x1 ![] bcast_S_S8192x1 : (⟨S_, .f32⟩ : BufTy).Contents (Elt F) → (⟨S8192x1, .f32⟩ : BufTy).Contents (Elt F)),
    binary main_v155 main_v156 main_v157 (Host.divf : (⟨S8192x1, .f32⟩ : BufTy).Contents (Elt F) → (⟨S8192x1, .f32⟩ : BufTy).Contents (Elt F) → (⟨S8192x1, .f32⟩ : BufTy).Contents (Elt F)),
    unary main_v150 main_v158 (broadcastInDim S8192x256 ![0, 1] bcast_S8192x1_S8192x256_0_1 : (⟨S8192x1, .f32⟩ : BufTy).Contents (Elt F) → (⟨S8192x256, .f32⟩ : BufTy).Contents (Elt F)),
    binary main_v146 main_v158 main_v159 (subf : (⟨S8192x256, .f32⟩ : BufTy).Contents (Elt F) → (⟨S8192x256, .f32⟩ : BufTy).Contents (Elt F) → (⟨S8192x256, .f32⟩ : BufTy).Contents (Elt F)),
    nullary main_cst_29 (constant S_ .f32 0x3727C5AC#32),
    unary main_cst_29 main_v160 (broadcastInDim S8192x1 ![] bcast_S_S8192x1 : (⟨S_, .f32⟩ : BufTy).Contents (Elt F) → (⟨S8192x1, .f32⟩ : BufTy).Contents (Elt F)),
    binary main_v157 main_v160 main_v161 (addf : (⟨S8192x1, .f32⟩ : BufTy).Contents (Elt F) → (⟨S8192x1, .f32⟩ : BufTy).Contents (Elt F) → (⟨S8192x1, .f32⟩ : BufTy).Contents (Elt F)),
    unary main_v161 main_v162 (Host.rsqrt : (⟨S8192x1, .f32⟩ : BufTy).Contents (Elt F) → (⟨S8192x1, .f32⟩ : BufTy).Contents (Elt F)),
    unary main_v162 main_v163 (broadcastInDim S8192x256 ![0, 1] bcast_S8192x1_S8192x256_0_1 : (⟨S8192x1, .f32⟩ : BufTy).Contents (Elt F) → (⟨S8192x256, .f32⟩ : BufTy).Contents (Elt F)),
    binary main_v159 main_v163 main_v164 (mulf : (⟨S8192x256, .f32⟩ : BufTy).Contents (Elt F) → (⟨S8192x256, .f32⟩ : BufTy).Contents (Elt F) → (⟨S8192x256, .f32⟩ : BufTy).Contents (Elt F)),
    unary main_arg17 main_v165 (broadcastInDim S1x256 ![1] bcast_S256_S1x256_1 : (⟨S256, .f32⟩ : BufTy).Contents (Elt F) → (⟨S1x256, .f32⟩ : BufTy).Contents (Elt F)),
    unary main_v165 main_v166 (broadcastInDim S8192x256 ![0, 1] bcast_S1x256_S8192x256_0_1 : (⟨S1x256, .f32⟩ : BufTy).Contents (Elt F) → (⟨S8192x256, .f32⟩ : BufTy).Contents (Elt F)),
    binary main_v164 main_v166 main_v167 (mulf : (⟨S8192x256, .f32⟩ : BufTy).Contents (Elt F) → (⟨S8192x256, .f32⟩ : BufTy).Contents (Elt F) → (⟨S8192x256, .f32⟩ : BufTy).Contents (Elt F)),
    unary main_arg18 main_v168 (broadcastInDim S1x256 ![1] bcast_S256_S1x256_1 : (⟨S256, .f32⟩ : BufTy).Contents (Elt F) → (⟨S1x256, .f32⟩ : BufTy).Contents (Elt F)),
    unary main_v168 main_v169 (broadcastInDim S8192x256 ![0, 1] bcast_S1x256_S8192x256_0_1 : (⟨S1x256, .f32⟩ : BufTy).Contents (Elt F) → (⟨S8192x256, .f32⟩ : BufTy).Contents (Elt F)),
    binary main_v167 main_v169 main_v170 (addf : (⟨S8192x256, .f32⟩ : BufTy).Contents (Elt F) → (⟨S8192x256, .f32⟩ : BufTy).Contents (Elt F) → (⟨S8192x256, .f32⟩ : BufTy).Contents (Elt F)) ]

/-- Stretch A: the neighbourhood aggregate (through `main_v48`). -/
abbrev opsA : List (HloOp τ sig (Elt F)) :=
  [ nullary main_v0 (iotaInDim S8192 32 0),
    unary main_arg1 main_v1 ((extractStridedSlice S1x262144 ![0, 0] · slices_S2x262144_S1x262144_0_0) : (⟨S2x262144, .i32⟩ : BufTy).Contents (Elt F) → (⟨S1x262144, .i32⟩ : BufTy).Contents (Elt F)),
    reshape main_v1 main_v2 rfl shapeCasts_S1x262144_S262144,
    binary main_v2 main_v0 main_v3 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    unary main_arg1 main_v4 ((extractStridedSlice S1x262144 ![1, 0] · slices_S2x262144_S1x262144_1_0) : (⟨S2x262144, .i32⟩ : BufTy).Contents (Elt F) → (⟨S1x262144, .i32⟩ : BufTy).Contents (Elt F)),
    reshape main_v4 main_v5 rfl shapeCasts_S1x262144_S262144,
    binary main_v5 main_v0 main_v6 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst (constant S_ .f32 0x3F800000#32),
    unary main_cst main_v7 (broadcastInDim S270336 ![] bcast_S_S270336 : (⟨S_, .f32⟩ : BufTy).Contents (Elt F) → (⟨S270336, .f32⟩ : BufTy).Contents (Elt F)),
    nullary main_cst_0 (constant S_ .f32 0x00000000#32),
    unary main_cst_0 main_v8 (broadcastInDim S8192 ![] bcast_S_S8192 : (⟨S_, .f32⟩ : BufTy).Contents (Elt F) → (⟨S8192, .f32⟩ : BufTy).Contents (Elt F)),
    unary main_v6 main_v9 (broadcastInDim S270336x1 ![0] bcast_S270336_S270336x1_0 : (⟨S270336, .i32⟩ : BufTy).Contents (Elt F) → (⟨S270336x1, .i32⟩ : BufTy).Contents (Elt F)),
    ternary main_v8 main_v9 main_v7 main_v10 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_1 (constant S_ .f32 0x00000000#32),
    unary main_cst_1 main_v11 (broadcastInDim S8192 ![] bcast_S_S8192 : (⟨S_, .f32⟩ : BufTy).Contents (Elt F) → (⟨S8192, .f32⟩ : BufTy).Contents (Elt F)),
    binary main_v10 main_v11 main_v12 (cmpf .ogt : (⟨S8192, .f32⟩ : BufTy).Contents (Elt F) → (⟨S8192, .f32⟩ : BufTy).Contents (Elt F) → (⟨S8192, .i1⟩ : BufTy).Contents (Elt F)),
    nullary main_cst_2 (constant S_ .f32 0x2B8CBCCC#32),
    unary main_cst_2 main_v13 (broadcastInDim S8192 ![] bcast_S_S8192 : (⟨S_, .f32⟩ : BufTy).Contents (Elt F) → (⟨S8192, .f32⟩ : BufTy).Contents (Elt F)),
    binary main_v10 main_v13 main_v14 (maximumf : (⟨S8192, .f32⟩ : BufTy).Contents (Elt F) → (⟨S8192, .f32⟩ : BufTy).Contents (Elt F) → (⟨S8192, .f32⟩ : BufTy).Contents (Elt F)),
    unary main_v14 main_v15 (Host.rsqrt : (⟨S8192, .f32⟩ : BufTy).Contents (Elt F) → (⟨S8192, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v12) (TRef.of (T := ⟨S8192, .f32⟩) main_v15) (TRef.of (T := ⟨S8192, .f32⟩) main_call0_v1) (TRef.of (T := ⟨S8192, .f32⟩) main_v16) select,
    nullary main_c (constantI S_ 32 0#32),
    unary main_c main_v17 (broadcastInDim S270336 ![] bcast_S_S270336 : (⟨S_, .i32⟩ : BufTy).Contents (Elt F) → (⟨S270336, .i32⟩ : BufTy).Contents (Elt F)),
    binary main_v3 main_v17 main_v18 (cmpi .slt : (⟨S270336, .i32⟩ : BufTy).Contents (Elt F) → (⟨S270336, .i32⟩ : BufTy).Contents (Elt F) → (⟨S270336, .i1⟩ : BufTy).Contents (Elt F)),
    nullary main_c_4 (constantI S_ 32 8192#32),
    unary main_c_4 main_v19 (broadcastInDim S270336 ![] bcast_S_S270336 : (⟨S_, .i32⟩ : BufTy).Contents (Elt F) → (⟨S270336, .i32⟩ : BufTy).Contents (Elt F)),
    binary main_v3 main_v19 main_v20 (addi : (⟨S270336, .i32⟩ : BufTy).Contents (Elt F) → (⟨S270336, .i32⟩ : BufTy).Contents (Elt F) → (⟨S270336, .i32⟩ : BufTy).Contents (Elt F)),
    ternary main_v18 main_v20 main_v3 main_v21 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v21 main_v22 (broadcastInDim S270336x1 ![0] bcast_S270336_S270336x1_0 : (⟨S270336, .i32⟩ : BufTy).Contents (Elt F) → (⟨S270336x1, .i32⟩ : BufTy).Contents (Elt F)),
    binary main_v16 main_v22 main_v23 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_5 (constantI S_ 32 0#32),
    unary main_c_5 main_v24 (broadcastInDim S270336 ![] bcast_S_S270336 : (⟨S_, .i32⟩ : BufTy).Contents (Elt F) → (⟨S270336, .i32⟩ : BufTy).Contents (Elt F)),
    binary main_v6 main_v24 main_v25 (cmpi .slt : (⟨S270336, .i32⟩ : BufTy).Contents (Elt F) → (⟨S270336, .i32⟩ : BufTy).Contents (Elt F) → (⟨S270336, .i1⟩ : BufTy).Contents (Elt F)),
    nullary main_c_6 (constantI S_ 32 8192#32),
    unary main_c_6 main_v26 (broadcastInDim S270336 ![] bcast_S_S270336 : (⟨S_, .i32⟩ : BufTy).Contents (Elt F) → (⟨S270336, .i32⟩ : BufTy).Contents (Elt F)),
    binary main_v6 main_v26 main_v27 (addi : (⟨S270336, .i32⟩ : BufTy).Contents (Elt F) → (⟨S270336, .i32⟩ : BufTy).Contents (Elt F) → (⟨S270336, .i32⟩ : BufTy).Contents (Elt F)),
    ternary main_v25 main_v27 main_v6 main_v28 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v28 main_v29 (broadcastInDim S270336x1 ![0] bcast_S270336_S270336x1_0 : (⟨S270336, .i32⟩ : BufTy).Contents (Elt F) → (⟨S270336x1, .i32⟩ : BufTy).Contents (Elt F)),
    binary main_v16 main_v29 main_v30 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v23 main_v30 main_v31 (mulf : (⟨S270336, .f32⟩ : BufTy).Contents (Elt F) → (⟨S270336, .f32⟩ : BufTy).Contents (Elt F) → (⟨S270336, .f32⟩ : BufTy).Contents (Elt F)),
    binary main_arg0 main_arg2 main_v32 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    nullary main_c_7 (constantI S_ 32 0#32),
    unary main_c_7 main_v33 (broadcastInDim S270336 ![] bcast_S_S270336 : (⟨S_, .i32⟩ : BufTy).Contents (Elt F) → (⟨S270336, .i32⟩ : BufTy).Contents (Elt F)),
    binary main_v3 main_v33 main_v34 (cmpi .slt : (⟨S270336, .i32⟩ : BufTy).Contents (Elt F) → (⟨S270336, .i32⟩ : BufTy).Contents (Elt F) → (⟨S270336, .i1⟩ : BufTy).Contents (Elt F)),
    nullary main_c_8 (constantI S_ 32 8192#32),
    unary main_c_8 main_v35 (broadcastInDim S270336 ![] bcast_S_S270336 : (⟨S_, .i32⟩ : BufTy).Contents (Elt F) → (⟨S270336, .i32⟩ : BufTy).Contents (Elt F)),
    binary main_v3 main_v35 main_v36 (addi : (⟨S270336, .i32⟩ : BufTy).Contents (Elt F) → (⟨S270336, .i32⟩ : BufTy).Contents (Elt F) → (⟨S270336, .i32⟩ : BufTy).Contents (Elt F)),
    ternary main_v34 main_v36 main_v3 main_v37 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v37 main_v38 (broadcastInDim S270336x1 ![0] bcast_S270336_S270336x1_0 : (⟨S270336, .i32⟩ : BufTy).Contents (Elt F) → (⟨S270336x1, .i32⟩ : BufTy).Contents (Elt F)),
    binary main_v32 main_v38 main_v39 ((fun x i => Host.gather gather_S8192x256_S270336x1_S270336x256_1_0_n_n_0_1_1256 x i) : (⟨S8192x256, .f32⟩ : BufTy).Contents (Elt F) → (⟨S270336x1, .i32⟩ : BufTy).Contents (Elt F) → (⟨S270336x256, .f32⟩ : BufTy).Contents (Elt F)),
    unary main_v31 main_v40 (broadcastInDim S270336x1 ![0] bcast_S270336_S270336x1_0 : (⟨S270336, .f32⟩ : BufTy).Contents (Elt F) → (⟨S270336x1, .f32⟩ : BufTy).Contents (Elt F)),
    unary main_v40 main_v41 (broadcastInDim S270336x256 ![0, 1] bcast_S270336x1_S270336x256_0_1 : (⟨S270336x1, .f32⟩ : BufTy).Contents (Elt F) → (⟨S270336x256, .f32⟩ : BufTy).Contents (Elt F)),
    binary main_v39 main_v41 main_v42 (mulf : (⟨S270336x256, .f32⟩ : BufTy).Contents (Elt F) → (⟨S270336x256, .f32⟩ : BufTy).Contents (Elt F) → (⟨S270336x256, .f32⟩ : BufTy).Contents (Elt F)),
    nullary main_cst_9 (constant S_ .f32 0x00000000#32),
    unary main_cst_9 main_v43 (broadcastInDim S8192x256 ![] bcast_S_S8192x256 : (⟨S_, .f32⟩ : BufTy).Contents (Elt F) → (⟨S8192x256, .f32⟩ : BufTy).Contents (Elt F)),
    unary main_v6 main_v44 (broadcastInDim S270336x1 ![0] bcast_S270336_S270336x1_0 : (⟨S270336, .i32⟩ : BufTy).Contents (Elt F) → (⟨S270336x1, .i32⟩ : BufTy).Contents (Elt F)),
    ternary main_v43 main_v44 main_v42 main_v45 ((fun x i u => Host.scatterAdd scatter_S8192x256_S270336x1_S270336x256_1_0_0_1 x i u) : (⟨S8192x256, .f32⟩ : BufTy).Contents (Elt F) → (⟨S270336x1, .i32⟩ : BufTy).Contents (Elt F) → (⟨S270336x256, .f32⟩ : BufTy).Contents (Elt F) → (⟨S8192x256, .f32⟩ : BufTy).Contents (Elt F)),
    unary main_arg3 main_v46 (broadcastInDim S1x256 ![1] bcast_S256_S1x256_1 : (⟨S256, .f32⟩ : BufTy).Contents (Elt F) → (⟨S1x256, .f32⟩ : BufTy).Contents (Elt F)),
    unary main_v46 main_v47 (broadcastInDim S8192x256 ![0, 1] bcast_S1x256_S8192x256_0_1 : (⟨S1x256, .f32⟩ : BufTy).Contents (Elt F) → (⟨S8192x256, .f32⟩ : BufTy).Contents (Elt F)),
    binary main_v45 main_v47 main_v48 (addf : (⟨S8192x256, .f32⟩ : BufTy).Contents (Elt F) → (⟨S8192x256, .f32⟩ : BufTy).Contents (Elt F) → (⟨S8192x256, .f32⟩ : BufTy).Contents (Elt F)) ]

/-- Stretch B: the first layer normalisation (through `main_v73`). -/
abbrev opsB : List (HloOp τ sig (Elt F)) :=
  [ binary main_arg0 main_v48 main_v49 (addf : (⟨S8192x256, .f32⟩ : BufTy).Contents (Elt F) → (⟨S8192x256, .f32⟩ : BufTy).Contents (Elt F) → (⟨S8192x256, .f32⟩ : BufTy).Contents (Elt F)),
    nullary main_cst_10 (constant S_ .f32 0x00000000#32),
    binary main_v49 main_cst_10 main_v50 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v50 main_v51 (broadcastInDim S8192x1 ![0] bcast_S8192_S8192x1_0 : (⟨S8192, .f32⟩ : BufTy).Contents (Elt F) → (⟨S8192x1, .f32⟩ : BufTy).Contents (Elt F)),
    nullary main_cst_11 (constant S_ .f32 0x43800000#32),
    unary main_cst_11 main_v52 (broadcastInDim S8192x1 ![] bcast_S_S8192x1 : (⟨S_, .f32⟩ : BufTy).Contents (Elt F) → (⟨S8192x1, .f32⟩ : BufTy).Contents (Elt F)),
    binary main_v51 main_v52 main_v53 (Host.divf : (⟨S8192x1, .f32⟩ : BufTy).Contents (Elt F) → (⟨S8192x1, .f32⟩ : BufTy).Contents (Elt F) → (⟨S8192x1, .f32⟩ : BufTy).Contents (Elt F)),
    unary main_v53 main_v54 (broadcastInDim S8192x256 ![0, 1] bcast_S8192x1_S8192x256_0_1 : (⟨S8192x1, .f32⟩ : BufTy).Contents (Elt F) → (⟨S8192x256, .f32⟩ : BufTy).Contents (Elt F)),
    binary main_v49 main_v54 main_v55 (subf : (⟨S8192x256, .f32⟩ : BufTy).Contents (Elt F) → (⟨S8192x256, .f32⟩ : BufTy).Contents (Elt F) → (⟨S8192x256, .f32⟩ : BufTy).Contents (Elt F)),
    binary main_v55 main_v55 main_v56 (mulf : (⟨S8192x256, .f32⟩ : BufTy).Contents (Elt F) → (⟨S8192x256, .f32⟩ : BufTy).Contents (Elt F) → (⟨S8192x256, .f32⟩ : BufTy).Contents (Elt F)),
    nullary main_cst_12 (constant S_ .f32 0x00000000#32),
    binary main_v56 main_cst_12 main_v57 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v57 main_v58 (broadcastInDim S8192x1 ![0] bcast_S8192_S8192x1_0 : (⟨S8192, .f32⟩ : BufTy).Contents (Elt F) → (⟨S8192x1, .f32⟩ : BufTy).Contents (Elt F)),
    nullary main_cst_13 (constant S_ .f32 0x43800000#32),
    unary main_cst_13 main_v59 (broadcastInDim S8192x1 ![] bcast_S_S8192x1 : (⟨S_, .f32⟩ : BufTy).Contents (Elt F) → (⟨S8192x1, .f32⟩ : BufTy).Contents (Elt F)),
    binary main_v58 main_v59 main_v60 (Host.divf : (⟨S8192x1, .f32⟩ : BufTy).Contents (Elt F) → (⟨S8192x1, .f32⟩ : BufTy).Contents (Elt F) → (⟨S8192x1, .f32⟩ : BufTy).Contents (Elt F)),
    unary main_v53 main_v61 (broadcastInDim S8192x256 ![0, 1] bcast_S8192x1_S8192x256_0_1 : (⟨S8192x1, .f32⟩ : BufTy).Contents (Elt F) → (⟨S8192x256, .f32⟩ : BufTy).Contents (Elt F)),
    binary main_v49 main_v61 main_v62 (subf : (⟨S8192x256, .f32⟩ : BufTy).Contents (Elt F) → (⟨S8192x256, .f32⟩ : BufTy).Contents (Elt F) → (⟨S8192x256, .f32⟩ : BufTy).Contents (Elt F)),
    nullary main_cst_14 (constant S_ .f32 0x3727C5AC#32),
    unary main_cst_14 main_v63 (broadcastInDim S8192x1 ![] bcast_S_S8192x1 : (⟨S_, .f32⟩ : BufTy).Contents (Elt F) → (⟨S8192x1, .f32⟩ : BufTy).Contents (Elt F)),
    binary main_v60 main_v63 main_v64 (addf : (⟨S8192x1, .f32⟩ : BufTy).Contents (Elt F) → (⟨S8192x1, .f32⟩ : BufTy).Contents (Elt F) → (⟨S8192x1, .f32⟩ : BufTy).Contents (Elt F)),
    unary main_v64 main_v65 (Host.rsqrt : (⟨S8192x1, .f32⟩ : BufTy).Contents (Elt F) → (⟨S8192x1, .f32⟩ : BufTy).Contents (Elt F)),
    unary main_v65 main_v66 (broadcastInDim S8192x256 ![0, 1] bcast_S8192x1_S8192x256_0_1 : (⟨S8192x1, .f32⟩ : BufTy).Contents (Elt F) → (⟨S8192x256, .f32⟩ : BufTy).Contents (Elt F)),
    binary main_v62 main_v66 main_v67 (mulf : (⟨S8192x256, .f32⟩ : BufTy).Contents (Elt F) → (⟨S8192x256, .f32⟩ : BufTy).Contents (Elt F) → (⟨S8192x256, .f32⟩ : BufTy).Contents (Elt F)),
    unary main_arg13 main_v68 (broadcastInDim S1x256 ![1] bcast_S256_S1x256_1 : (⟨S256, .f32⟩ : BufTy).Contents (Elt F) → (⟨S1x256, .f32⟩ : BufTy).Contents (Elt F)),
    unary main_v68 main_v69 (broadcastInDim S8192x256 ![0, 1] bcast_S1x256_S8192x256_0_1 : (⟨S1x256, .f32⟩ : BufTy).Contents (Elt F) → (⟨S8192x256, .f32⟩ : BufTy).Contents (Elt F)),
    binary main_v67 main_v69 main_v70 (mulf : (⟨S8192x256, .f32⟩ : BufTy).Contents (Elt F) → (⟨S8192x256, .f32⟩ : BufTy).Contents (Elt F) → (⟨S8192x256, .f32⟩ : BufTy).Contents (Elt F)),
    unary main_arg14 main_v71 (broadcastInDim S1x256 ![1] bcast_S256_S1x256_1 : (⟨S256, .f32⟩ : BufTy).Contents (Elt F) → (⟨S1x256, .f32⟩ : BufTy).Contents (Elt F)),
    unary main_v71 main_v72 (broadcastInDim S8192x256 ![0, 1] bcast_S1x256_S8192x256_0_1 : (⟨S1x256, .f32⟩ : BufTy).Contents (Elt F) → (⟨S8192x256, .f32⟩ : BufTy).Contents (Elt F)),
    binary main_v70 main_v72 main_v73 (addf : (⟨S8192x256, .f32⟩ : BufTy).Contents (Elt F) → (⟨S8192x256, .f32⟩ : BufTy).Contents (Elt F) → (⟨S8192x256, .f32⟩ : BufTy).Contents (Elt F)) ]

/-- Stretch C: queries, keys, values and the two feature products (through `main_v89`). -/
abbrev opsC : List (HloOp τ sig (Elt F)) :=
  [ binary main_v73 main_arg4 main_v74 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg5 main_v75 (broadcastInDim S1x256 ![1] bcast_S256_S1x256_1 : (⟨S256, .f32⟩ : BufTy).Contents (Elt F) → (⟨S1x256, .f32⟩ : BufTy).Contents (Elt F)),
    unary main_v75 main_v76 (broadcastInDim S8192x256 ![0, 1] bcast_S1x256_S8192x256_0_1 : (⟨S1x256, .f32⟩ : BufTy).Contents (Elt F) → (⟨S8192x256, .f32⟩ : BufTy).Contents (Elt F)),
    binary main_v74 main_v76 main_v77 (addf : (⟨S8192x256, .f32⟩ : BufTy).Contents (Elt F) → (⟨S8192x256, .f32⟩ : BufTy).Contents (Elt F) → (⟨S8192x256, .f32⟩ : BufTy).Contents (Elt F)),
    binary main_v73 main_arg6 main_v78 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg7 main_v79 (broadcastInDim S1x256 ![1] bcast_S256_S1x256_1 : (⟨S256, .f32⟩ : BufTy).Contents (Elt F) → (⟨S1x256, .f32⟩ : BufTy).Contents (Elt F)),
    unary main_v79 main_v80 (broadcastInDim S8192x256 ![0, 1] bcast_S1x256_S8192x256_0_1 : (⟨S1x256, .f32⟩ : BufTy).Contents (Elt F) → (⟨S8192x256, .f32⟩ : BufTy).Contents (Elt F)),
    binary main_v78 main_v80 main_v81 (addf : (⟨S8192x256, .f32⟩ : BufTy).Contents (Elt F) → (⟨S8192x256, .f32⟩ : BufTy).Contents (Elt F) → (⟨S8192x256, .f32⟩ : BufTy).Contents (Elt F)),
    binary main_v73 main_arg8 main_v82 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg9 main_v83 (broadcastInDim S1x256 ![1] bcast_S256_S1x256_1 : (⟨S256, .f32⟩ : BufTy).Contents (Elt F) → (⟨S1x256, .f32⟩ : BufTy).Contents (Elt F)),
    unary main_v83 main_v84 (broadcastInDim S8192x256 ![0, 1] bcast_S1x256_S8192x256_0_1 : (⟨S1x256, .f32⟩ : BufTy).Contents (Elt F) → (⟨S8192x256, .f32⟩ : BufTy).Contents (Elt F)),
    binary main_v82 main_v84 main_v85 (addf : (⟨S8192x256, .f32⟩ : BufTy).Contents (Elt F) → (⟨S8192x256, .f32⟩ : BufTy).Contents (Elt F) → (⟨S8192x256, .f32⟩ : BufTy).Contents (Elt F)),
    unary main_arg12 main_v86 ((transpose S256x256 [1, 0] · transposes_S256x256_S256x256_1_0) : (⟨S256x256, .f32⟩ : BufTy).Contents (Elt F) → (⟨S256x256, .f32⟩ : BufTy).Contents (Elt F)),
    binary main_v77 main_v86 main_v87 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg12 main_v88 ((transpose S256x256 [1, 0] · transposes_S256x256_S256x256_1_0) : (⟨S256x256, .f32⟩ : BufTy).Contents (Elt F) → (⟨S256x256, .f32⟩ : BufTy).Contents (Elt F)),
    binary main_v81 main_v88 main_v89 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)) ]

/-- Stretch D: the scaled scores (through `main_v94`). -/
abbrev opsD : List (HloOp τ sig (Elt F)) :=
  [ unary main_v89 main_v90 ((transpose S256x8192 [1, 0] · transposes_S8192x256_S256x8192_1_0) : (⟨S8192x256, .f32⟩ : BufTy).Contents (Elt F) → (⟨S256x8192, .f32⟩ : BufTy).Contents (Elt F)),
    binary main_v87 main_v90 main_v91 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_15 (constant S_ .f32 0x43800000#32),
    unary main_cst_15 main_v92 (Host.sqrt : (⟨S_, .f32⟩ : BufTy).Contents (Elt F) → (⟨S_, .f32⟩ : BufTy).Contents (Elt F)),
    unary main_v92 main_v93 (broadcastInDim S8192x8192 ![] bcast_S_S8192x8192 : (⟨S_, .f32⟩ : BufTy).Contents (Elt F) → (⟨S8192x8192, .f32⟩ : BufTy).Contents (Elt F)),
    binary main_v91 main_v93 main_v94 (Host.divf : (⟨S8192x8192, .f32⟩ : BufTy).Contents (Elt F) → (⟨S8192x8192, .f32⟩ : BufTy).Contents (Elt F) → (⟨S8192x8192, .f32⟩ : BufTy).Contents (Elt F)) ]

/-- Stretch E: the softmax (through `main_v105`). -/
abbrev opsE : List (HloOp τ sig (Elt F)) :=
  [ nullary main_cst_16 (constant S_ .f32 0xFF800000#32),
    binary main_v94 main_cst_16 main_v95 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_17 (constant S_ .f32 0xFF800000#32),
    unary main_cst_17 main_v96 (broadcastInDim S8192 ![] bcast_S_S8192 : (⟨S_, .f32⟩ : BufTy).Contents (Elt F) → (⟨S8192, .f32⟩ : BufTy).Contents (Elt F)),
    binary main_v96 main_v95 main_v97 (maximumf : (⟨S8192, .f32⟩ : BufTy).Contents (Elt F) → (⟨S8192, .f32⟩ : BufTy).Contents (Elt F) → (⟨S8192, .f32⟩ : BufTy).Contents (Elt F)),
    unary main_v97 main_v98 (broadcastInDim S8192x1 ![0] bcast_S8192_S8192x1_0 : (⟨S8192, .f32⟩ : BufTy).Contents (Elt F) → (⟨S8192x1, .f32⟩ : BufTy).Contents (Elt F)),
    unary main_v98 main_v99 (broadcastInDim S8192x8192 ![0, 1] bcast_S8192x1_S8192x8192_0_1 : (⟨S8192x1, .f32⟩ : BufTy).Contents (Elt F) → (⟨S8192x8192, .f32⟩ : BufTy).Contents (Elt F)),
    binary main_v94 main_v99 main_v100 (subf : (⟨S8192x8192, .f32⟩ : BufTy).Contents (Elt F) → (⟨S8192x8192, .f32⟩ : BufTy).Contents (Elt F) → (⟨S8192x8192, .f32⟩ : BufTy).Contents (Elt F)),
    unary main_v100 main_v101 (Host.exp : (⟨S8192x8192, .f32⟩ : BufTy).Contents (Elt F) → (⟨S8192x8192, .f32⟩ : BufTy).Contents (Elt F)),
    nullary main_cst_18 (constant S_ .f32 0x00000000#32),
    binary main_v101 main_cst_18 main_v102 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v102 main_v103 (broadcastInDim S8192x1 ![0] bcast_S8192_S8192x1_0 : (⟨S8192, .f32⟩ : BufTy).Contents (Elt F) → (⟨S8192x1, .f32⟩ : BufTy).Contents (Elt F)),
    unary main_v103 main_v104 (broadcastInDim S8192x8192 ![0, 1] bcast_S8192x1_S8192x8192_0_1 : (⟨S8192x1, .f32⟩ : BufTy).Contents (Elt F) → (⟨S8192x8192, .f32⟩ : BufTy).Contents (Elt F)),
    binary main_v101 main_v104 main_v105 (Host.divf : (⟨S8192x8192, .f32⟩ : BufTy).Contents (Elt F) → (⟨S8192x8192, .f32⟩ : BufTy).Contents (Elt F) → (⟨S8192x8192, .f32⟩ : BufTy).Contents (Elt F)) ]

/-- Stretch F: the attended values, the output map and the residual (through `main_v111`). -/
abbrev opsF : List (HloOp τ sig (Elt F)) :=
  [ binary main_v105 main_v85 main_v106 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_v106 main_arg10 main_v107 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg11 main_v108 (broadcastInDim S1x256 ![1] bcast_S256_S1x256_1 : (⟨S256, .f32⟩ : BufTy).Contents (Elt F) → (⟨S1x256, .f32⟩ : BufTy).Contents (Elt F)),
    unary main_v108 main_v109 (broadcastInDim S8192x256 ![0, 1] bcast_S1x256_S8192x256_0_1 : (⟨S1x256, .f32⟩ : BufTy).Contents (Elt F) → (⟨S8192x256, .f32⟩ : BufTy).Contents (Elt F)),
    binary main_v107 main_v109 main_v110 (addf : (⟨S8192x256, .f32⟩ : BufTy).Contents (Elt F) → (⟨S8192x256, .f32⟩ : BufTy).Contents (Elt F) → (⟨S8192x256, .f32⟩ : BufTy).Contents (Elt F)),
    binary main_v73 main_v110 main_v111 (addf : (⟨S8192x256, .f32⟩ : BufTy).Contents (Elt F) → (⟨S8192x256, .f32⟩ : BufTy).Contents (Elt F) → (⟨S8192x256, .f32⟩ : BufTy).Contents (Elt F)) ]

/-- Stretch G: the second layer normalisation (through `main_v135`). -/
abbrev opsG : List (HloOp τ sig (Elt F)) :=
  [ nullary main_cst_19 (constant S_ .f32 0x00000000#32),
    binary main_v111 main_cst_19 main_v112 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v112 main_v113 (broadcastInDim S8192x1 ![0] bcast_S8192_S8192x1_0 : (⟨S8192, .f32⟩ : BufTy).Contents (Elt F) → (⟨S8192x1, .f32⟩ : BufTy).Contents (Elt F)),
    nullary main_cst_20 (constant S_ .f32 0x43800000#32),
    unary main_cst_20 main_v114 (broadcastInDim S8192x1 ![] bcast_S_S8192x1 : (⟨S_, .f32⟩ : BufTy).Contents (Elt F) → (⟨S8192x1, .f32⟩ : BufTy).Contents (Elt F)),
    binary main_v113 main_v114 main_v115 (Host.divf : (⟨S8192x1, .f32⟩ : BufTy).Contents (Elt F) → (⟨S8192x1, .f32⟩ : BufTy).Contents (Elt F) → (⟨S8192x1, .f32⟩ : BufTy).Contents (Elt F)),
    unary main_v115 main_v116 (broadcastInDim S8192x256 ![0, 1] bcast_S8192x1_S8192x256_0_1 : (⟨S8192x1, .f32⟩ : BufTy).Contents (Elt F) → (⟨S8192x256, .f32⟩ : BufTy).Contents (Elt F)),
    binary main_v111 main_v116 main_v117 (subf : (⟨S8192x256, .f32⟩ : BufTy).Contents (Elt F) → (⟨S8192x256, .f32⟩ : BufTy).Contents (Elt F) → (⟨S8192x256, .f32⟩ : BufTy).Contents (Elt F)),
    binary main_v117 main_v117 main_v118 (mulf : (⟨S8192x256, .f32⟩ : BufTy).Contents (Elt F) → (⟨S8192x256, .f32⟩ : BufTy).Contents (Elt F) → (⟨S8192x256, .f32⟩ : BufTy).Contents (Elt F)),
    nullary main_cst_21 (constant S_ .f32 0x00000000#32),
    binary main_v118 main_cst_21 main_v119 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v119 main_v120 (broadcastInDim S8192x1 ![0] bcast_S8192_S8192x1_0 : (⟨S8192, .f32⟩ : BufTy).Contents (Elt F) → (⟨S8192x1, .f32⟩ : BufTy).Contents (Elt F)),
    nullary main_cst_22 (constant S_ .f32 0x43800000#32),
    unary main_cst_22 main_v121 (broadcastInDim S8192x1 ![] bcast_S_S8192x1 : (⟨S_, .f32⟩ : BufTy).Contents (Elt F) → (⟨S8192x1, .f32⟩ : BufTy).Contents (Elt F)),
    binary main_v120 main_v121 main_v122 (Host.divf : (⟨S8192x1, .f32⟩ : BufTy).Contents (Elt F) → (⟨S8192x1, .f32⟩ : BufTy).Contents (Elt F) → (⟨S8192x1, .f32⟩ : BufTy).Contents (Elt F)),
    unary main_v115 main_v123 (broadcastInDim S8192x256 ![0, 1] bcast_S8192x1_S8192x256_0_1 : (⟨S8192x1, .f32⟩ : BufTy).Contents (Elt F) → (⟨S8192x256, .f32⟩ : BufTy).Contents (Elt F)),
    binary main_v111 main_v123 main_v124 (subf : (⟨S8192x256, .f32⟩ : BufTy).Contents (Elt F) → (⟨S8192x256, .f32⟩ : BufTy).Contents (Elt F) → (⟨S8192x256, .f32⟩ : BufTy).Contents (Elt F)),
    nullary main_cst_23 (constant S_ .f32 0x3727C5AC#32),
    unary main_cst_23 main_v125 (broadcastInDim S8192x1 ![] bcast_S_S8192x1 : (⟨S_, .f32⟩ : BufTy).Contents (Elt F) → (⟨S8192x1, .f32⟩ : BufTy).Contents (Elt F)),
    binary main_v122 main_v125 main_v126 (addf : (⟨S8192x1, .f32⟩ : BufTy).Contents (Elt F) → (⟨S8192x1, .f32⟩ : BufTy).Contents (Elt F) → (⟨S8192x1, .f32⟩ : BufTy).Contents (Elt F)),
    unary main_v126 main_v127 (Host.rsqrt : (⟨S8192x1, .f32⟩ : BufTy).Contents (Elt F) → (⟨S8192x1, .f32⟩ : BufTy).Contents (Elt F)),
    unary main_v127 main_v128 (broadcastInDim S8192x256 ![0, 1] bcast_S8192x1_S8192x256_0_1 : (⟨S8192x1, .f32⟩ : BufTy).Contents (Elt F) → (⟨S8192x256, .f32⟩ : BufTy).Contents (Elt F)),
    binary main_v124 main_v128 main_v129 (mulf : (⟨S8192x256, .f32⟩ : BufTy).Contents (Elt F) → (⟨S8192x256, .f32⟩ : BufTy).Contents (Elt F) → (⟨S8192x256, .f32⟩ : BufTy).Contents (Elt F)),
    unary main_arg15 main_v130 (broadcastInDim S1x256 ![1] bcast_S256_S1x256_1 : (⟨S256, .f32⟩ : BufTy).Contents (Elt F) → (⟨S1x256, .f32⟩ : BufTy).Contents (Elt F)),
    unary main_v130 main_v131 (broadcastInDim S8192x256 ![0, 1] bcast_S1x256_S8192x256_0_1 : (⟨S1x256, .f32⟩ : BufTy).Contents (Elt F) → (⟨S8192x256, .f32⟩ : BufTy).Contents (Elt F)),
    binary main_v129 main_v131 main_v132 (mulf : (⟨S8192x256, .f32⟩ : BufTy).Contents (Elt F) → (⟨S8192x256, .f32⟩ : BufTy).Contents (Elt F) → (⟨S8192x256, .f32⟩ : BufTy).Contents (Elt F)),
    unary main_arg16 main_v133 (broadcastInDim S1x256 ![1] bcast_S256_S1x256_1 : (⟨S256, .f32⟩ : BufTy).Contents (Elt F) → (⟨S1x256, .f32⟩ : BufTy).Contents (Elt F)),
    unary main_v133 main_v134 (broadcastInDim S8192x256 ![0, 1] bcast_S1x256_S8192x256_0_1 : (⟨S1x256, .f32⟩ : BufTy).Contents (Elt F) → (⟨S8192x256, .f32⟩ : BufTy).Contents (Elt F)),
    binary main_v132 main_v134 main_v135 (addf : (⟨S8192x256, .f32⟩ : BufTy).Contents (Elt F) → (⟨S8192x256, .f32⟩ : BufTy).Contents (Elt F) → (⟨S8192x256, .f32⟩ : BufTy).Contents (Elt F)) ]

/-- Stretch H: the rectified network and the residual (through `main_v146`). -/
abbrev opsH : List (HloOp τ sig (Elt F)) :=
  [ binary main_v135 main_arg19 main_v136 ((fun l r => Host.dotGeneral dot_S8192x256_S256x512_S8192x512_1_0_0_1_n_n none l r) : (⟨S8192x256, .f32⟩ : BufTy).Contents (Elt F) → (⟨S256x512, .f32⟩ : BufTy).Contents (Elt F) → (⟨S8192x512, .f32⟩ : BufTy).Contents (Elt F)),
    unary main_arg20 main_v137 (broadcastInDim S1x512 ![1] bcast_S512_S1x512_1 : (⟨S512, .f32⟩ : BufTy).Contents (Elt F) → (⟨S1x512, .f32⟩ : BufTy).Contents (Elt F)),
    unary main_v137 main_v138 (broadcastInDim S8192x512 ![0, 1] bcast_S1x512_S8192x512_0_1 : (⟨S1x512, .f32⟩ : BufTy).Contents (Elt F) → (⟨S8192x512, .f32⟩ : BufTy).Contents (Elt F)),
    binary main_v136 main_v138 main_v139 (addf : (⟨S8192x512, .f32⟩ : BufTy).Contents (Elt F) → (⟨S8192x512, .f32⟩ : BufTy).Contents (Elt F) → (⟨S8192x512, .f32⟩ : BufTy).Contents (Elt F)),
    nullary main_cst_24 (constant S_ .f32 0x00000000#32),
    unary main_cst_24 main_v140 (broadcastInDim S8192x512 ![] bcast_S_S8192x512 : (⟨S_, .f32⟩ : BufTy).Contents (Elt F) → (⟨S8192x512, .f32⟩ : BufTy).Contents (Elt F)),
    binary main_v139 main_v140 main_v141 (maximumf : (⟨S8192x512, .f32⟩ : BufTy).Contents (Elt F) → (⟨S8192x512, .f32⟩ : BufTy).Contents (Elt F) → (⟨S8192x512, .f32⟩ : BufTy).Contents (Elt F)),
    binary main_v141 main_arg21 main_v142 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg22 main_v143 (broadcastInDim S1x256 ![1] bcast_S256_S1x256_1 : (⟨S256, .f32⟩ : BufTy).Contents (Elt F) → (⟨S1x256, .f32⟩ : BufTy).Contents (Elt F)),
    unary main_v143 main_v144 (broadcastInDim S8192x256 ![0, 1] bcast_S1x256_S8192x256_0_1 : (⟨S1x256, .f32⟩ : BufTy).Contents (Elt F) → (⟨S8192x256, .f32⟩ : BufTy).Contents (Elt F)),
    binary main_v142 main_v144 main_v145 (addf : (⟨S8192x256, .f32⟩ : BufTy).Contents (Elt F) → (⟨S8192x256, .f32⟩ : BufTy).Contents (Elt F) → (⟨S8192x256, .f32⟩ : BufTy).Contents (Elt F)),
    binary main_v135 main_v145 main_v146 (addf : (⟨S8192x256, .f32⟩ : BufTy).Contents (Elt F) → (⟨S8192x256, .f32⟩ : BufTy).Contents (Elt F) → (⟨S8192x256, .f32⟩ : BufTy).Contents (Elt F)) ]

/-- Stretch I: the third layer normalisation (through `main_v170`). -/
abbrev opsI : List (HloOp τ sig (Elt F)) :=
  [ nullary main_cst_25 (constant S_ .f32 0x00000000#32),
    binary main_v146 main_cst_25 main_v147 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v147 main_v148 (broadcastInDim S8192x1 ![0] bcast_S8192_S8192x1_0 : (⟨S8192, .f32⟩ : BufTy).Contents (Elt F) → (⟨S8192x1, .f32⟩ : BufTy).Contents (Elt F)),
    nullary main_cst_26 (constant S_ .f32 0x43800000#32),
    unary main_cst_26 main_v149 (broadcastInDim S8192x1 ![] bcast_S_S8192x1 : (⟨S_, .f32⟩ : BufTy).Contents (Elt F) → (⟨S8192x1, .f32⟩ : BufTy).Contents (Elt F)),
    binary main_v148 main_v149 main_v150 (Host.divf : (⟨S8192x1, .f32⟩ : BufTy).Contents (Elt F) → (⟨S8192x1, .f32⟩ : BufTy).Contents (Elt F) → (⟨S8192x1, .f32⟩ : BufTy).Contents (Elt F)),
    unary main_v150 main_v151 (broadcastInDim S8192x256 ![0, 1] bcast_S8192x1_S8192x256_0_1 : (⟨S8192x1, .f32⟩ : BufTy).Contents (Elt F) → (⟨S8192x256, .f32⟩ : BufTy).Contents (Elt F)),
    binary main_v146 main_v151 main_v152 (subf : (⟨S8192x256, .f32⟩ : BufTy).Contents (Elt F) → (⟨S8192x256, .f32⟩ : BufTy).Contents (Elt F) → (⟨S8192x256, .f32⟩ : BufTy).Contents (Elt F)),
    binary main_v152 main_v152 main_v153 (mulf : (⟨S8192x256, .f32⟩ : BufTy).Contents (Elt F) → (⟨S8192x256, .f32⟩ : BufTy).Contents (Elt F) → (⟨S8192x256, .f32⟩ : BufTy).Contents (Elt F)),
    nullary main_cst_27 (constant S_ .f32 0x00000000#32),
    binary main_v153 main_cst_27 main_v154 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v154 main_v155 (broadcastInDim S8192x1 ![0] bcast_S8192_S8192x1_0 : (⟨S8192, .f32⟩ : BufTy).Contents (Elt F) → (⟨S8192x1, .f32⟩ : BufTy).Contents (Elt F)),
    nullary main_cst_28 (constant S_ .f32 0x43800000#32),
    unary main_cst_28 main_v156 (broadcastInDim S8192x1 ![] bcast_S_S8192x1 : (⟨S_, .f32⟩ : BufTy).Contents (Elt F) → (⟨S8192x1, .f32⟩ : BufTy).Contents (Elt F)),
    binary main_v155 main_v156 main_v157 (Host.divf : (⟨S8192x1, .f32⟩ : BufTy).Contents (Elt F) → (⟨S8192x1, .f32⟩ : BufTy).Contents (Elt F) → (⟨S8192x1, .f32⟩ : BufTy).Contents (Elt F)),
    unary main_v150 main_v158 (broadcastInDim S8192x256 ![0, 1] bcast_S8192x1_S8192x256_0_1 : (⟨S8192x1, .f32⟩ : BufTy).Contents (Elt F) → (⟨S8192x256, .f32⟩ : BufTy).Contents (Elt F)),
    binary main_v146 main_v158 main_v159 (subf : (⟨S8192x256, .f32⟩ : BufTy).Contents (Elt F) → (⟨S8192x256, .f32⟩ : BufTy).Contents (Elt F) → (⟨S8192x256, .f32⟩ : BufTy).Contents (Elt F)),
    nullary main_cst_29 (constant S_ .f32 0x3727C5AC#32),
    unary main_cst_29 main_v160 (broadcastInDim S8192x1 ![] bcast_S_S8192x1 : (⟨S_, .f32⟩ : BufTy).Contents (Elt F) → (⟨S8192x1, .f32⟩ : BufTy).Contents (Elt F)),
    binary main_v157 main_v160 main_v161 (addf : (⟨S8192x1, .f32⟩ : BufTy).Contents (Elt F) → (⟨S8192x1, .f32⟩ : BufTy).Contents (Elt F) → (⟨S8192x1, .f32⟩ : BufTy).Contents (Elt F)),
    unary main_v161 main_v162 (Host.rsqrt : (⟨S8192x1, .f32⟩ : BufTy).Contents (Elt F) → (⟨S8192x1, .f32⟩ : BufTy).Contents (Elt F)),
    unary main_v162 main_v163 (broadcastInDim S8192x256 ![0, 1] bcast_S8192x1_S8192x256_0_1 : (⟨S8192x1, .f32⟩ : BufTy).Contents (Elt F) → (⟨S8192x256, .f32⟩ : BufTy).Contents (Elt F)),
    binary main_v159 main_v163 main_v164 (mulf : (⟨S8192x256, .f32⟩ : BufTy).Contents (Elt F) → (⟨S8192x256, .f32⟩ : BufTy).Contents (Elt F) → (⟨S8192x256, .f32⟩ : BufTy).Contents (Elt F)),
    unary main_arg17 main_v165 (broadcastInDim S1x256 ![1] bcast_S256_S1x256_1 : (⟨S256, .f32⟩ : BufTy).Contents (Elt F) → (⟨S1x256, .f32⟩ : BufTy).Contents (Elt F)),
    unary main_v165 main_v166 (broadcastInDim S8192x256 ![0, 1] bcast_S1x256_S8192x256_0_1 : (⟨S1x256, .f32⟩ : BufTy).Contents (Elt F) → (⟨S8192x256, .f32⟩ : BufTy).Contents (Elt F)),
    binary main_v164 main_v166 main_v167 (mulf : (⟨S8192x256, .f32⟩ : BufTy).Contents (Elt F) → (⟨S8192x256, .f32⟩ : BufTy).Contents (Elt F) → (⟨S8192x256, .f32⟩ : BufTy).Contents (Elt F)),
    unary main_arg18 main_v168 (broadcastInDim S1x256 ![1] bcast_S256_S1x256_1 : (⟨S256, .f32⟩ : BufTy).Contents (Elt F) → (⟨S1x256, .f32⟩ : BufTy).Contents (Elt F)),
    unary main_v168 main_v169 (broadcastInDim S8192x256 ![0, 1] bcast_S1x256_S8192x256_0_1 : (⟨S1x256, .f32⟩ : BufTy).Contents (Elt F) → (⟨S8192x256, .f32⟩ : BufTy).Contents (Elt F)),
    binary main_v167 main_v169 main_v170 (addf : (⟨S8192x256, .f32⟩ : BufTy).Contents (Elt F) → (⟨S8192x256, .f32⟩ : BufTy).Contents (Elt F) → (⟨S8192x256, .f32⟩ : BufTy).Contents (Elt F)) ]

/-- The list is its nine stretches end to end. -/
theorem ops_eq : (ops : List (HloOp τ sig (Elt F))) = opsA ++ opsB ++ opsC ++ opsD ++ opsE ++ opsF ++ opsG ++ opsH ++ opsI := rfl

/-- Running two stretches end to end is running the second from what the first leaves. -/
theorem after_append (A B : List (HloOp τ sig (Elt F))) (V : Valuation τ sig (Elt F)) : after (A ++ B) V = after B (after A V) := by
  induction A generalizing V with
  | nil => rfl
  | cons op A ih => exact ih (op.result V)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
set_option maxHeartbeats 4000000 in
/-- Every operation touches TensorCore references only: operation by operation, by its kind. -/
theorem ops_sub : (ops : List (HloOp τ sig (Elt F))).Forall fun op => op.bufs ⊆ tcRefs τ sig := by
  simp only [ops, List.Forall]
  repeat' apply And.intro
  all_goals first
    | exact nullary_bufs_sub ..
    | exact unary_bufs_sub ..
    | exact binary_bufs_sub ..
    | exact ternary_bufs_sub ..
    | exact reshape_bufs_sub ..

set_option maxRecDepth 8192 in
set_option maxHeartbeats 4000000 in
/-- Every weakly fair execution of @main terminates, nothing faulting, with every buffer at the fold of the operations'
    results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.RefRun

end
-- ==== Proof.Front.lean ====
/-
  The neighbourhood aggregate is one value in both programs.

  Before its first region the kernel's @main runs, on the host, the same 63 operations the reference starts with:
  self-loops appended to the edge list, the degrees by a scatter-add of ones, the symmetric normalisation
  coefficients (an inverse square root where the degree is positive) gathered along sources and destinations and
  multiplied, the features times the graph weight gathered along the sources, scaled by the coefficients, scattered
  onto the destinations and shifted by the bias. `aggregate` is that composition as one function of the four
  arguments it reads; each program's stretch of operations leaves it in its own array, so from memories that agree
  on the four arguments the two arrays are equal.
-/
import proofs.«132447_j24799141167762_2_alg».proof.Proof.Gen.KernelIdeal.Frame
import proofs.«132447_j24799141167762_2_alg».proof.Proof.RefOps

set_option maxRecDepth 16384

noncomputable section

namespace Cert.Front

open Idealize.ShloMosaic Idealize.ShloMosaic.TcCoe Idealize.SL.Sem Idealize.ShloMosaic.StableHlo
open Cert.KernelIdeal Cert.KernelIdeal.Gen

variable {F : FTy → Type} [FloatOps F]

/-- The neighbourhood aggregate as a function of the features `x0`, the edge list `x1`, the graph weight `x2` and the
    bias `x3`: the 63 host operations in order, each value named once. -/
def aggregate (x0 : (⟨S8192x256, .f32⟩ : BufTy).Contents (Elt F)) (x1 : (⟨S2x262144, .i32⟩ : BufTy).Contents (Elt F))
    (x2 : (⟨S256x256, .f32⟩ : BufTy).Contents (Elt F)) (x3 : (⟨S256, .f32⟩ : BufTy).Contents (Elt F)) :
    (⟨S8192x256, .f32⟩ : BufTy).Contents (Elt F) :=
  have v0 := iotaInDim S8192 32 0
  have v1 := ((extractStridedSlice S1x262144 ![0, 0] · slices_S2x262144_S1x262144_0_0) : (⟨S2x262144, .i32⟩ : BufTy).Contents (Elt F) → (⟨S1x262144, .i32⟩ : BufTy).Contents (Elt F)) x1
  have v2 := shapeCast S262144 v1 shapeCasts_S1x262144_S262144
  have v3 := ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)) v2 v0
  have v4 := ((extractStridedSlice S1x262144 ![1, 0] · slices_S2x262144_S1x262144_1_0) : (⟨S2x262144, .i32⟩ : BufTy).Contents (Elt F) → (⟨S1x262144, .i32⟩ : BufTy).Contents (Elt F)) x1
  have v5 := shapeCast S262144 v4 shapeCasts_S1x262144_S262144
  have v6 := ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)) v5 v0
  have cst := constant (F := F) S_ .f32 0x3F800000#32
  have v7 := (broadcastInDim S270336 ![] bcast_S_S270336 : (⟨S_, .f32⟩ : BufTy).Contents (Elt F) → (⟨S270336, .f32⟩ : BufTy).Contents (Elt F)) cst
  have cst_0 := constant (F := F) S_ .f32 0x00000000#32
  have v8 := (broadcastInDim S8192 ![] bcast_S_S8192 : (⟨S_, .f32⟩ : BufTy).Contents (Elt F) → (⟨S8192, .f32⟩ : BufTy).Contents (Elt F)) cst_0
  have v9 := (broadcastInDim S270336x1 ![0] bcast_S270336_S270336x1_0 : (⟨S270336, .i32⟩ : BufTy).Contents (Elt F) → (⟨S270336x1, .i32⟩ : BufTy).Contents (Elt F)) v6
  have v10 := ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)) v8 v9 v7
  have cst_1 := constant (F := F) S_ .f32 0x00000000#32
  have v11 := (broadcastInDim S8192 ![] bcast_S_S8192 : (⟨S_, .f32⟩ : BufTy).Contents (Elt F) → (⟨S8192, .f32⟩ : BufTy).Contents (Elt F)) cst_1
  have v12 := (cmpf .ogt : (⟨S8192, .f32⟩ : BufTy).Contents (Elt F) → (⟨S8192, .f32⟩ : BufTy).Contents (Elt F) → (⟨S8192, .i1⟩ : BufTy).Contents (Elt F)) v10 v11
  have cst_2 := constant (F := F) S_ .f32 0x2B8CBCCC#32
  have v13 := (broadcastInDim S8192 ![] bcast_S_S8192 : (⟨S_, .f32⟩ : BufTy).Contents (Elt F) → (⟨S8192, .f32⟩ : BufTy).Contents (Elt F)) cst_2
  have v14 := (maximumf : (⟨S8192, .f32⟩ : BufTy).Contents (Elt F) → (⟨S8192, .f32⟩ : BufTy).Contents (Elt F) → (⟨S8192, .f32⟩ : BufTy).Contents (Elt F)) v10 v13
  have v15 := (Host.rsqrt : (⟨S8192, .f32⟩ : BufTy).Contents (Elt F) → (⟨S8192, .f32⟩ : BufTy).Contents (Elt F)) v14
  have cst_3 := constant (F := F) S_ .f32 0x00000000#32
  have call0_v0 : (⟨S_, .f32⟩ : BufTy).Contents (Elt F) := (id) cst_3
  have call0_v1 : (⟨S8192, .f32⟩ : BufTy).Contents (Elt F) := ((broadcastInDim S8192 ![] bcast_S_S8192)) call0_v0
  have v16 : (⟨S8192, .f32⟩ : BufTy).Contents (Elt F) := (select) v12 v15 call0_v1
  have c := constantI S_ 32 0#32
  have v17 := (broadcastInDim S270336 ![] bcast_S_S270336 : (⟨S_, .i32⟩ : BufTy).Contents (Elt F) → (⟨S270336, .i32⟩ : BufTy).Contents (Elt F)) c
  have v18 := (cmpi .slt : (⟨S270336, .i32⟩ : BufTy).Contents (Elt F) → (⟨S270336, .i32⟩ : BufTy).Contents (Elt F) → (⟨S270336, .i1⟩ : BufTy).Contents (Elt F)) v3 v17
  have c_4 := constantI S_ 32 8192#32
  have v19 := (broadcastInDim S270336 ![] bcast_S_S270336 : (⟨S_, .i32⟩ : BufTy).Contents (Elt F) → (⟨S270336, .i32⟩ : BufTy).Contents (Elt F)) c_4
  have v20 := (addi : (⟨S270336, .i32⟩ : BufTy).Contents (Elt F) → (⟨S270336, .i32⟩ : BufTy).Contents (Elt F) → (⟨S270336, .i32⟩ : BufTy).Contents (Elt F)) v3 v19
  have v21 := (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)) v18 v20 v3
  have v22 := (broadcastInDim S270336x1 ![0] bcast_S270336_S270336x1_0 : (⟨S270336, .i32⟩ : BufTy).Contents (Elt F) → (⟨S270336x1, .i32⟩ : BufTy).Contents (Elt F)) v21
  have v23 := ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)) v16 v22
  have c_5 := constantI S_ 32 0#32
  have v24 := (broadcastInDim S270336 ![] bcast_S_S270336 : (⟨S_, .i32⟩ : BufTy).Contents (Elt F) → (⟨S270336, .i32⟩ : BufTy).Contents (Elt F)) c_5
  have v25 := (cmpi .slt : (⟨S270336, .i32⟩ : BufTy).Contents (Elt F) → (⟨S270336, .i32⟩ : BufTy).Contents (Elt F) → (⟨S270336, .i1⟩ : BufTy).Contents (Elt F)) v6 v24
  have c_6 := constantI S_ 32 8192#32
  have v26 := (broadcastInDim S270336 ![] bcast_S_S270336 : (⟨S_, .i32⟩ : BufTy).Contents (Elt F) → (⟨S270336, .i32⟩ : BufTy).Contents (Elt F)) c_6
  have v27 := (addi : (⟨S270336, .i32⟩ : BufTy).Contents (Elt F) → (⟨S270336, .i32⟩ : BufTy).Contents (Elt F) → (⟨S270336, .i32⟩ : BufTy).Contents (Elt F)) v6 v26
  have v28 := (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)) v25 v27 v6
  have v29 := (broadcastInDim S270336x1 ![0] bcast_S270336_S270336x1_0 : (⟨S270336, .i32⟩ : BufTy).Contents (Elt F) → (⟨S270336x1, .i32⟩ : BufTy).Contents (Elt F)) v28
  have v30 := ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)) v16 v29
  have v31 := (mulf : (⟨S270336, .f32⟩ : BufTy).Contents (Elt F) → (⟨S270336, .f32⟩ : BufTy).Contents (Elt F) → (⟨S270336, .f32⟩ : BufTy).Contents (Elt F)) v23 v30
  have v32 := ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)) x0 x2
  have c_7 := constantI S_ 32 0#32
  have v33 := (broadcastInDim S270336 ![] bcast_S_S270336 : (⟨S_, .i32⟩ : BufTy).Contents (Elt F) → (⟨S270336, .i32⟩ : BufTy).Contents (Elt F)) c_7
  have v34 := (cmpi .slt : (⟨S270336, .i32⟩ : BufTy).Contents (Elt F) → (⟨S270336, .i32⟩ : BufTy).Contents (Elt F) → (⟨S270336, .i1⟩ : BufTy).Contents (Elt F)) v3 v33
  have c_8 := constantI S_ 32 8192#32
  have v35 := (broadcastInDim S270336 ![] bcast_S_S270336 : (⟨S_, .i32⟩ : BufTy).Contents (Elt F) → (⟨S270336, .i32⟩ : BufTy).Contents (Elt F)) c_8
  have v36 := (addi : (⟨S270336, .i32⟩ : BufTy).Contents (Elt F) → (⟨S270336, .i32⟩ : BufTy).Contents (Elt F) → (⟨S270336, .i32⟩ : BufTy).Contents (Elt F)) v3 v35
  have v37 := (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)) v34 v36 v3
  have v38 := (broadcastInDim S270336x1 ![0] bcast_S270336_S270336x1_0 : (⟨S270336, .i32⟩ : BufTy).Contents (Elt F) → (⟨S270336x1, .i32⟩ : BufTy).Contents (Elt F)) v37
  have v39 := ((fun x i => Host.gather gather_S8192x256_S270336x1_S270336x256_1_0_n_n_0_1_1256 x i) : (⟨S8192x256, .f32⟩ : BufTy).Contents (Elt F) → (⟨S270336x1, .i32⟩ : BufTy).Contents (Elt F) → (⟨S270336x256, .f32⟩ : BufTy).Contents (Elt F)) v32 v38
  have v40 := (broadcastInDim S270336x1 ![0] bcast_S270336_S270336x1_0 : (⟨S270336, .f32⟩ : BufTy).Contents (Elt F) → (⟨S270336x1, .f32⟩ : BufTy).Contents (Elt F)) v31
  have v41 := (broadcastInDim S270336x256 ![0, 1] bcast_S270336x1_S270336x256_0_1 : (⟨S270336x1, .f32⟩ : BufTy).Contents (Elt F) → (⟨S270336x256, .f32⟩ : BufTy).Contents (Elt F)) v40
  have v42 := (mulf : (⟨S270336x256, .f32⟩ : BufTy).Contents (Elt F) → (⟨S270336x256, .f32⟩ : BufTy).Contents (Elt F) → (⟨S270336x256, .f32⟩ : BufTy).Contents (Elt F)) v39 v41
  have cst_9 := constant (F := F) S_ .f32 0x00000000#32
  have v43 := (broadcastInDim S8192x256 ![] bcast_S_S8192x256 : (⟨S_, .f32⟩ : BufTy).Contents (Elt F) → (⟨S8192x256, .f32⟩ : BufTy).Contents (Elt F)) cst_9
  have v44 := (broadcastInDim S270336x1 ![0] bcast_S270336_S270336x1_0 : (⟨S270336, .i32⟩ : BufTy).Contents (Elt F) → (⟨S270336x1, .i32⟩ : BufTy).Contents (Elt F)) v6
  have v45 := ((fun x i u => Host.scatterAdd scatter_S8192x256_S270336x1_S270336x256_1_0_0_1 x i u) : (⟨S8192x256, .f32⟩ : BufTy).Contents (Elt F) → (⟨S270336x1, .i32⟩ : BufTy).Contents (Elt F) → (⟨S270336x256, .f32⟩ : BufTy).Contents (Elt F) → (⟨S8192x256, .f32⟩ : BufTy).Contents (Elt F)) v43 v44 v42
  have v46 := (broadcastInDim S1x256 ![1] bcast_S256_S1x256_1 : (⟨S256, .f32⟩ : BufTy).Contents (Elt F) → (⟨S1x256, .f32⟩ : BufTy).Contents (Elt F)) x3
  have v47 := (broadcastInDim S8192x256 ![0, 1] bcast_S1x256_S8192x256_0_1 : (⟨S1x256, .f32⟩ : BufTy).Contents (Elt F) → (⟨S8192x256, .f32⟩ : BufTy).Contents (Elt F)) v46
  have v48 := (addf : (⟨S8192x256, .f32⟩ : BufTy).Contents (Elt F) → (⟨S8192x256, .f32⟩ : BufTy).Contents (Elt F) → (⟨S8192x256, .f32⟩ : BufTy).Contents (Elt F)) v45 v47
  v48

set_option maxHeartbeats 16000000 in
/-- The kernel's three host stretches before its first region leave the aggregate in `main_v48`. -/
theorem kernel_side (W : Valuation Cert.KernelIdeal.τ Cert.KernelIdeal.sig (Elt F)) :
    StableHlo.after hostOps0_2 (StableHlo.after hostOps0_1 (StableHlo.after hostOps0 W)) (Proc.devRef .tc Cert.KernelIdeal.main_v48)
      = aggregate (W (Proc.devRef .tc Cert.KernelIdeal.main_arg0)) (W (Proc.devRef .tc Cert.KernelIdeal.main_arg1))
          (W (Proc.devRef .tc Cert.KernelIdeal.main_arg2)) (W (Proc.devRef .tc Cert.KernelIdeal.main_arg3)) := by
  after_results_simp
  rfl

set_option maxHeartbeats 16000000 in
/-- The reference's first stretch leaves the aggregate in its `main_v48`. -/
theorem reference_side (W : Valuation Cert.ReferenceIdeal.τ Cert.ReferenceIdeal.sig (Elt F)) :
    StableHlo.after (Cert.ReferenceIdeal.RefRun.opsA (F := F)) W (Proc.devRef .tc Cert.ReferenceIdeal.main_v48)
      = aggregate (W (Proc.devRef .tc Cert.ReferenceIdeal.main_arg0)) (W (Proc.devRef .tc Cert.ReferenceIdeal.main_arg1))
          (W (Proc.devRef .tc Cert.ReferenceIdeal.main_arg2)) (W (Proc.devRef .tc Cert.ReferenceIdeal.main_arg3)) := by
  after_results_simp
  rfl

/-- What the projection region finds in the aggregate's array is what the reference's first stretch leaves in its own. -/
theorem aggregate_eq (m : (ℓ : Loc Cert.KernelIdeal.nD Cert.KernelIdeal.τ Cert.KernelIdeal.sig) → Buf (Elt F) ℓ)
    (ρ : Dev Cert.KernelIdeal.nD → PrngReg)
    (m' : (ℓ : Loc Cert.ReferenceIdeal.nD Cert.ReferenceIdeal.τ Cert.ReferenceIdeal.sig) → Buf (Elt F) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    StableHlo.after (Cert.ReferenceIdeal.RefRun.opsA (F := F)) (launchContents m' c)
        (Proc.devRef .tc Cert.ReferenceIdeal.main_v48)
      = Cert.KernelIdeal.Gen.V3 m ρ c Cert.KernelIdeal.main_v48 := by
  refine (reference_side (launchContents m' c)).trans ?_
  refine Eq.trans ?_ (kernel_side (Cert.KernelIdeal.Gen.W0 m ρ c)).symm
  exact congr (congr (congr (congrArg aggregate h0) h1) h2) h3

end Cert.Front

end
-- ==== Proof.RefIdx.lean ====
/-
  Equality of indices by coordinates.

  An index of a shape of literal rank is a function of the axis; two of them are equal as soon as their coordinates
  are. The index maps the reference's layout operations read at (a row broadcast along the lanes, a column broadcast
  down the rows, a transposition, the operand indices of a contraction) are all given by their coordinates, so each
  of them, taken at an index written from its coordinates, is again an index written from its coordinates.
-/
import Idealize.ShloMosaic.Lib.ValueIdx

namespace Cert.RefIdx

open Idealize.ShloMosaic Idealize.ShloMosaic.ValueIdx

/-- Two rank-2 indices with the same two coordinates are equal. -/
theorem ext2 {n0 n1 : ℕ} {f g : (⟨2, ![n0, n1]⟩ : Shape).Idx} (h0 : (f 0).val = (g 0).val) (h1 : (f 1).val = (g 1).val) :
    f = g :=
  funext fun a => Fin.ext (by
    match a with
    | ⟨0, _⟩ => exact h0
    | ⟨1, _⟩ => exact h1)

/-- Two rank-1 indices with the same coordinate are equal. -/
theorem ext1 {n : ℕ} {f g : (⟨1, ![n]⟩ : Shape).Idx} (h0 : (f 0).val = (g 0).val) : f = g :=
  funext fun a => Fin.ext (by
    match a with
    | ⟨0, _⟩ => exact h0)

end Cert.RefIdx
-- ==== Proof.RefConsts.lean ====
/-
  The float words of the attention's scale, as the extended reals they denote.

  The reference divides the products of queries and keys by the square root of the word of `256.0`; the row-level
  mathematics multiplies them by the word of `0.0625`. The first word denotes the real `256`, whose square root is
  `16`; the second denotes `1/16`; dividing an extended real by the nonzero real `16` is multiplying it by `1/16`.
-/
import Idealize.ShloMosaic.PureOps.Ideal

noncomputable section

namespace Cert.RefConsts

open Idealize.ShloMosaic

/-- The word of `256.0` denotes the real `256`. -/
theorem ofBits_256 : Ideal.ofBits .f32 0x43800000#32 = ((256 : ℝ) : EReal) := by
  simp [Ideal.ofBits, Ideal.ieee, -EReal.coe_mul]; norm_num

/-- The word of `0.0625` denotes the real `1/16`. -/
theorem ofBits_sixteenth : Ideal.ofBits .f32 0x3D800000#32 = ((1 / 16 : ℝ) : EReal) := by
  simp [Ideal.ofBits, Ideal.ieee, -EReal.coe_mul]; norm_num

/-- The square root of `256` is `16`. -/
theorem sqrt_256 : Real.sqrt 256 = 16 := by
  rw [show (256 : ℝ) = 16 ^ 2 by norm_num]
  exact Real.sqrt_sq (by norm_num)

/-- Dividing by the square root of the word of `256.0` is multiplying by the word of `0.0625`. -/
theorem div_sqrt_256 (s : EReal) :
    Ideal.div s (Ideal.sqrt (Ideal.ofBits .f32 0x43800000#32)) = s * Ideal.ofBits .f32 0x3D800000#32 := by
  rw [ofBits_256, ofBits_sixteenth, Ideal.sqrt_coe, if_neg (by norm_num), sqrt_256, Ideal.div_coe (by norm_num)]

end Cert.RefConsts

end
-- ==== Proof.RefHost.lean ====
/-
  The reference's host operations read at an index, and its stages in the words of the row-level mathematics.

  First each host operation on its own, over extended reals: a sum or a maximum along the lanes, at row `i`, is the
  initial value's element plus the sum (the fold of the maximum) of the row's entries; a vector broadcast to a column,
  a column broadcast along the lanes, a vector broadcast to a row and a row broadcast down the rows read the operand
  at the coordinates they keep; a broadcast scalar is the scalar; a transposition swaps the coordinates; a
  contraction of rows with columns is the sum of the products.

  Then the stages, each DEFINED as the term of host operations the reference computes it by and READ at entry
  `(i, q)`: the layer normalisation (the one run of operations the reference uses three times), the affine map, the
  product with the transposed feature matrix, the scaled scores, the softmax, the attention's output and the
  rectified network. Dividing by the square root of the word of 256 is multiplying by the word of `1/16`; the larger
  of `-∞` and a maximum folded from `-∞` is that maximum.
-/
import Mathlib.Data.Finset.Fold
import Idealize.ShloMosaic.PureOps.Ideal.Laws
import Idealize.ShloMosaic.Lib.ValueIdx
import Idealize.ShloMosaic.Lib.Pipeline.Value
import proofs.«132447_j24799141167762_2_alg».proof.Proof.LibPlainDot
import proofs.«132447_j24799141167762_2_alg».proof.Proof.RefIdx
import proofs.«132447_j24799141167762_2_alg».proof.Proof.RefConsts
import proofs.«132447_j24799141167762_2_alg».proof.Proof.Spec

noncomputable section

namespace Cert.RefHost

open Idealize.ShloMosaic Idealize.ShloMosaic.ValueIdx Cert.Spec Cert.RefIdx Cert.RefConsts

/-! ## The host operations, one at a time -/

section Read

variable {α : Type} {R C : ℕ}

/-- Over row `p` of the result of a reduction along the lanes, the source index with lane `k` is `(p, k)`. -/
theorem lift_ix (h : (⟨2, ![R, C]⟩ : Shape).Reduces [(1 : Fin 2)] ⟨1, ![R]⟩) (p : Fin R) (k : Fin C) :
    h.lift (ix1 p) k = ix2 p k :=
  funext fun c => Fin.ext (by
    match c with
    | ⟨0, _⟩ => rfl
    | ⟨1, _⟩ => rfl)

/-- The host's sum along the lanes, at row `i`: the initial value's element plus the sum of the row. -/
theorem sum_apply (y : FVec Ideal ⟨2, ![R, C]⟩ .f32) (c : (⟨0, ![]⟩ : Shape).Idx → Ideal .f32)
    (hr : (⟨2, ![R, C]⟩ : Shape).ReducesTo [(1 : Fin 2)] ⟨1, ![R]⟩) (hS : 0 < (⟨0, ![]⟩ : Shape).numel)
    (h : (⟨2, ![R, C]⟩ : Shape).Reduces [(1 : Fin 2)] ⟨1, ![R]⟩) (i : Fin R) :
    Host.reduceAdd y c hr hS (ix1 i) = c (Shape.Idx.first hS) + ∑ k : Fin C, y (ix2 i k) := by
  show Ideal.hostReduceAdd hr y (c (Shape.Idx.first hS)) (ix1 i) = _
  rw [Ideal.hostReduceAdd_single hr h]
  exact congrArg (c (Shape.Idx.first hS) + ·) (Finset.sum_congr rfl fun k _ => congrArg y (lift_ix h i k))

/-- The host's maximum along the lanes, at row `i`: the maximum folded over the row from the initial value's element. -/
theorem max_apply (y : FVec Ideal ⟨2, ![R, C]⟩ .f32) (c : (⟨0, ![]⟩ : Shape).Idx → Ideal .f32)
    (hr : (⟨2, ![R, C]⟩ : Shape).ReducesTo [(1 : Fin 2)] ⟨1, ![R]⟩) (hS : 0 < (⟨0, ![]⟩ : Shape).numel)
    (h : (⟨2, ![R, C]⟩ : Shape).Reduces [(1 : Fin 2)] ⟨1, ![R]⟩) (i : Fin R) :
    Host.reduce FloatOps.maximumf y c hr hS (ix1 i)
      = (Finset.univ : Finset (Fin C)).fold max (c (Shape.Idx.first hS)) (fun k => y (ix2 i k)) := by
  rw [Host.reduce_eq_fold_single FloatOps.maximumf y c hr h hS]
  exact congrArg (fun f => (Finset.univ : Finset (Fin C)).fold max (c (Shape.Idx.first hS)) f)
    (funext fun k => congrArg y (lift_ix h i k))

/-- A vector broadcast to a column: at `(i, u)` its entry `i`. -/
theorem bcol_apply (hb : (⟨1, ![R]⟩ : Shape).BroadcastsInDim ⟨2, ![R, 1]⟩ ![0]) (v : (⟨1, ![R]⟩ : Shape).Idx → α) (i : Fin R) (u : Fin 1) :
    broadcastInDim ⟨2, ![R, 1]⟩ ![0] hb v (ix2 i u) = v (ix1 i) :=
  broadcastInDim_apply _ hb v _ (ix1 i) (fun a => match a with
    | ⟨0, _⟩ => by
      show i.val = if R = 1 then 0 else i.val
      split_ifs with h1
      · have := i.isLt; omega
      · rfl)

/-- A scalar broadcast to any shape: the scalar. -/
theorem bscalar_apply {t : Shape} (hb : (⟨0, ![]⟩ : Shape).BroadcastsInDim t ![]) (v : (⟨0, ![]⟩ : Shape).Idx → α) (j : t.Idx) (k : (⟨0, ![]⟩ : Shape).Idx) :
    broadcastInDim t ![] hb v j = v k :=
  broadcastInDim_apply _ hb v j k (fun a => a.elim0)

/-- A column broadcast along the lanes: at `(i, q)` the column's entry in row `i`. -/
theorem blanes_apply (hb : (⟨2, ![R, 1]⟩ : Shape).BroadcastsInDim ⟨2, ![R, C]⟩ ![0, 1]) (v : (⟨2, ![R, 1]⟩ : Shape).Idx → α) (i : Fin R) (q : Fin C) :
    broadcastInDim ⟨2, ![R, C]⟩ ![0, 1] hb v (ix2 i q) = v (ix2 i (0 : Fin 1)) :=
  broadcastInDim_apply _ hb v _ (ix2 i (0 : Fin 1)) (fun a => match a with
    | ⟨0, _⟩ => by
      show i.val = if R = 1 then 0 else i.val
      split_ifs with h1
      · have := i.isLt; omega
      · rfl
    | ⟨1, _⟩ => by
      show (0 : ℕ) = if (1 : ℕ) = 1 then 0 else q.val
      rw [if_pos rfl])

/-- A vector broadcast to a row: at `(u, q)` its entry `q`. -/
theorem brow1_apply (hb : (⟨1, ![C]⟩ : Shape).BroadcastsInDim ⟨2, ![1, C]⟩ ![1]) (g : (⟨1, ![C]⟩ : Shape).Idx → α) (u : Fin 1) (q : Fin C) :
    broadcastInDim ⟨2, ![1, C]⟩ ![1] hb g (ix2 u q) = g (ix1 q) :=
  broadcastInDim_apply _ hb g _ (ix1 q) (fun a => match a with
    | ⟨0, _⟩ => by
      show q.val = if C = 1 then 0 else q.val
      split_ifs with h1
      · have := q.isLt; omega
      · rfl)

/-- A row broadcast down the rows: at `(i, q)` the row's entry `q`. -/
theorem brows_apply (hb : (⟨2, ![1, C]⟩ : Shape).BroadcastsInDim ⟨2, ![R, C]⟩ ![0, 1]) (r : (⟨2, ![1, C]⟩ : Shape).Idx → α) (i : Fin R) (q : Fin C) :
    broadcastInDim ⟨2, ![R, C]⟩ ![0, 1] hb r (ix2 i q) = r (ix2 (0 : Fin 1) q) :=
  broadcastInDim_apply _ hb r _ (ix2 (0 : Fin 1) q) (fun a => match a with
    | ⟨0, _⟩ => by
      show (0 : ℕ) = if (1 : ℕ) = 1 then 0 else i.val
      rw [if_pos rfl]
    | ⟨1, _⟩ => by
      show q.val = if C = 1 then 0 else q.val
      split_ifs with h1
      · have := q.isLt; omega
      · rfl)

/-- A vector broadcast to a row and the row down the rows: at `(i, q)` the vector's entry `q`. -/
theorem bvec_apply (h1 : (⟨1, ![C]⟩ : Shape).BroadcastsInDim ⟨2, ![1, C]⟩ ![1]) (h2 : (⟨2, ![1, C]⟩ : Shape).BroadcastsInDim ⟨2, ![R, C]⟩ ![0, 1])
    (g : (⟨1, ![C]⟩ : Shape).Idx → α) (i : Fin R) (q : Fin C) :
    broadcastInDim ⟨2, ![R, C]⟩ ![0, 1] h2 (broadcastInDim ⟨2, ![1, C]⟩ ![1] h1 g) (ix2 i q) = g (ix1 q) :=
  (brows_apply h2 _ i q).trans (brow1_apply h1 g 0 q)

/-- A transposition: at `(a, b)` the operand at `(b, a)`. -/
theorem transpose_ix {A B : ℕ} (ht : (⟨2, ![A, B]⟩ : Shape).Transposes [1, 0] ⟨2, ![B, A]⟩) (x : (⟨2, ![A, B]⟩ : Shape).Idx → α) (a : Fin B) (b : Fin A) :
    transpose ⟨2, ![B, A]⟩ [1, 0] x ht (ix2 a b) = x (ix2 b a) :=
  transpose_apply [1, 0] x ht (ix2 a b) (ix2 b a) (fun c => match c with
    | ⟨0, _⟩ => rfl
    | ⟨1, _⟩ => rfl)

end Read

/-! ## Elementwise host operations at an index -/

section Elementwise

variable {s : Shape} {φ : FTy}

theorem hdivf_apply (a b : FVec Ideal s φ) (i : s.Idx) : Host.divf a b i = Ideal.div (a i) (b i) := rfl
theorem hrsqrt_apply (a : FVec Ideal s φ) (i : s.Idx) : Host.rsqrt a i = Ideal.rsqrt (a i) := rfl
theorem hsqrt_apply (a : FVec Ideal s φ) (i : s.Idx) : Host.sqrt a i = Ideal.sqrt (a i) := rfl
theorem hexp_apply (a : FVec Ideal s φ) (i : s.Idx) : Host.exp a i = Ideal.exp (a i) := rfl

end Elementwise

/-! ## The layer normalisation -/

section LayerNorm

variable (hr : (⟨2, ![8192, 256]⟩ : Shape).ReducesTo [(1 : Fin 2)] ⟨1, ![8192]⟩) (hS : 0 < (⟨0, ![]⟩ : Shape).numel)
  (hc : (⟨1, ![8192]⟩ : Shape).BroadcastsInDim ⟨2, ![8192, 1]⟩ ![0])
  (h0 : (⟨0, ![]⟩ : Shape).BroadcastsInDim ⟨2, ![8192, 1]⟩ ![])
  (hl : (⟨2, ![8192, 1]⟩ : Shape).BroadcastsInDim ⟨2, ![8192, 256]⟩ ![0, 1])
  (hv1 : (⟨1, ![256]⟩ : Shape).BroadcastsInDim ⟨2, ![1, 256]⟩ ![1])
  (hv2 : (⟨2, ![1, 256]⟩ : Shape).BroadcastsInDim ⟨2, ![8192, 256]⟩ ![0, 1])

/-- The column of row means: the row sums, from the zero initial value, divided by the word of 256. -/
def lnMean (y : FVec Ideal ⟨2, ![8192, 256]⟩ .f32) : FVec Ideal ⟨2, ![8192, 1]⟩ .f32 :=
  Host.divf (broadcastInDim ⟨2, ![8192, 1]⟩ ![0] hc (Host.reduceAdd y (constant ⟨0, ![]⟩ .f32 0x00000000#32) hr hS))
    (broadcastInDim ⟨2, ![8192, 1]⟩ ![] h0 (constant ⟨0, ![]⟩ .f32 0x43800000#32))

/-- The column of variances: the row sums of the squared deviations from the mean, divided by the word of 256. -/
def lnVar (y : FVec Ideal ⟨2, ![8192, 256]⟩ .f32) : FVec Ideal ⟨2, ![8192, 1]⟩ .f32 :=
  Host.divf (broadcastInDim ⟨2, ![8192, 1]⟩ ![0] hc (Host.reduceAdd
      (mulf (subf y (broadcastInDim ⟨2, ![8192, 256]⟩ ![0, 1] hl (lnMean hr hS hc h0 y)))
        (subf y (broadcastInDim ⟨2, ![8192, 256]⟩ ![0, 1] hl (lnMean hr hS hc h0 y)))) (constant ⟨0, ![]⟩ .f32 0x00000000#32) hr hS))
    (broadcastInDim ⟨2, ![8192, 1]⟩ ![] h0 (constant ⟨0, ![]⟩ .f32 0x43800000#32))

/-- The host's layer normalisation of an `8192 × 256` array with gain `g` and bias `b`. -/
def hostLN (y : FVec Ideal ⟨2, ![8192, 256]⟩ .f32) (g b : FVec Ideal ⟨1, ![256]⟩ .f32) : FVec Ideal ⟨2, ![8192, 256]⟩ .f32 :=
  addf (mulf (mulf (subf y (broadcastInDim ⟨2, ![8192, 256]⟩ ![0, 1] hl (lnMean hr hS hc h0 y)))
        (broadcastInDim ⟨2, ![8192, 256]⟩ ![0, 1] hl (Host.rsqrt (addf (lnVar hr hS hc h0 hl y)
          (broadcastInDim ⟨2, ![8192, 1]⟩ ![] h0 (constant ⟨0, ![]⟩ .f32 0x3727C5AC#32))))))
      (broadcastInDim ⟨2, ![8192, 256]⟩ ![0, 1] hv2 (broadcastInDim ⟨2, ![1, 256]⟩ ![1] hv1 g)))
    (broadcastInDim ⟨2, ![8192, 256]⟩ ![0, 1] hv2 (broadcastInDim ⟨2, ![1, 256]⟩ ![1] hv1 b))

theorem lnMean_apply (y : FVec Ideal ⟨2, ![8192, 256]⟩ .f32) (i : Fin 8192) (u : Fin 1) :
    lnMean hr hS hc h0 y (ix2 i u) = mean (fun k => y (ix2 i k)) := by
  unfold lnMean
  rw [hdivf_apply, bcol_apply, sum_apply y _ hr hS (by decide) i, bscalar_apply h0 _ _ ix0]
  simp only [constant_apply]
  rw [Ideal.ofBits_zero_f32, zero_add]
  rfl

theorem lnVar_apply (y : FVec Ideal ⟨2, ![8192, 256]⟩ .f32) (i : Fin 8192) (u : Fin 1) :
    lnVar hr hS hc h0 hl y (ix2 i u) = Ideal.div (ssq (fun k => y (ix2 i k))) (Ideal.ofBits .f32 0x43800000#32) := by
  unfold lnVar ssq
  rw [hdivf_apply, bcol_apply, sum_apply _ _ hr hS (by decide) i, bscalar_apply h0 _ _ ix0]
  simp only [constant_apply]
  rw [Ideal.ofBits_zero_f32, zero_add]
  refine congrArg (Ideal.div · (Ideal.ofBits .f32 0x43800000#32)) (Finset.sum_congr rfl fun k _ => ?_)
  rw [mulf_apply, subf_apply, blanes_apply, lnMean_apply]

/-- Entry `(i, q)` of the host's layer normalisation is the row-level normalisation of row `i` at `q`. -/
theorem hostLN_apply (y : FVec Ideal ⟨2, ![8192, 256]⟩ .f32) (g b : FVec Ideal ⟨1, ![256]⟩ .f32) (i : Fin 8192) (q : Fin 256) :
    hostLN hr hS hc h0 hl hv1 hv2 y g b (ix2 i q)
      = ln (fun k => y (ix2 i k)) (fun n => g (ix1 n)) (fun n => b (ix1 n)) q := by
  unfold hostLN
  rw [addf_apply, mulf_apply, mulf_apply, subf_apply, blanes_apply, blanes_apply, hrsqrt_apply, addf_apply,
    bscalar_apply h0 _ _ ix0, constant_apply, lnMean_apply, lnVar_apply, bvec_apply, bvec_apply]
  rfl

end LayerNorm

/-! ## Affine maps and products -/

section Products

variable {K N : ℕ} (hv1 : (⟨1, ![N]⟩ : Shape).BroadcastsInDim ⟨2, ![1, N]⟩ ![1])
  (hv2 : (⟨2, ![1, N]⟩ : Shape).BroadcastsInDim ⟨2, ![8192, N]⟩ ![0, 1])

/-- The host's affine map of an `8192 × K` array: its product with the weight matrix plus the broadcast bias. -/
def hostLin (x : FVec Ideal ⟨2, ![8192, K]⟩ .f32) (W : FVec Ideal ⟨2, ![K, N]⟩ .f32) (b : FVec Ideal ⟨1, ![N]⟩ .f32) : FVec Ideal ⟨2, ![8192, N]⟩ .f32 :=
  addf (Host.dotGeneral (DotDims.plain 8192 K N) none x W)
    (broadcastInDim ⟨2, ![8192, N]⟩ ![0, 1] hv2 (broadcastInDim ⟨2, ![1, N]⟩ ![1] hv1 b))

theorem hostLin_apply (x : FVec Ideal ⟨2, ![8192, K]⟩ .f32) (W : FVec Ideal ⟨2, ![K, N]⟩ .f32) (b : FVec Ideal ⟨1, ![N]⟩ .f32) (i : Fin 8192) (q : Fin N) :
    hostLin hv1 hv2 x W b (ix2 i q)
      = lin (fun k => x (ix2 i k)) (fun k n => W (ix2 k n)) (fun n => b (ix1 n)) q := by
  unfold hostLin
  rw [addf_apply, bvec_apply]
  exact congrArg (· + b (ix1 q)) (Cert.Lib.PlainDot.dotGeneral_apply 8192 K N none .single x W i q)

end Products

/-- The product with the transposed feature matrix. -/
def hostFeat (ht : (⟨2, ![256, 256]⟩ : Shape).Transposes [1, 0] ⟨2, ![256, 256]⟩) (x : FVec Ideal ⟨2, ![8192, 256]⟩ .f32) (RF : FVec Ideal ⟨2, ![256, 256]⟩ .f32) :
    FVec Ideal ⟨2, ![8192, 256]⟩ .f32 :=
  Host.dotGeneral (DotDims.plain 8192 256 256) none x (transpose ⟨2, ![256, 256]⟩ [1, 0] RF ht)

theorem hostFeat_apply (ht : (⟨2, ![256, 256]⟩ : Shape).Transposes [1, 0] ⟨2, ![256, 256]⟩) (x : FVec Ideal ⟨2, ![8192, 256]⟩ .f32) (RF : FVec Ideal ⟨2, ![256, 256]⟩ .f32)
    (i : Fin 8192) (q : Fin 256) :
    hostFeat ht x RF (ix2 i q) = mv (fun k => x (ix2 i k)) (fun k j => RF (ix2 j k)) q := by
  unfold hostFeat
  exact (Cert.Lib.PlainDot.dotGeneral_apply 8192 256 256 none .single x _ i q).trans
    (Finset.sum_congr rfl fun k _ => congrArg (x (ix2 i k) * ·) (transpose_ix ht RF k q))

/-! ## The scores and the softmax -/

/-- The scaled scores: the query features times the transposed key features, divided by the square root of the word
    of 256. -/
def hostScore (ht : (⟨2, ![8192, 256]⟩ : Shape).Transposes [1, 0] ⟨2, ![256, 8192]⟩) (hb : (⟨0, ![]⟩ : Shape).BroadcastsInDim ⟨2, ![8192, 8192]⟩ ![])
    (qf kf : FVec Ideal ⟨2, ![8192, 256]⟩ .f32) : FVec Ideal ⟨2, ![8192, 8192]⟩ .f32 :=
  Host.divf (Host.dotGeneral (DotDims.plain 8192 256 8192) none qf (transpose ⟨2, ![256, 8192]⟩ [1, 0] kf ht))
    (broadcastInDim ⟨2, ![8192, 8192]⟩ ![] hb (Host.sqrt (constant ⟨0, ![]⟩ .f32 0x43800000#32)))

theorem hostScore_apply (ht : (⟨2, ![8192, 256]⟩ : Shape).Transposes [1, 0] ⟨2, ![256, 8192]⟩) (hb : (⟨0, ![]⟩ : Shape).BroadcastsInDim ⟨2, ![8192, 8192]⟩ ![])
    (qf kf : FVec Ideal ⟨2, ![8192, 256]⟩ .f32) (i n : Fin 8192) :
    hostScore ht hb qf kf (ix2 i n) = score (fun k => qf (ix2 i k)) (fun a k => kf (ix2 a k)) n := by
  unfold hostScore
  rw [hdivf_apply, bscalar_apply hb _ _ ix0, hsqrt_apply, constant_apply, div_sqrt_256]
  exact congrArg (· * Ideal.ofBits .f32 0x3D800000#32)
    ((Cert.Lib.PlainDot.dotGeneral_apply 8192 256 8192 none .single qf _ i n).trans
      (Finset.sum_congr rfl fun k _ => congrArg (qf (ix2 i k) * ·) (transpose_ix ht kf k n)))

section Softmax

variable (hr : (⟨2, ![8192, 8192]⟩ : Shape).ReducesTo [(1 : Fin 2)] ⟨1, ![8192]⟩) (hS : 0 < (⟨0, ![]⟩ : Shape).numel)
  (hb1 : (⟨0, ![]⟩ : Shape).BroadcastsInDim ⟨1, ![8192]⟩ ![])
  (hc : (⟨1, ![8192]⟩ : Shape).BroadcastsInDim ⟨2, ![8192, 1]⟩ ![0])
  (hl : (⟨2, ![8192, 1]⟩ : Shape).BroadcastsInDim ⟨2, ![8192, 8192]⟩ ![0, 1])

/-- The vector of row maxima: the larger of the word of `-∞` and the maximum folded along the lanes from it. -/
def hostRowMax (s : FVec Ideal ⟨2, ![8192, 8192]⟩ .f32) : FVec Ideal ⟨1, ![8192]⟩ .f32 :=
  maximumf (broadcastInDim ⟨1, ![8192]⟩ ![] hb1 (constant ⟨0, ![]⟩ .f32 0xFF800000#32)) (Host.reduce FloatOps.maximumf s (constant ⟨0, ![]⟩ .f32 0xFF800000#32) hr hS)

/-- The exponentials of the scores less their row's maximum. -/
def hostExp (s : FVec Ideal ⟨2, ![8192, 8192]⟩ .f32) : FVec Ideal ⟨2, ![8192, 8192]⟩ .f32 :=
  Host.exp (subf s (broadcastInDim ⟨2, ![8192, 8192]⟩ ![0, 1] hl (broadcastInDim ⟨2, ![8192, 1]⟩ ![0] hc (hostRowMax hr hS hb1 s))))

/-- The host's softmax along the lanes. -/
def hostSoftmax (s : FVec Ideal ⟨2, ![8192, 8192]⟩ .f32) : FVec Ideal ⟨2, ![8192, 8192]⟩ .f32 :=
  Host.divf (hostExp hr hS hb1 hc hl s)
    (broadcastInDim ⟨2, ![8192, 8192]⟩ ![0, 1] hl (broadcastInDim ⟨2, ![8192, 1]⟩ ![0] hc
      (Host.reduceAdd (hostExp hr hS hb1 hc hl s) (constant ⟨0, ![]⟩ .f32 0x00000000#32) hr hS)))

theorem hostRowMax_apply (s : FVec Ideal ⟨2, ![8192, 8192]⟩ .f32) (i : Fin 8192) :
    hostRowMax hr hS hb1 s (ix1 i) = rowMax (fun m => s (ix2 i m)) := by
  unfold hostRowMax rowMax
  rw [maximumf_apply, bscalar_apply hb1 _ _ ix0, max_apply s _ hr hS (by decide) i]
  simp only [constant_apply]
  exact max_eq_right ((Finset.le_fold_max _).mpr (Or.inl le_rfl))

theorem hostExp_apply (s : FVec Ideal ⟨2, ![8192, 8192]⟩ .f32) (i n : Fin 8192) :
    hostExp hr hS hb1 hc hl s (ix2 i n) = expShift (fun m => s (ix2 i m)) n := by
  unfold hostExp
  rw [hexp_apply, subf_apply, blanes_apply, bcol_apply, hostRowMax_apply]
  rfl

theorem hostSoftmax_apply (s : FVec Ideal ⟨2, ![8192, 8192]⟩ .f32) (i n : Fin 8192) :
    hostSoftmax hr hS hb1 hc hl s (ix2 i n) = softmax (fun m => s (ix2 i m)) n := by
  unfold hostSoftmax
  rw [hdivf_apply, blanes_apply, bcol_apply, sum_apply _ _ hr hS (by decide) i, constant_apply, Ideal.ofBits_zero_f32,
    zero_add, hostExp_apply]
  exact congrArg (Ideal.div _) (Finset.sum_congr rfl fun k _ => hostExp_apply hr hS hb1 hc hl s i k)

end Softmax

/-! ## The attention's output and the rectified network -/

section Output

variable (hv1 : (⟨1, ![256]⟩ : Shape).BroadcastsInDim ⟨2, ![1, 256]⟩ ![1])
  (hv2 : (⟨2, ![1, 256]⟩ : Shape).BroadcastsInDim ⟨2, ![8192, 256]⟩ ![0, 1])

/-- The attention weights times the values, through the output affine map. -/
def hostAtt (w : FVec Ideal ⟨2, ![8192, 8192]⟩ .f32) (v : FVec Ideal ⟨2, ![8192, 256]⟩ .f32) (Wo : FVec Ideal ⟨2, ![256, 256]⟩ .f32) (bo : FVec Ideal ⟨1, ![256]⟩ .f32) : FVec Ideal ⟨2, ![8192, 256]⟩ .f32 :=
  hostLin hv1 hv2 (Host.dotGeneral (DotDims.plain 8192 8192 256) none w v) Wo bo

theorem hostAtt_apply (w : FVec Ideal ⟨2, ![8192, 8192]⟩ .f32) (v : FVec Ideal ⟨2, ![8192, 256]⟩ .f32) (Wo : FVec Ideal ⟨2, ![256, 256]⟩ .f32) (bo : FVec Ideal ⟨1, ![256]⟩ .f32)
    (i : Fin 8192) (q : Fin 256) :
    hostAtt hv1 hv2 w v Wo bo (ix2 i q)
      = lin (mv (fun n => w (ix2 i n)) (fun n k => v (ix2 n k))) (fun k n => Wo (ix2 k n)) (fun n => bo (ix1 n)) q := by
  unfold hostAtt
  rw [hostLin_apply]
  exact congrArg (fun x => lin x (fun k n => Wo (ix2 k n)) (fun n => bo (ix1 n)) q)
    (funext fun k => Cert.Lib.PlainDot.dotGeneral_apply 8192 8192 256 none .single w v i k)

variable (ha1 : (⟨1, ![512]⟩ : Shape).BroadcastsInDim ⟨2, ![1, 512]⟩ ![1])
  (ha2 : (⟨2, ![1, 512]⟩ : Shape).BroadcastsInDim ⟨2, ![8192, 512]⟩ ![0, 1])
  (h0 : (⟨0, ![]⟩ : Shape).BroadcastsInDim ⟨2, ![8192, 512]⟩ ![])

/-- The two-layer rectified network: an affine map into width 512, the larger of each entry and the word of zero,
    an affine map back to width 256. -/
def hostFF (x : FVec Ideal ⟨2, ![8192, 256]⟩ .f32) (W1 : FVec Ideal ⟨2, ![256, 512]⟩ .f32) (b1 : FVec Ideal ⟨1, ![512]⟩ .f32) (W2 : FVec Ideal ⟨2, ![512, 256]⟩ .f32) (b2 : FVec Ideal ⟨1, ![256]⟩ .f32) :
    FVec Ideal ⟨2, ![8192, 256]⟩ .f32 :=
  hostLin hv1 hv2 (maximumf (hostLin ha1 ha2 x W1 b1) (broadcastInDim ⟨2, ![8192, 512]⟩ ![] h0 (constant ⟨0, ![]⟩ .f32 0x00000000#32))) W2 b2

theorem hostFF_apply (x : FVec Ideal ⟨2, ![8192, 256]⟩ .f32) (W1 : FVec Ideal ⟨2, ![256, 512]⟩ .f32) (b1 : FVec Ideal ⟨1, ![512]⟩ .f32) (W2 : FVec Ideal ⟨2, ![512, 256]⟩ .f32) (b2 : FVec Ideal ⟨1, ![256]⟩ .f32)
    (i : Fin 8192) (q : Fin 256) :
    hostFF hv1 hv2 ha1 ha2 h0 x W1 b1 W2 b2 (ix2 i q)
      = lin (fun c => relu (lin (fun k => x (ix2 i k)) (fun k n => W1 (ix2 k n)) (fun n => b1 (ix1 n)) c))
          (fun k n => W2 (ix2 k n)) (fun n => b2 (ix1 n)) q := by
  unfold hostFF
  rw [hostLin_apply]
  refine congrArg (fun z => lin z (fun k n => W2 (ix2 k n)) (fun n => b2 (ix1 n)) q) (funext fun c => ?_)
  rw [maximumf_apply, bscalar_apply h0 _ _ ix0, constant_apply, hostLin_apply]
  rfl

end Output

end Cert.RefHost

end
-- ==== Proof.RefLayer.lean ====
/-
  The reference's run, entry by entry, is the layer of the row-level mathematics.

  The reference's operations are cut into nine stretches. Each stretch leaves, in the buffer it ends at, a term of
  host operations over the contents it was entered with — the host's layer normalisation, affine maps, feature
  products, scores, softmax, attention output and rectified network, as defined where they are read at an index — and
  leaves every buffer it does not write as it found it, the arguments among them. Chained from the launch contents:
  every row of the first normalisation is `h1Row` of the features' and the neighbourhood aggregate's rows; queries,
  keys and values are its affine images, the query and key features their products with the transposed feature
  matrix; row `i` of the scores, of the attention weights, of the residual sums and of the later normalisations follow,
  and the last is the layer at `(i, j)`. The neighbourhood aggregate enters only as the array the first stretch
  leaves: nothing of it is unfolded.
-/
import proofs.«132447_j24799141167762_2_alg».proof.Proof.RefOps
import proofs.«132447_j24799141167762_2_alg».proof.Proof.RefHost

noncomputable section

namespace Cert.RefLayer

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx Cert.Spec Cert.RefHost

/-! ## What each stretch leaves in the buffers it ends at -/

/-- The first normalisation, of the features plus the neighbourhood aggregate. -/
theorem B_v73 (W : Valuation τ sig (Elt Ideal)) :
    after (opsB (F := Ideal)) W (Proc.devRef .tc main_v73)
      = hostLN reducesTo_S8192x256_S8192_d1 h_S_ bcast_S8192_S8192x1_0 bcast_S_S8192x1 bcast_S8192x1_S8192x256_0_1 bcast_S256_S1x256_1 bcast_S1x256_S8192x256_0_1
          (addf (W (Proc.devRef .tc main_arg0)) (W (Proc.devRef .tc main_v48))) (W (Proc.devRef .tc main_arg13)) (W (Proc.devRef .tc main_arg14)) := by
  simp only [opsB]
  after_results_simp
  rfl

/-- The values. -/
theorem C_v85 (W : Valuation τ sig (Elt Ideal)) :
    after (opsC (F := Ideal)) W (Proc.devRef .tc main_v85)
      = hostLin (K := 256) (N := 256) bcast_S256_S1x256_1 bcast_S1x256_S8192x256_0_1 (W (Proc.devRef .tc main_v73)) (W (Proc.devRef .tc main_arg8)) (W (Proc.devRef .tc main_arg9)) := by
  simp only [opsC]
  after_results_simp
  rfl

/-- The query features. -/
theorem C_v87 (W : Valuation τ sig (Elt Ideal)) :
    after (opsC (F := Ideal)) W (Proc.devRef .tc main_v87)
      = hostFeat transposes_S256x256_S256x256_1_0 (hostLin (K := 256) (N := 256) bcast_S256_S1x256_1 bcast_S1x256_S8192x256_0_1 (W (Proc.devRef .tc main_v73)) (W (Proc.devRef .tc main_arg4)) (W (Proc.devRef .tc main_arg5))) (W (Proc.devRef .tc main_arg12)) := by
  simp only [opsC]
  after_results_simp
  rfl

/-- The key features. -/
theorem C_v89 (W : Valuation τ sig (Elt Ideal)) :
    after (opsC (F := Ideal)) W (Proc.devRef .tc main_v89)
      = hostFeat transposes_S256x256_S256x256_1_0 (hostLin (K := 256) (N := 256) bcast_S256_S1x256_1 bcast_S1x256_S8192x256_0_1 (W (Proc.devRef .tc main_v73)) (W (Proc.devRef .tc main_arg6)) (W (Proc.devRef .tc main_arg7))) (W (Proc.devRef .tc main_arg12)) := by
  simp only [opsC]
  after_results_simp
  rfl

/-- The scaled scores. -/
theorem D_v94 (W : Valuation τ sig (Elt Ideal)) :
    after (opsD (F := Ideal)) W (Proc.devRef .tc main_v94)
      = hostScore transposes_S8192x256_S256x8192_1_0 bcast_S_S8192x8192 (W (Proc.devRef .tc main_v87)) (W (Proc.devRef .tc main_v89)) := by
  simp only [opsD]
  after_results_simp
  rfl

/-- The attention weights. -/
theorem E_v105 (W : Valuation τ sig (Elt Ideal)) :
    after (opsE (F := Ideal)) W (Proc.devRef .tc main_v105)
      = hostSoftmax reducesTo_S8192x8192_S8192_d1 h_S_ bcast_S_S8192 bcast_S8192_S8192x1_0 bcast_S8192x1_S8192x8192_0_1 (W (Proc.devRef .tc main_v94)) := by
  simp only [opsE]
  after_results_simp
  rfl

/-- The residual sum after the attention. -/
theorem F_v111 (W : Valuation τ sig (Elt Ideal)) :
    after (opsF (F := Ideal)) W (Proc.devRef .tc main_v111)
      = addf (W (Proc.devRef .tc main_v73)) (hostAtt bcast_S256_S1x256_1 bcast_S1x256_S8192x256_0_1 (W (Proc.devRef .tc main_v105)) (W (Proc.devRef .tc main_v85)) (W (Proc.devRef .tc main_arg10)) (W (Proc.devRef .tc main_arg11))) := by
  simp only [opsF]
  after_results_simp
  rfl

/-- The second normalisation. -/
theorem G_v135 (W : Valuation τ sig (Elt Ideal)) :
    after (opsG (F := Ideal)) W (Proc.devRef .tc main_v135)
      = hostLN reducesTo_S8192x256_S8192_d1 h_S_ bcast_S8192_S8192x1_0 bcast_S_S8192x1 bcast_S8192x1_S8192x256_0_1 bcast_S256_S1x256_1 bcast_S1x256_S8192x256_0_1 (W (Proc.devRef .tc main_v111)) (W (Proc.devRef .tc main_arg15)) (W (Proc.devRef .tc main_arg16)) := by
  simp only [opsG]
  after_results_simp
  rfl

/-- The residual sum after the rectified network. -/
theorem H_v146 (W : Valuation τ sig (Elt Ideal)) :
    after (opsH (F := Ideal)) W (Proc.devRef .tc main_v146)
      = addf (W (Proc.devRef .tc main_v135)) (hostFF bcast_S256_S1x256_1 bcast_S1x256_S8192x256_0_1 bcast_S512_S1x512_1 bcast_S1x512_S8192x512_0_1 bcast_S_S8192x512 (W (Proc.devRef .tc main_v135)) (W (Proc.devRef .tc main_arg19)) (W (Proc.devRef .tc main_arg20)) (W (Proc.devRef .tc main_arg21)) (W (Proc.devRef .tc main_arg22))) := by
  simp only [opsH]
  after_results_simp
  rfl

/-- The third normalisation: the result. -/
theorem I_v170 (W : Valuation τ sig (Elt Ideal)) :
    after (opsI (F := Ideal)) W (Proc.devRef .tc main_v170)
      = hostLN reducesTo_S8192x256_S8192_d1 h_S_ bcast_S8192_S8192x1_0 bcast_S_S8192x1 bcast_S8192x1_S8192x256_0_1 bcast_S256_S1x256_1 bcast_S1x256_S8192x256_0_1 (W (Proc.devRef .tc main_v146)) (W (Proc.devRef .tc main_arg17)) (W (Proc.devRef .tc main_arg18)) := by
  simp only [opsI]
  after_results_simp
  rfl

/-! ## What each stretch leaves alone -/

/-- The buffers stretch A writes. -/
def wA : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16, main_c, main_v17, main_v18, main_c_4, main_v19, main_v20, main_v21, main_v22, main_v23, main_c_5, main_v24, main_v25, main_c_6, main_v26, main_v27, main_v28, main_v29, main_v30, main_v31, main_v32, main_c_7, main_v33, main_v34, main_c_8, main_v35, main_v36, main_v37, main_v38, main_v39, main_v40, main_v41, main_v42, main_cst_9, main_v43, main_v44, main_v45, main_v46, main_v47, main_v48]

theorem A_writes : (opsA (F := Ideal)).Forall fun op => op.writes ⊆ (wA.map (Proc.devRef (τ := τ) .tc)).toFinset := by
  simp only [opsA, List.Forall, TRef.unary, TRef.ternary, nullary_writes, unary_writes, binary_writes, ternary_writes, reshape_writes]
  repeat' apply And.intro
  all_goals exact Finset.singleton_subset_iff.mpr (List.mem_toFinset.mpr (List.mem_map.mpr ⟨_, by decide, rfl⟩))

/-- A buffer stretch A does not write keeps its contents. -/
theorem A_frame (W : Valuation τ sig (Elt Ideal)) {r : Ref sig .tc} (hr : r ∉ wA) :
    after (opsA (F := Ideal)) W (Proc.devRef .tc r) = W (Proc.devRef .tc r) :=
  after_of_writes_sub _ W A_writes hr

/-- The buffers stretch B writes. -/
def wB : List (Ref sig .tc) := [main_v49, main_cst_10, main_v50, main_v51, main_cst_11, main_v52, main_v53, main_v54, main_v55, main_v56, main_cst_12, main_v57, main_v58, main_cst_13, main_v59, main_v60, main_v61, main_v62, main_cst_14, main_v63, main_v64, main_v65, main_v66, main_v67, main_v68, main_v69, main_v70, main_v71, main_v72, main_v73]

theorem B_writes : (opsB (F := Ideal)).Forall fun op => op.writes ⊆ (wB.map (Proc.devRef (τ := τ) .tc)).toFinset := by
  simp only [opsB, List.Forall, TRef.unary, TRef.ternary, nullary_writes, unary_writes, binary_writes, ternary_writes, reshape_writes]
  repeat' apply And.intro
  all_goals exact Finset.singleton_subset_iff.mpr (List.mem_toFinset.mpr (List.mem_map.mpr ⟨_, by decide, rfl⟩))

/-- A buffer stretch B does not write keeps its contents. -/
theorem B_frame (W : Valuation τ sig (Elt Ideal)) {r : Ref sig .tc} (hr : r ∉ wB) :
    after (opsB (F := Ideal)) W (Proc.devRef .tc r) = W (Proc.devRef .tc r) :=
  after_of_writes_sub _ W B_writes hr

/-- The buffers stretch C writes. -/
def wC : List (Ref sig .tc) := [main_v74, main_v75, main_v76, main_v77, main_v78, main_v79, main_v80, main_v81, main_v82, main_v83, main_v84, main_v85, main_v86, main_v87, main_v88, main_v89]

theorem C_writes : (opsC (F := Ideal)).Forall fun op => op.writes ⊆ (wC.map (Proc.devRef (τ := τ) .tc)).toFinset := by
  simp only [opsC, List.Forall, TRef.unary, TRef.ternary, nullary_writes, unary_writes, binary_writes, ternary_writes, reshape_writes]
  repeat' apply And.intro
  all_goals exact Finset.singleton_subset_iff.mpr (List.mem_toFinset.mpr (List.mem_map.mpr ⟨_, by decide, rfl⟩))

/-- A buffer stretch C does not write keeps its contents. -/
theorem C_frame (W : Valuation τ sig (Elt Ideal)) {r : Ref sig .tc} (hr : r ∉ wC) :
    after (opsC (F := Ideal)) W (Proc.devRef .tc r) = W (Proc.devRef .tc r) :=
  after_of_writes_sub _ W C_writes hr

/-- The buffers stretch D writes. -/
def wD : List (Ref sig .tc) := [main_v90, main_v91, main_cst_15, main_v92, main_v93, main_v94]

theorem D_writes : (opsD (F := Ideal)).Forall fun op => op.writes ⊆ (wD.map (Proc.devRef (τ := τ) .tc)).toFinset := by
  simp only [opsD, List.Forall, TRef.unary, TRef.ternary, nullary_writes, unary_writes, binary_writes, ternary_writes, reshape_writes]
  repeat' apply And.intro
  all_goals exact Finset.singleton_subset_iff.mpr (List.mem_toFinset.mpr (List.mem_map.mpr ⟨_, by decide, rfl⟩))

/-- A buffer stretch D does not write keeps its contents. -/
theorem D_frame (W : Valuation τ sig (Elt Ideal)) {r : Ref sig .tc} (hr : r ∉ wD) :
    after (opsD (F := Ideal)) W (Proc.devRef .tc r) = W (Proc.devRef .tc r) :=
  after_of_writes_sub _ W D_writes hr

/-- The buffers stretch E writes. -/
def wE : List (Ref sig .tc) := [main_cst_16, main_v95, main_cst_17, main_v96, main_v97, main_v98, main_v99, main_v100, main_v101, main_cst_18, main_v102, main_v103, main_v104, main_v105]

theorem E_writes : (opsE (F := Ideal)).Forall fun op => op.writes ⊆ (wE.map (Proc.devRef (τ := τ) .tc)).toFinset := by
  simp only [opsE, List.Forall, TRef.unary, TRef.ternary, nullary_writes, unary_writes, binary_writes, ternary_writes, reshape_writes]
  repeat' apply And.intro
  all_goals exact Finset.singleton_subset_iff.mpr (List.mem_toFinset.mpr (List.mem_map.mpr ⟨_, by decide, rfl⟩))

/-- A buffer stretch E does not write keeps its contents. -/
theorem E_frame (W : Valuation τ sig (Elt Ideal)) {r : Ref sig .tc} (hr : r ∉ wE) :
    after (opsE (F := Ideal)) W (Proc.devRef .tc r) = W (Proc.devRef .tc r) :=
  after_of_writes_sub _ W E_writes hr

/-- The buffers stretch F writes. -/
def wF : List (Ref sig .tc) := [main_v106, main_v107, main_v108, main_v109, main_v110, main_v111]

theorem F_writes : (opsF (F := Ideal)).Forall fun op => op.writes ⊆ (wF.map (Proc.devRef (τ := τ) .tc)).toFinset := by
  simp only [opsF, List.Forall, TRef.unary, TRef.ternary, nullary_writes, unary_writes, binary_writes, ternary_writes, reshape_writes]
  repeat' apply And.intro
  all_goals exact Finset.singleton_subset_iff.mpr (List.mem_toFinset.mpr (List.mem_map.mpr ⟨_, by decide, rfl⟩))

/-- A buffer stretch F does not write keeps its contents. -/
theorem F_frame (W : Valuation τ sig (Elt Ideal)) {r : Ref sig .tc} (hr : r ∉ wF) :
    after (opsF (F := Ideal)) W (Proc.devRef .tc r) = W (Proc.devRef .tc r) :=
  after_of_writes_sub _ W F_writes hr

/-- The buffers stretch G writes. -/
def wG : List (Ref sig .tc) := [main_cst_19, main_v112, main_v113, main_cst_20, main_v114, main_v115, main_v116, main_v117, main_v118, main_cst_21, main_v119, main_v120, main_cst_22, main_v121, main_v122, main_v123, main_v124, main_cst_23, main_v125, main_v126, main_v127, main_v128, main_v129, main_v130, main_v131, main_v132, main_v133, main_v134, main_v135]

theorem G_writes : (opsG (F := Ideal)).Forall fun op => op.writes ⊆ (wG.map (Proc.devRef (τ := τ) .tc)).toFinset := by
  simp only [opsG, List.Forall, TRef.unary, TRef.ternary, nullary_writes, unary_writes, binary_writes, ternary_writes, reshape_writes]
  repeat' apply And.intro
  all_goals exact Finset.singleton_subset_iff.mpr (List.mem_toFinset.mpr (List.mem_map.mpr ⟨_, by decide, rfl⟩))

/-- A buffer stretch G does not write keeps its contents. -/
theorem G_frame (W : Valuation τ sig (Elt Ideal)) {r : Ref sig .tc} (hr : r ∉ wG) :
    after (opsG (F := Ideal)) W (Proc.devRef .tc r) = W (Proc.devRef .tc r) :=
  after_of_writes_sub _ W G_writes hr

/-- The buffers stretch H writes. -/
def wH : List (Ref sig .tc) := [main_v136, main_v137, main_v138, main_v139, main_cst_24, main_v140, main_v141, main_v142, main_v143, main_v144, main_v145, main_v146]

theorem H_writes : (opsH (F := Ideal)).Forall fun op => op.writes ⊆ (wH.map (Proc.devRef (τ := τ) .tc)).toFinset := by
  simp only [opsH, List.Forall, TRef.unary, TRef.ternary, nullary_writes, unary_writes, binary_writes, ternary_writes, reshape_writes]
  repeat' apply And.intro
  all_goals exact Finset.singleton_subset_iff.mpr (List.mem_toFinset.mpr (List.mem_map.mpr ⟨_, by decide, rfl⟩))

/-- A buffer stretch H does not write keeps its contents. -/
theorem H_frame (W : Valuation τ sig (Elt Ideal)) {r : Ref sig .tc} (hr : r ∉ wH) :
    after (opsH (F := Ideal)) W (Proc.devRef .tc r) = W (Proc.devRef .tc r) :=
  after_of_writes_sub _ W H_writes hr

/-- The buffers stretch I writes. -/
def wI : List (Ref sig .tc) := [main_cst_25, main_v147, main_v148, main_cst_26, main_v149, main_v150, main_v151, main_v152, main_v153, main_cst_27, main_v154, main_v155, main_cst_28, main_v156, main_v157, main_v158, main_v159, main_cst_29, main_v160, main_v161, main_v162, main_v163, main_v164, main_v165, main_v166, main_v167, main_v168, main_v169, main_v170]

theorem I_writes : (opsI (F := Ideal)).Forall fun op => op.writes ⊆ (wI.map (Proc.devRef (τ := τ) .tc)).toFinset := by
  simp only [opsI, List.Forall, TRef.unary, TRef.ternary, nullary_writes, unary_writes, binary_writes, ternary_writes, reshape_writes]
  repeat' apply And.intro
  all_goals exact Finset.singleton_subset_iff.mpr (List.mem_toFinset.mpr (List.mem_map.mpr ⟨_, by decide, rfl⟩))

/-- A buffer stretch I does not write keeps its contents. -/
theorem I_frame (W : Valuation τ sig (Elt Ideal)) {r : Ref sig .tc} (hr : r ∉ wI) :
    after (opsI (F := Ideal)) W (Proc.devRef .tc r) = W (Proc.devRef .tc r) :=
  after_of_writes_sub _ W I_writes hr

/-! ## The contents after each stretch, from the launch contents -/

/-- The contents after stretch A. -/
abbrev WA (m : (ℓ : Loc nD τ sig) → Buf (Elt Ideal) ℓ) (c : Dev nD) : Valuation τ sig (Elt Ideal) := after (opsA (F := Ideal)) (launchContents m c)
/-- The contents after stretch B. -/
abbrev WB (m : (ℓ : Loc nD τ sig) → Buf (Elt Ideal) ℓ) (c : Dev nD) : Valuation τ sig (Elt Ideal) := after (opsB (F := Ideal)) (WA m c)
/-- The contents after stretch C. -/
abbrev WC (m : (ℓ : Loc nD τ sig) → Buf (Elt Ideal) ℓ) (c : Dev nD) : Valuation τ sig (Elt Ideal) := after (opsC (F := Ideal)) (WB m c)
/-- The contents after stretch D. -/
abbrev WD (m : (ℓ : Loc nD τ sig) → Buf (Elt Ideal) ℓ) (c : Dev nD) : Valuation τ sig (Elt Ideal) := after (opsD (F := Ideal)) (WC m c)
/-- The contents after stretch E. -/
abbrev WE (m : (ℓ : Loc nD τ sig) → Buf (Elt Ideal) ℓ) (c : Dev nD) : Valuation τ sig (Elt Ideal) := after (opsE (F := Ideal)) (WD m c)
/-- The contents after stretch F. -/
abbrev WF (m : (ℓ : Loc nD τ sig) → Buf (Elt Ideal) ℓ) (c : Dev nD) : Valuation τ sig (Elt Ideal) := after (opsF (F := Ideal)) (WE m c)
/-- The contents after stretch G. -/
abbrev WG (m : (ℓ : Loc nD τ sig) → Buf (Elt Ideal) ℓ) (c : Dev nD) : Valuation τ sig (Elt Ideal) := after (opsG (F := Ideal)) (WF m c)
/-- The contents after stretch H. -/
abbrev WH (m : (ℓ : Loc nD τ sig) → Buf (Elt Ideal) ℓ) (c : Dev nD) : Valuation τ sig (Elt Ideal) := after (opsH (F := Ideal)) (WG m c)
/-- The contents after stretch I. -/
abbrev WI (m : (ℓ : Loc nD τ sig) → Buf (Elt Ideal) ℓ) (c : Dev nD) : Valuation τ sig (Elt Ideal) := after (opsI (F := Ideal)) (WH m c)

/-- The whole run is the nine stretches in order. -/
theorem ops_after (m : (ℓ : Loc nD τ sig) → Buf (Elt Ideal) ℓ) (c : Dev nD) : after (ops (F := Ideal)) (launchContents m c) = WI m c := by
  rw [ops_eq, after_append, after_append, after_append, after_append, after_append, after_append, after_append, after_append]

/-! ### A buffer no stretch so far writes still holds its launch contents -/

theorem WA_keep (m : (ℓ : Loc nD τ sig) → Buf (Elt Ideal) ℓ) (c : Dev nD) {r : Ref sig .tc} (hA : r ∉ wA) :
    WA m c (Proc.devRef .tc r) = m ((c.tc : Thread nD τ).loc r) :=
  (A_frame _ hA).trans rfl

theorem WB_keep (m : (ℓ : Loc nD τ sig) → Buf (Elt Ideal) ℓ) (c : Dev nD) {r : Ref sig .tc} (hA : r ∉ wA) (hB : r ∉ wB) :
    WB m c (Proc.devRef .tc r) = m ((c.tc : Thread nD τ).loc r) :=
  (B_frame _ hB).trans (WA_keep m c hA)

theorem WC_keep (m : (ℓ : Loc nD τ sig) → Buf (Elt Ideal) ℓ) (c : Dev nD) {r : Ref sig .tc} (hA : r ∉ wA) (hB : r ∉ wB) (hC : r ∉ wC) :
    WC m c (Proc.devRef .tc r) = m ((c.tc : Thread nD τ).loc r) :=
  (C_frame _ hC).trans (WB_keep m c hA hB)

theorem WD_keep (m : (ℓ : Loc nD τ sig) → Buf (Elt Ideal) ℓ) (c : Dev nD) {r : Ref sig .tc} (hA : r ∉ wA) (hB : r ∉ wB) (hC : r ∉ wC) (hD : r ∉ wD) :
    WD m c (Proc.devRef .tc r) = m ((c.tc : Thread nD τ).loc r) :=
  (D_frame _ hD).trans (WC_keep m c hA hB hC)

theorem WE_keep (m : (ℓ : Loc nD τ sig) → Buf (Elt Ideal) ℓ) (c : Dev nD) {r : Ref sig .tc} (hA : r ∉ wA) (hB : r ∉ wB) (hC : r ∉ wC) (hD : r ∉ wD) (hE : r ∉ wE) :
    WE m c (Proc.devRef .tc r) = m ((c.tc : Thread nD τ).loc r) :=
  (E_frame _ hE).trans (WD_keep m c hA hB hC hD)

theorem WF_keep (m : (ℓ : Loc nD τ sig) → Buf (Elt Ideal) ℓ) (c : Dev nD) {r : Ref sig .tc} (hA : r ∉ wA) (hB : r ∉ wB) (hC : r ∉ wC) (hD : r ∉ wD) (hE : r ∉ wE) (hF : r ∉ wF) :
    WF m c (Proc.devRef .tc r) = m ((c.tc : Thread nD τ).loc r) :=
  (F_frame _ hF).trans (WE_keep m c hA hB hC hD hE)

theorem WG_keep (m : (ℓ : Loc nD τ sig) → Buf (Elt Ideal) ℓ) (c : Dev nD) {r : Ref sig .tc} (hA : r ∉ wA) (hB : r ∉ wB) (hC : r ∉ wC) (hD : r ∉ wD) (hE : r ∉ wE) (hF : r ∉ wF) (hG : r ∉ wG) :
    WG m c (Proc.devRef .tc r) = m ((c.tc : Thread nD τ).loc r) :=
  (G_frame _ hG).trans (WF_keep m c hA hB hC hD hE hF)

theorem WH_keep (m : (ℓ : Loc nD τ sig) → Buf (Elt Ideal) ℓ) (c : Dev nD) {r : Ref sig .tc} (hA : r ∉ wA) (hB : r ∉ wB) (hC : r ∉ wC) (hD : r ∉ wD) (hE : r ∉ wE) (hF : r ∉ wF) (hG : r ∉ wG) (hH : r ∉ wH) :
    WH m c (Proc.devRef .tc r) = m ((c.tc : Thread nD τ).loc r) :=
  (H_frame _ hH).trans (WG_keep m c hA hB hC hD hE hF hG)

theorem WI_keep (m : (ℓ : Loc nD τ sig) → Buf (Elt Ideal) ℓ) (c : Dev nD) {r : Ref sig .tc} (hA : r ∉ wA) (hB : r ∉ wB) (hC : r ∉ wC) (hD : r ∉ wD) (hE : r ∉ wE) (hF : r ∉ wF) (hG : r ∉ wG) (hH : r ∉ wH) (hI : r ∉ wI) :
    WI m c (Proc.devRef .tc r) = m ((c.tc : Thread nD τ).loc r) :=
  (I_frame _ hI).trans (WH_keep m c hA hB hC hD hE hF hG hH)

/-- Every argument buffer holds its launch contents after the whole run. -/
theorem ops_keep (m : (ℓ : Loc nD τ sig) → Buf (Elt Ideal) ℓ) (c : Dev nD) {r : Ref sig .tc} (hA : r ∉ wA) (hB : r ∉ wB) (hC : r ∉ wC) (hD : r ∉ wD) (hE : r ∉ wE) (hF : r ∉ wF) (hG : r ∉ wG) (hH : r ∉ wH) (hI : r ∉ wI) :
    after (ops (F := Ideal)) (launchContents m c) (Proc.devRef .tc r) = m ((c.tc : Thread nD τ).loc r) :=
  (congrFun (ops_after m c) (Proc.devRef .tc r)).trans (WI_keep m c hA hB hC hD hE hF hG hH hI)

theorem ref_arg0 (m : (ℓ : Loc nD τ sig) → Buf (Elt Ideal) ℓ) (c : Dev nD) :
    after (ops (F := Ideal)) (launchContents m c) (Proc.devRef .tc main_arg0) = m ((c.tc : Thread nD τ).loc main_arg0) :=
  ops_keep m c (r := main_arg0) (by decide) (by decide) (by decide) (by decide) (by decide) (by decide) (by decide) (by decide) (by decide)
theorem ref_arg1 (m : (ℓ : Loc nD τ sig) → Buf (Elt Ideal) ℓ) (c : Dev nD) :
    after (ops (F := Ideal)) (launchContents m c) (Proc.devRef .tc main_arg1) = m ((c.tc : Thread nD τ).loc main_arg1) :=
  ops_keep m c (r := main_arg1) (by decide) (by decide) (by decide) (by decide) (by decide) (by decide) (by decide) (by decide) (by decide)
theorem ref_arg2 (m : (ℓ : Loc nD τ sig) → Buf (Elt Ideal) ℓ) (c : Dev nD) :
    after (ops (F := Ideal)) (launchContents m c) (Proc.devRef .tc main_arg2) = m ((c.tc : Thread nD τ).loc main_arg2) :=
  ops_keep m c (r := main_arg2) (by decide) (by decide) (by decide) (by decide) (by decide) (by decide) (by decide) (by decide) (by decide)
theorem ref_arg3 (m : (ℓ : Loc nD τ sig) → Buf (Elt Ideal) ℓ) (c : Dev nD) :
    after (ops (F := Ideal)) (launchContents m c) (Proc.devRef .tc main_arg3) = m ((c.tc : Thread nD τ).loc main_arg3) :=
  ops_keep m c (r := main_arg3) (by decide) (by decide) (by decide) (by decide) (by decide) (by decide) (by decide) (by decide) (by decide)
theorem ref_arg4 (m : (ℓ : Loc nD τ sig) → Buf (Elt Ideal) ℓ) (c : Dev nD) :
    after (ops (F := Ideal)) (launchContents m c) (Proc.devRef .tc main_arg4) = m ((c.tc : Thread nD τ).loc main_arg4) :=
  ops_keep m c (r := main_arg4) (by decide) (by decide) (by decide) (by decide) (by decide) (by decide) (by decide) (by decide) (by decide)
theorem ref_arg5 (m : (ℓ : Loc nD τ sig) → Buf (Elt Ideal) ℓ) (c : Dev nD) :
    after (ops (F := Ideal)) (launchContents m c) (Proc.devRef .tc main_arg5) = m ((c.tc : Thread nD τ).loc main_arg5) :=
  ops_keep m c (r := main_arg5) (by decide) (by decide) (by decide) (by decide) (by decide) (by decide) (by decide) (by decide) (by decide)
theorem ref_arg6 (m : (ℓ : Loc nD τ sig) → Buf (Elt Ideal) ℓ) (c : Dev nD) :
    after (ops (F := Ideal)) (launchContents m c) (Proc.devRef .tc main_arg6) = m ((c.tc : Thread nD τ).loc main_arg6) :=
  ops_keep m c (r := main_arg6) (by decide) (by decide) (by decide) (by decide) (by decide) (by decide) (by decide) (by decide) (by decide)
theorem ref_arg7 (m : (ℓ : Loc nD τ sig) → Buf (Elt Ideal) ℓ) (c : Dev nD) :
    after (ops (F := Ideal)) (launchContents m c) (Proc.devRef .tc main_arg7) = m ((c.tc : Thread nD τ).loc main_arg7) :=
  ops_keep m c (r := main_arg7) (by decide) (by decide) (by decide) (by decide) (by decide) (by decide) (by decide) (by decide) (by decide)
theorem ref_arg8 (m : (ℓ : Loc nD τ sig) → Buf (Elt Ideal) ℓ) (c : Dev nD) :
    after (ops (F := Ideal)) (launchContents m c) (Proc.devRef .tc main_arg8) = m ((c.tc : Thread nD τ).loc main_arg8) :=
  ops_keep m c (r := main_arg8) (by decide) (by decide) (by decide) (by decide) (by decide) (by decide) (by decide) (by decide) (by decide)
theorem ref_arg9 (m : (ℓ : Loc nD τ sig) → Buf (Elt Ideal) ℓ) (c : Dev nD) :
    after (ops (F := Ideal)) (launchContents m c) (Proc.devRef .tc main_arg9) = m ((c.tc : Thread nD τ).loc main_arg9) :=
  ops_keep m c (r := main_arg9) (by decide) (by decide) (by decide) (by decide) (by decide) (by decide) (by decide) (by decide) (by decide)
theorem ref_arg10 (m : (ℓ : Loc nD τ sig) → Buf (Elt Ideal) ℓ) (c : Dev nD) :
    after (ops (F := Ideal)) (launchContents m c) (Proc.devRef .tc main_arg10) = m ((c.tc : Thread nD τ).loc main_arg10) :=
  ops_keep m c (r := main_arg10) (by decide) (by decide) (by decide) (by decide) (by decide) (by decide) (by decide) (by decide) (by decide)
theorem ref_arg11 (m : (ℓ : Loc nD τ sig) → Buf (Elt Ideal) ℓ) (c : Dev nD) :
    after (ops (F := Ideal)) (launchContents m c) (Proc.devRef .tc main_arg11) = m ((c.tc : Thread nD τ).loc main_arg11) :=
  ops_keep m c (r := main_arg11) (by decide) (by decide) (by decide) (by decide) (by decide) (by decide) (by decide) (by decide) (by decide)
theorem ref_arg12 (m : (ℓ : Loc nD τ sig) → Buf (Elt Ideal) ℓ) (c : Dev nD) :
    after (ops (F := Ideal)) (launchContents m c) (Proc.devRef .tc main_arg12) = m ((c.tc : Thread nD τ).loc main_arg12) :=
  ops_keep m c (r := main_arg12) (by decide) (by decide) (by decide) (by decide) (by decide) (by decide) (by decide) (by decide) (by decide)
theorem ref_arg13 (m : (ℓ : Loc nD τ sig) → Buf (Elt Ideal) ℓ) (c : Dev nD) :
    after (ops (F := Ideal)) (launchContents m c) (Proc.devRef .tc main_arg13) = m ((c.tc : Thread nD τ).loc main_arg13) :=
  ops_keep m c (r := main_arg13) (by decide) (by decide) (by decide) (by decide) (by decide) (by decide) (by decide) (by decide) (by decide)
theorem ref_arg14 (m : (ℓ : Loc nD τ sig) → Buf (Elt Ideal) ℓ) (c : Dev nD) :
    after (ops (F := Ideal)) (launchContents m c) (Proc.devRef .tc main_arg14) = m ((c.tc : Thread nD τ).loc main_arg14) :=
  ops_keep m c (r := main_arg14) (by decide) (by decide) (by decide) (by decide) (by decide) (by decide) (by decide) (by decide) (by decide)
theorem ref_arg15 (m : (ℓ : Loc nD τ sig) → Buf (Elt Ideal) ℓ) (c : Dev nD) :
    after (ops (F := Ideal)) (launchContents m c) (Proc.devRef .tc main_arg15) = m ((c.tc : Thread nD τ).loc main_arg15) :=
  ops_keep m c (r := main_arg15) (by decide) (by decide) (by decide) (by decide) (by decide) (by decide) (by decide) (by decide) (by decide)
theorem ref_arg16 (m : (ℓ : Loc nD τ sig) → Buf (Elt Ideal) ℓ) (c : Dev nD) :
    after (ops (F := Ideal)) (launchContents m c) (Proc.devRef .tc main_arg16) = m ((c.tc : Thread nD τ).loc main_arg16) :=
  ops_keep m c (r := main_arg16) (by decide) (by decide) (by decide) (by decide) (by decide) (by decide) (by decide) (by decide) (by decide)
theorem ref_arg17 (m : (ℓ : Loc nD τ sig) → Buf (Elt Ideal) ℓ) (c : Dev nD) :
    after (ops (F := Ideal)) (launchContents m c) (Proc.devRef .tc main_arg17) = m ((c.tc : Thread nD τ).loc main_arg17) :=
  ops_keep m c (r := main_arg17) (by decide) (by decide) (by decide) (by decide) (by decide) (by decide) (by decide) (by decide) (by decide)
theorem ref_arg18 (m : (ℓ : Loc nD τ sig) → Buf (Elt Ideal) ℓ) (c : Dev nD) :
    after (ops (F := Ideal)) (launchContents m c) (Proc.devRef .tc main_arg18) = m ((c.tc : Thread nD τ).loc main_arg18) :=
  ops_keep m c (r := main_arg18) (by decide) (by decide) (by decide) (by decide) (by decide) (by decide) (by decide) (by decide) (by decide)
theorem ref_arg19 (m : (ℓ : Loc nD τ sig) → Buf (Elt Ideal) ℓ) (c : Dev nD) :
    after (ops (F := Ideal)) (launchContents m c) (Proc.devRef .tc main_arg19) = m ((c.tc : Thread nD τ).loc main_arg19) :=
  ops_keep m c (r := main_arg19) (by decide) (by decide) (by decide) (by decide) (by decide) (by decide) (by decide) (by decide) (by decide)
theorem ref_arg20 (m : (ℓ : Loc nD τ sig) → Buf (Elt Ideal) ℓ) (c : Dev nD) :
    after (ops (F := Ideal)) (launchContents m c) (Proc.devRef .tc main_arg20) = m ((c.tc : Thread nD τ).loc main_arg20) :=
  ops_keep m c (r := main_arg20) (by decide) (by decide) (by decide) (by decide) (by decide) (by decide) (by decide) (by decide) (by decide)
theorem ref_arg21 (m : (ℓ : Loc nD τ sig) → Buf (Elt Ideal) ℓ) (c : Dev nD) :
    after (ops (F := Ideal)) (launchContents m c) (Proc.devRef .tc main_arg21) = m ((c.tc : Thread nD τ).loc main_arg21) :=
  ops_keep m c (r := main_arg21) (by decide) (by decide) (by decide) (by decide) (by decide) (by decide) (by decide) (by decide) (by decide)
theorem ref_arg22 (m : (ℓ : Loc nD τ sig) → Buf (Elt Ideal) ℓ) (c : Dev nD) :
    after (ops (F := Ideal)) (launchContents m c) (Proc.devRef .tc main_arg22) = m ((c.tc : Thread nD τ).loc main_arg22) :=
  ops_keep m c (r := main_arg22) (by decide) (by decide) (by decide) (by decide) (by decide) (by decide) (by decide) (by decide) (by decide)

/-! ## The stretches' results over the launch contents -/

section Chain

variable (m : (ℓ : Loc nD τ sig) → Buf (Elt Ideal) ℓ) (c : Dev nD)

theorem WB_v73 : WB m c (Proc.devRef .tc main_v73)
    = hostLN reducesTo_S8192x256_S8192_d1 h_S_ bcast_S8192_S8192x1_0 bcast_S_S8192x1 bcast_S8192x1_S8192x256_0_1 bcast_S256_S1x256_1 bcast_S1x256_S8192x256_0_1 (addf (m ((c.tc : Thread nD τ).loc main_arg0)) (WA m c (Proc.devRef .tc main_v48))) (m ((c.tc : Thread nD τ).loc main_arg13)) (m ((c.tc : Thread nD τ).loc main_arg14)) := by
  refine (B_v73 (WA m c)).trans ?_
  rw [WA_keep m c (r := main_arg0) (by decide), WA_keep m c (r := main_arg13) (by decide), WA_keep m c (r := main_arg14) (by decide)]

theorem WC_v85 : WC m c (Proc.devRef .tc main_v85)
    = hostLin (K := 256) (N := 256) bcast_S256_S1x256_1 bcast_S1x256_S8192x256_0_1 (WB m c (Proc.devRef .tc main_v73)) (m ((c.tc : Thread nD τ).loc main_arg8)) (m ((c.tc : Thread nD τ).loc main_arg9)) := by
  refine (C_v85 (WB m c)).trans ?_
  rw [WB_keep m c (r := main_arg8) (by decide) (by decide), WB_keep m c (r := main_arg9) (by decide) (by decide)]

theorem WC_v87 : WC m c (Proc.devRef .tc main_v87)
    = hostFeat transposes_S256x256_S256x256_1_0 (hostLin (K := 256) (N := 256) bcast_S256_S1x256_1 bcast_S1x256_S8192x256_0_1 (WB m c (Proc.devRef .tc main_v73)) (m ((c.tc : Thread nD τ).loc main_arg4)) (m ((c.tc : Thread nD τ).loc main_arg5))) (m ((c.tc : Thread nD τ).loc main_arg12)) := by
  refine (C_v87 (WB m c)).trans ?_
  rw [WB_keep m c (r := main_arg4) (by decide) (by decide), WB_keep m c (r := main_arg5) (by decide) (by decide), WB_keep m c (r := main_arg12) (by decide) (by decide)]

theorem WC_v89 : WC m c (Proc.devRef .tc main_v89)
    = hostFeat transposes_S256x256_S256x256_1_0 (hostLin (K := 256) (N := 256) bcast_S256_S1x256_1 bcast_S1x256_S8192x256_0_1 (WB m c (Proc.devRef .tc main_v73)) (m ((c.tc : Thread nD τ).loc main_arg6)) (m ((c.tc : Thread nD τ).loc main_arg7))) (m ((c.tc : Thread nD τ).loc main_arg12)) := by
  refine (C_v89 (WB m c)).trans ?_
  rw [WB_keep m c (r := main_arg6) (by decide) (by decide), WB_keep m c (r := main_arg7) (by decide) (by decide), WB_keep m c (r := main_arg12) (by decide) (by decide)]

theorem WD_v94 : WD m c (Proc.devRef .tc main_v94)
    = hostScore transposes_S8192x256_S256x8192_1_0 bcast_S_S8192x8192 (WC m c (Proc.devRef .tc main_v87)) (WC m c (Proc.devRef .tc main_v89)) :=
  D_v94 (WC m c)

theorem WE_v105 : WE m c (Proc.devRef .tc main_v105) = hostSoftmax reducesTo_S8192x8192_S8192_d1 h_S_ bcast_S_S8192 bcast_S8192_S8192x1_0 bcast_S8192x1_S8192x8192_0_1 (WD m c (Proc.devRef .tc main_v94)) :=
  E_v105 (WD m c)

theorem WE_v73 : WE m c (Proc.devRef .tc main_v73) = WB m c (Proc.devRef .tc main_v73) :=
  (E_frame _ (by decide)).trans ((D_frame _ (by decide)).trans (C_frame _ (by decide)))

theorem WE_v85 : WE m c (Proc.devRef .tc main_v85) = WC m c (Proc.devRef .tc main_v85) :=
  (E_frame _ (by decide)).trans (D_frame _ (by decide))

theorem WF_v111 : WF m c (Proc.devRef .tc main_v111)
    = addf (WB m c (Proc.devRef .tc main_v73)) (hostAtt bcast_S256_S1x256_1 bcast_S1x256_S8192x256_0_1 (WE m c (Proc.devRef .tc main_v105)) (WC m c (Proc.devRef .tc main_v85)) (m ((c.tc : Thread nD τ).loc main_arg10)) (m ((c.tc : Thread nD τ).loc main_arg11))) := by
  refine (F_v111 (WE m c)).trans ?_
  rw [WE_v73, WE_v85, WE_keep m c (r := main_arg10) (by decide) (by decide) (by decide) (by decide) (by decide), WE_keep m c (r := main_arg11) (by decide) (by decide) (by decide) (by decide) (by decide)]

theorem WG_v135 : WG m c (Proc.devRef .tc main_v135) = hostLN reducesTo_S8192x256_S8192_d1 h_S_ bcast_S8192_S8192x1_0 bcast_S_S8192x1 bcast_S8192x1_S8192x256_0_1 bcast_S256_S1x256_1 bcast_S1x256_S8192x256_0_1 (WF m c (Proc.devRef .tc main_v111)) (m ((c.tc : Thread nD τ).loc main_arg15)) (m ((c.tc : Thread nD τ).loc main_arg16)) := by
  refine (G_v135 (WF m c)).trans ?_
  rw [WF_keep m c (r := main_arg15) (by decide) (by decide) (by decide) (by decide) (by decide) (by decide), WF_keep m c (r := main_arg16) (by decide) (by decide) (by decide) (by decide) (by decide) (by decide)]

theorem WH_v146 : WH m c (Proc.devRef .tc main_v146)
    = addf (WG m c (Proc.devRef .tc main_v135)) (hostFF bcast_S256_S1x256_1 bcast_S1x256_S8192x256_0_1 bcast_S512_S1x512_1 bcast_S1x512_S8192x512_0_1 bcast_S_S8192x512 (WG m c (Proc.devRef .tc main_v135)) (m ((c.tc : Thread nD τ).loc main_arg19)) (m ((c.tc : Thread nD τ).loc main_arg20)) (m ((c.tc : Thread nD τ).loc main_arg21)) (m ((c.tc : Thread nD τ).loc main_arg22))) := by
  refine (H_v146 (WG m c)).trans ?_
  rw [WG_keep m c (r := main_arg19) (by decide) (by decide) (by decide) (by decide) (by decide) (by decide) (by decide), WG_keep m c (r := main_arg20) (by decide) (by decide) (by decide) (by decide) (by decide) (by decide) (by decide), WG_keep m c (r := main_arg21) (by decide) (by decide) (by decide) (by decide) (by decide) (by decide) (by decide), WG_keep m c (r := main_arg22) (by decide) (by decide) (by decide) (by decide) (by decide) (by decide) (by decide)]

theorem WI_v170 : WI m c (Proc.devRef .tc main_v170) = hostLN reducesTo_S8192x256_S8192_d1 h_S_ bcast_S8192_S8192x1_0 bcast_S_S8192x1 bcast_S8192x1_S8192x256_0_1 bcast_S256_S1x256_1 bcast_S1x256_S8192x256_0_1 (WH m c (Proc.devRef .tc main_v146)) (m ((c.tc : Thread nD τ).loc main_arg17)) (m ((c.tc : Thread nD τ).loc main_arg18)) := by
  refine (I_v170 (WH m c)).trans ?_
  rw [WH_keep m c (r := main_arg17) (by decide) (by decide) (by decide) (by decide) (by decide) (by decide) (by decide) (by decide), WH_keep m c (r := main_arg18) (by decide) (by decide) (by decide) (by decide) (by decide) (by decide) (by decide) (by decide)]

/-! ## The rows, in the words of the row-level mathematics -/

/-- Every row of the first normalisation. -/
theorem row_h1 (a : Fin 8192) : (fun k => WB m c (Proc.devRef .tc main_v73) (ix2 a k)) = (h1Row (fun k => (m ((c.tc : Thread nD τ).loc main_arg0)) (ix2 a k)) (fun k => WA m c (Proc.devRef .tc main_v48) (ix2 a k)) (fun n => (m ((c.tc : Thread nD τ).loc main_arg13)) (ix1 n)) (fun n => (m ((c.tc : Thread nD τ).loc main_arg14)) (ix1 n))) := funext fun k => by
  rw [WB_v73, hostLN_apply]
  rfl

/-- The values of every row. -/
theorem row_v : (fun a k => WC m c (Proc.devRef .tc main_v85) (ix2 a k)) = (fun a => lin (h1Row (fun k => (m ((c.tc : Thread nD τ).loc main_arg0)) (ix2 a k)) (fun k => WA m c (Proc.devRef .tc main_v48) (ix2 a k)) (fun n => (m ((c.tc : Thread nD τ).loc main_arg13)) (ix1 n)) (fun n => (m ((c.tc : Thread nD τ).loc main_arg14)) (ix1 n))) (fun k n => (m ((c.tc : Thread nD τ).loc main_arg8)) (ix2 k n)) (fun n => (m ((c.tc : Thread nD τ).loc main_arg9)) (ix1 n))) := funext fun a => funext fun k => by
  rw [WC_v85, hostLin_apply]
  exact congrArg (fun x => lin x (fun k n => (m ((c.tc : Thread nD τ).loc main_arg8)) (ix2 k n)) (fun n => (m ((c.tc : Thread nD τ).loc main_arg9)) (ix1 n)) k) (row_h1 m c a)

/-- The query features of every row. -/
theorem row_qf (a : Fin 8192) : (fun k => WC m c (Proc.devRef .tc main_v87) (ix2 a k)) = (featRow (h1Row (fun k => (m ((c.tc : Thread nD τ).loc main_arg0)) (ix2 a k)) (fun k => WA m c (Proc.devRef .tc main_v48) (ix2 a k)) (fun n => (m ((c.tc : Thread nD τ).loc main_arg13)) (ix1 n)) (fun n => (m ((c.tc : Thread nD τ).loc main_arg14)) (ix1 n))) (fun k n => (m ((c.tc : Thread nD τ).loc main_arg4)) (ix2 k n)) (fun n => (m ((c.tc : Thread nD τ).loc main_arg5)) (ix1 n)) (fun k n => (m ((c.tc : Thread nD τ).loc main_arg12)) (ix2 k n))) := funext fun k => by
  rw [WC_v87, hostFeat_apply]
  exact congrArg (fun x => mv x (fun k j => (m ((c.tc : Thread nD τ).loc main_arg12)) (ix2 j k)) k) (funext fun n => (hostLin_apply _ _ _ _ _ a n).trans
    (congrArg (fun x => lin x (fun k n => (m ((c.tc : Thread nD τ).loc main_arg4)) (ix2 k n)) (fun n => (m ((c.tc : Thread nD τ).loc main_arg5)) (ix1 n)) n) (row_h1 m c a)))

/-- The key features of every row. -/
theorem row_kf : (fun a k => WC m c (Proc.devRef .tc main_v89) (ix2 a k)) = (fun a => featRow (h1Row (fun k => (m ((c.tc : Thread nD τ).loc main_arg0)) (ix2 a k)) (fun k => WA m c (Proc.devRef .tc main_v48) (ix2 a k)) (fun n => (m ((c.tc : Thread nD τ).loc main_arg13)) (ix1 n)) (fun n => (m ((c.tc : Thread nD τ).loc main_arg14)) (ix1 n))) (fun k n => (m ((c.tc : Thread nD τ).loc main_arg6)) (ix2 k n)) (fun n => (m ((c.tc : Thread nD τ).loc main_arg7)) (ix1 n)) (fun k n => (m ((c.tc : Thread nD τ).loc main_arg12)) (ix2 k n))) := funext fun a => funext fun k => by
  rw [WC_v89, hostFeat_apply]
  exact congrArg (fun x => mv x (fun k j => (m ((c.tc : Thread nD τ).loc main_arg12)) (ix2 j k)) k) (funext fun n => (hostLin_apply _ _ _ _ _ a n).trans
    (congrArg (fun x => lin x (fun k n => (m ((c.tc : Thread nD τ).loc main_arg6)) (ix2 k n)) (fun n => (m ((c.tc : Thread nD τ).loc main_arg7)) (ix1 n)) n) (row_h1 m c a)))

variable (i : Fin 8192)

/-- Row `i` of the attention weights. -/
theorem row_w : (fun n => WE m c (Proc.devRef .tc main_v105) (ix2 i n)) = attRow (featRow (h1Row (fun k => (m ((c.tc : Thread nD τ).loc main_arg0)) (ix2 i k)) (fun k => WA m c (Proc.devRef .tc main_v48) (ix2 i k)) (fun n => (m ((c.tc : Thread nD τ).loc main_arg13)) (ix1 n)) (fun n => (m ((c.tc : Thread nD τ).loc main_arg14)) (ix1 n))) (fun k n => (m ((c.tc : Thread nD τ).loc main_arg4)) (ix2 k n)) (fun n => (m ((c.tc : Thread nD τ).loc main_arg5)) (ix1 n)) (fun k n => (m ((c.tc : Thread nD τ).loc main_arg12)) (ix2 k n))) (fun a => featRow (h1Row (fun k => (m ((c.tc : Thread nD τ).loc main_arg0)) (ix2 a k)) (fun k => WA m c (Proc.devRef .tc main_v48) (ix2 a k)) (fun n => (m ((c.tc : Thread nD τ).loc main_arg13)) (ix1 n)) (fun n => (m ((c.tc : Thread nD τ).loc main_arg14)) (ix1 n))) (fun k n => (m ((c.tc : Thread nD τ).loc main_arg6)) (ix2 k n)) (fun n => (m ((c.tc : Thread nD τ).loc main_arg7)) (ix1 n)) (fun k n => (m ((c.tc : Thread nD τ).loc main_arg12)) (ix2 k n))) := funext fun n => by
  unfold attRow
  rw [WE_v105, hostSoftmax_apply]
  refine congrArg (fun s => softmax s n) (funext fun p => ?_)
  rw [WD_v94, hostScore_apply]
  exact congrArg₂ (fun x y => score x y p) (row_qf m c i) (row_kf m c)

/-- Row `i` of the residual sum after the attention. -/
theorem row_x2 : (fun q => WF m c (Proc.devRef .tc main_v111) (ix2 i q)) = (x2Row (h1Row (fun k => (m ((c.tc : Thread nD τ).loc main_arg0)) (ix2 i k)) (fun k => WA m c (Proc.devRef .tc main_v48) (ix2 i k)) (fun n => (m ((c.tc : Thread nD τ).loc main_arg13)) (ix1 n)) (fun n => (m ((c.tc : Thread nD τ).loc main_arg14)) (ix1 n))) (featRow (h1Row (fun k => (m ((c.tc : Thread nD τ).loc main_arg0)) (ix2 i k)) (fun k => WA m c (Proc.devRef .tc main_v48) (ix2 i k)) (fun n => (m ((c.tc : Thread nD τ).loc main_arg13)) (ix1 n)) (fun n => (m ((c.tc : Thread nD τ).loc main_arg14)) (ix1 n))) (fun k n => (m ((c.tc : Thread nD τ).loc main_arg4)) (ix2 k n)) (fun n => (m ((c.tc : Thread nD τ).loc main_arg5)) (ix1 n)) (fun k n => (m ((c.tc : Thread nD τ).loc main_arg12)) (ix2 k n))) (fun a => featRow (h1Row (fun k => (m ((c.tc : Thread nD τ).loc main_arg0)) (ix2 a k)) (fun k => WA m c (Proc.devRef .tc main_v48) (ix2 a k)) (fun n => (m ((c.tc : Thread nD τ).loc main_arg13)) (ix1 n)) (fun n => (m ((c.tc : Thread nD τ).loc main_arg14)) (ix1 n))) (fun k n => (m ((c.tc : Thread nD τ).loc main_arg6)) (ix2 k n)) (fun n => (m ((c.tc : Thread nD τ).loc main_arg7)) (ix1 n)) (fun k n => (m ((c.tc : Thread nD τ).loc main_arg12)) (ix2 k n))) (fun a => lin (h1Row (fun k => (m ((c.tc : Thread nD τ).loc main_arg0)) (ix2 a k)) (fun k => WA m c (Proc.devRef .tc main_v48) (ix2 a k)) (fun n => (m ((c.tc : Thread nD τ).loc main_arg13)) (ix1 n)) (fun n => (m ((c.tc : Thread nD τ).loc main_arg14)) (ix1 n))) (fun k n => (m ((c.tc : Thread nD τ).loc main_arg8)) (ix2 k n)) (fun n => (m ((c.tc : Thread nD τ).loc main_arg9)) (ix1 n))) (fun k n => (m ((c.tc : Thread nD τ).loc main_arg10)) (ix2 k n)) (fun n => (m ((c.tc : Thread nD τ).loc main_arg11)) (ix1 n))) := funext fun q => by
  rw [WF_v111, addf_apply, hostAtt_apply]
  exact congrArg₂ (fun a b : EReal => a + b) (congrFun (row_h1 m c i) q)
    (congrArg₂ (fun w v => lin (mv w v) (fun k n => (m ((c.tc : Thread nD τ).loc main_arg10)) (ix2 k n)) (fun n => (m ((c.tc : Thread nD τ).loc main_arg11)) (ix1 n)) q) (row_w m c i) (row_v m c))

/-- Row `i` of the second normalisation. -/
theorem row_h2 : (fun q => WG m c (Proc.devRef .tc main_v135) (ix2 i q)) = (ln (x2Row (h1Row (fun k => (m ((c.tc : Thread nD τ).loc main_arg0)) (ix2 i k)) (fun k => WA m c (Proc.devRef .tc main_v48) (ix2 i k)) (fun n => (m ((c.tc : Thread nD τ).loc main_arg13)) (ix1 n)) (fun n => (m ((c.tc : Thread nD τ).loc main_arg14)) (ix1 n))) (featRow (h1Row (fun k => (m ((c.tc : Thread nD τ).loc main_arg0)) (ix2 i k)) (fun k => WA m c (Proc.devRef .tc main_v48) (ix2 i k)) (fun n => (m ((c.tc : Thread nD τ).loc main_arg13)) (ix1 n)) (fun n => (m ((c.tc : Thread nD τ).loc main_arg14)) (ix1 n))) (fun k n => (m ((c.tc : Thread nD τ).loc main_arg4)) (ix2 k n)) (fun n => (m ((c.tc : Thread nD τ).loc main_arg5)) (ix1 n)) (fun k n => (m ((c.tc : Thread nD τ).loc main_arg12)) (ix2 k n))) (fun a => featRow (h1Row (fun k => (m ((c.tc : Thread nD τ).loc main_arg0)) (ix2 a k)) (fun k => WA m c (Proc.devRef .tc main_v48) (ix2 a k)) (fun n => (m ((c.tc : Thread nD τ).loc main_arg13)) (ix1 n)) (fun n => (m ((c.tc : Thread nD τ).loc main_arg14)) (ix1 n))) (fun k n => (m ((c.tc : Thread nD τ).loc main_arg6)) (ix2 k n)) (fun n => (m ((c.tc : Thread nD τ).loc main_arg7)) (ix1 n)) (fun k n => (m ((c.tc : Thread nD τ).loc main_arg12)) (ix2 k n))) (fun a => lin (h1Row (fun k => (m ((c.tc : Thread nD τ).loc main_arg0)) (ix2 a k)) (fun k => WA m c (Proc.devRef .tc main_v48) (ix2 a k)) (fun n => (m ((c.tc : Thread nD τ).loc main_arg13)) (ix1 n)) (fun n => (m ((c.tc : Thread nD τ).loc main_arg14)) (ix1 n))) (fun k n => (m ((c.tc : Thread nD τ).loc main_arg8)) (ix2 k n)) (fun n => (m ((c.tc : Thread nD τ).loc main_arg9)) (ix1 n))) (fun k n => (m ((c.tc : Thread nD τ).loc main_arg10)) (ix2 k n)) (fun n => (m ((c.tc : Thread nD τ).loc main_arg11)) (ix1 n))) (fun n => (m ((c.tc : Thread nD τ).loc main_arg15)) (ix1 n)) (fun n => (m ((c.tc : Thread nD τ).loc main_arg16)) (ix1 n))) := funext fun q => by
  rw [WG_v135, hostLN_apply]
  exact congrArg (fun x => ln x (fun n => (m ((c.tc : Thread nD τ).loc main_arg15)) (ix1 n)) (fun n => (m ((c.tc : Thread nD τ).loc main_arg16)) (ix1 n)) q) (row_x2 m c i)

/-- Row `i` of the residual sum after the rectified network. -/
theorem row_x3 : (fun q => WH m c (Proc.devRef .tc main_v146) (ix2 i q)) = (x3Row (ln (x2Row (h1Row (fun k => (m ((c.tc : Thread nD τ).loc main_arg0)) (ix2 i k)) (fun k => WA m c (Proc.devRef .tc main_v48) (ix2 i k)) (fun n => (m ((c.tc : Thread nD τ).loc main_arg13)) (ix1 n)) (fun n => (m ((c.tc : Thread nD τ).loc main_arg14)) (ix1 n))) (featRow (h1Row (fun k => (m ((c.tc : Thread nD τ).loc main_arg0)) (ix2 i k)) (fun k => WA m c (Proc.devRef .tc main_v48) (ix2 i k)) (fun n => (m ((c.tc : Thread nD τ).loc main_arg13)) (ix1 n)) (fun n => (m ((c.tc : Thread nD τ).loc main_arg14)) (ix1 n))) (fun k n => (m ((c.tc : Thread nD τ).loc main_arg4)) (ix2 k n)) (fun n => (m ((c.tc : Thread nD τ).loc main_arg5)) (ix1 n)) (fun k n => (m ((c.tc : Thread nD τ).loc main_arg12)) (ix2 k n))) (fun a => featRow (h1Row (fun k => (m ((c.tc : Thread nD τ).loc main_arg0)) (ix2 a k)) (fun k => WA m c (Proc.devRef .tc main_v48) (ix2 a k)) (fun n => (m ((c.tc : Thread nD τ).loc main_arg13)) (ix1 n)) (fun n => (m ((c.tc : Thread nD τ).loc main_arg14)) (ix1 n))) (fun k n => (m ((c.tc : Thread nD τ).loc main_arg6)) (ix2 k n)) (fun n => (m ((c.tc : Thread nD τ).loc main_arg7)) (ix1 n)) (fun k n => (m ((c.tc : Thread nD τ).loc main_arg12)) (ix2 k n))) (fun a => lin (h1Row (fun k => (m ((c.tc : Thread nD τ).loc main_arg0)) (ix2 a k)) (fun k => WA m c (Proc.devRef .tc main_v48) (ix2 a k)) (fun n => (m ((c.tc : Thread nD τ).loc main_arg13)) (ix1 n)) (fun n => (m ((c.tc : Thread nD τ).loc main_arg14)) (ix1 n))) (fun k n => (m ((c.tc : Thread nD τ).loc main_arg8)) (ix2 k n)) (fun n => (m ((c.tc : Thread nD τ).loc main_arg9)) (ix1 n))) (fun k n => (m ((c.tc : Thread nD τ).loc main_arg10)) (ix2 k n)) (fun n => (m ((c.tc : Thread nD τ).loc main_arg11)) (ix1 n))) (fun n => (m ((c.tc : Thread nD τ).loc main_arg15)) (ix1 n)) (fun n => (m ((c.tc : Thread nD τ).loc main_arg16)) (ix1 n))) (fun k n => (m ((c.tc : Thread nD τ).loc main_arg19)) (ix2 k n)) (fun n => (m ((c.tc : Thread nD τ).loc main_arg20)) (ix1 n)) (fun k n => (m ((c.tc : Thread nD τ).loc main_arg21)) (ix2 k n)) (fun n => (m ((c.tc : Thread nD τ).loc main_arg22)) (ix1 n))) := funext fun q => by
  rw [WH_v146, addf_apply, hostFF_apply]
  exact congrArg₂ (fun a b : EReal => a + b) (congrFun (row_h2 m c i) q)
    (congrArg (fun x => lin (fun c' => relu (lin x (fun k n => (m ((c.tc : Thread nD τ).loc main_arg19)) (ix2 k n)) (fun n => (m ((c.tc : Thread nD τ).loc main_arg20)) (ix1 n)) c')) (fun k n => (m ((c.tc : Thread nD τ).loc main_arg21)) (ix2 k n)) (fun n => (m ((c.tc : Thread nD τ).loc main_arg22)) (ix1 n)) q) (row_h2 m c i))

end Chain

/-- Entry `(i, j)` of the reference's result is entry `(i, j)` of the layer applied to the features, the
    neighbourhood aggregate the first stretch leaves, and the parameters. -/
theorem ref_result (m : (ℓ : Loc nD τ sig) → Buf (Elt Ideal) ℓ) (c : Dev nD) (i : Fin 8192) (j : Fin 256) :
    after (ops (F := Ideal)) (launchContents m c) (Proc.devRef .tc main_v170) (ix2 i j)
      = layer (fun a k => (m ((c.tc : Thread nD τ).loc main_arg0)) (ix2 a k)) (fun a k => after (opsA (F := Ideal)) (launchContents m c) (Proc.devRef .tc main_v48) (ix2 a k))
          (fun k n => (m ((c.tc : Thread nD τ).loc main_arg4)) (ix2 k n)) (fun n => (m ((c.tc : Thread nD τ).loc main_arg5)) (ix1 n)) (fun k n => (m ((c.tc : Thread nD τ).loc main_arg6)) (ix2 k n)) (fun n => (m ((c.tc : Thread nD τ).loc main_arg7)) (ix1 n)) (fun k n => (m ((c.tc : Thread nD τ).loc main_arg8)) (ix2 k n)) (fun n => (m ((c.tc : Thread nD τ).loc main_arg9)) (ix1 n))
          (fun k n => (m ((c.tc : Thread nD τ).loc main_arg10)) (ix2 k n)) (fun n => (m ((c.tc : Thread nD τ).loc main_arg11)) (ix1 n)) (fun k n => (m ((c.tc : Thread nD τ).loc main_arg12)) (ix2 k n))
          (fun n => (m ((c.tc : Thread nD τ).loc main_arg13)) (ix1 n)) (fun n => (m ((c.tc : Thread nD τ).loc main_arg14)) (ix1 n)) (fun n => (m ((c.tc : Thread nD τ).loc main_arg15)) (ix1 n)) (fun n => (m ((c.tc : Thread nD τ).loc main_arg16)) (ix1 n)) (fun n => (m ((c.tc : Thread nD τ).loc main_arg17)) (ix1 n)) (fun n => (m ((c.tc : Thread nD τ).loc main_arg18)) (ix1 n))
          (fun k n => (m ((c.tc : Thread nD τ).loc main_arg19)) (ix2 k n)) (fun n => (m ((c.tc : Thread nD τ).loc main_arg20)) (ix1 n)) (fun k n => (m ((c.tc : Thread nD τ).loc main_arg21)) (ix2 k n)) (fun n => (m ((c.tc : Thread nD τ).loc main_arg22)) (ix1 n)) i j := by
  rw [ops_after, WI_v170, hostLN_apply]
  exact congrArg (fun x => ln x (fun n => (m ((c.tc : Thread nD τ).loc main_arg17)) (ix1 n)) (fun n => (m ((c.tc : Thread nD τ).loc main_arg18)) (ix1 n)) j) (row_x3 m c i)

end Cert.RefLayer

end
-- ==== Proof.lean ====
/-
  One graph-transformer layer: a Pallas kernel pair against its jnp reference, equal at the ideal values.

  Both programs first form, on the host and by the same 63 operations, the neighbourhood aggregate of the node
  features. The kernel then runs two regions: the first normalises `h + aggregate` row by row and projects it to
  queries, keys and values, the queries and keys further multiplied by the transposed feature matrix (blocks of 1024
  rows); the second, per block of 128 query rows, takes the scaled products with ALL key rows, their softmax, the
  attended values through the output map, a residual normalisation, a two-layer rectified network and a last
  residual normalisation. The reference does the same on whole arrays. Every step acts on one row at a time, so both
  results are, entry by entry, one function `Spec.layer` of the arguments and the aggregate:

  * the kernel's result is what the second region's write-backs leave (`RunValue.run_value`), a whole-array function
    of that region's inputs (`AttnArr.final`), whose first four are the first region's outputs (`ProjArr.final11` …
    `final14`), read at an index in `KValue.result_layer`;
  * the reference's result is the fold of its 205 host operations (`RefRun.run_after`), read stretch by stretch in
    `RefLayer.ref_result`; the one place the two texts differ in arithmetic is the scale of the scores, a product with
    the word of 1/16 against a quotient by the square root of 256: equal on every extended real;
  * the aggregate is the same term in both programs (`Front.aggregate_eq`).

  No law used needs the inputs finite, so the precondition is never opened. The idealization pass rewrote nothing:
  `preserves` is trivial. The frames of the two kernels are the generated ones; the reference's frame is its run with
  the result dropped.
-/
import proofs.«132447_j24799141167762_2_alg».proof.Defs
import proofs.«132447_j24799141167762_2_alg».proof.Proof.Gen.Kernel
import proofs.«132447_j24799141167762_2_alg».proof.Proof.Gen.Kernel.Skeleton
import proofs.«132447_j24799141167762_2_alg».proof.Proof.Gen.Kernel.Launch
import proofs.«132447_j24799141167762_2_alg».proof.Proof.Gen.Kernel.Points
import proofs.«132447_j24799141167762_2_alg».proof.Proof.Gen.Kernel.Frame
import proofs.«132447_j24799141167762_2_alg».proof.Proof.Gen.KernelIdeal
import proofs.«132447_j24799141167762_2_alg».proof.Proof.Gen.KernelIdeal.Skeleton
import proofs.«132447_j24799141167762_2_alg».proof.Proof.Gen.KernelIdeal.Launch
import proofs.«132447_j24799141167762_2_alg».proof.Proof.Gen.KernelIdeal.Points
import proofs.«132447_j24799141167762_2_alg».proof.Proof.Gen.KernelIdeal.Frame
import proofs.«132447_j24799141167762_2_alg».proof.Proof.Gen.ReferenceIdeal
import proofs.«132447_j24799141167762_2_alg».proof.Proof.Gen.Pre_finite_inputs
import proofs.«132447_j24799141167762_2_alg».proof.Proof.KValue
import proofs.«132447_j24799141167762_2_alg».proof.Proof.Front
import proofs.«132447_j24799141167762_2_alg».proof.Proof.RefLayer
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Spec

namespace Claims

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run, every final buffer the fold of the operations over the launch
    contents, read at the argument arrays, which no operation writes. -/
theorem frame_ri : Cert.frame_ReferenceIdeal := fun m ρ _ =>
  (θ_run Cert.ReferenceIdeal.defs _ _).mono (fun r h c =>
    ⟨(h c Cert.ReferenceIdeal.main_arg0).trans (Cert.RefLayer.ref_arg0 m c),
     (h c Cert.ReferenceIdeal.main_arg1).trans (Cert.RefLayer.ref_arg1 m c),
     (h c Cert.ReferenceIdeal.main_arg2).trans (Cert.RefLayer.ref_arg2 m c),
     (h c Cert.ReferenceIdeal.main_arg3).trans (Cert.RefLayer.ref_arg3 m c),
     (h c Cert.ReferenceIdeal.main_arg4).trans (Cert.RefLayer.ref_arg4 m c),
     (h c Cert.ReferenceIdeal.main_arg5).trans (Cert.RefLayer.ref_arg5 m c),
     (h c Cert.ReferenceIdeal.main_arg6).trans (Cert.RefLayer.ref_arg6 m c),
     (h c Cert.ReferenceIdeal.main_arg7).trans (Cert.RefLayer.ref_arg7 m c),
     (h c Cert.ReferenceIdeal.main_arg8).trans (Cert.RefLayer.ref_arg8 m c),
     (h c Cert.ReferenceIdeal.main_arg9).trans (Cert.RefLayer.ref_arg9 m c),
     (h c Cert.ReferenceIdeal.main_arg10).trans (Cert.RefLayer.ref_arg10 m c),
     (h c Cert.ReferenceIdeal.main_arg11).trans (Cert.RefLayer.ref_arg11 m c),
     (h c Cert.ReferenceIdeal.main_arg12).trans (Cert.RefLayer.ref_arg12 m c),
     (h c Cert.ReferenceIdeal.main_arg13).trans (Cert.RefLayer.ref_arg13 m c),
     (h c Cert.ReferenceIdeal.main_arg14).trans (Cert.RefLayer.ref_arg14 m c),
     (h c Cert.ReferenceIdeal.main_arg15).trans (Cert.RefLayer.ref_arg15 m c),
     (h c Cert.ReferenceIdeal.main_arg16).trans (Cert.RefLayer.ref_arg16 m c),
     (h c Cert.ReferenceIdeal.main_arg17).trans (Cert.RefLayer.ref_arg17 m c),
     (h c Cert.ReferenceIdeal.main_arg18).trans (Cert.RefLayer.ref_arg18 m c),
     (h c Cert.ReferenceIdeal.main_arg19).trans (Cert.RefLayer.ref_arg19 m c),
     (h c Cert.ReferenceIdeal.main_arg20).trans (Cert.RefLayer.ref_arg20 m c),
     (h c Cert.ReferenceIdeal.main_arg21).trans (Cert.RefLayer.ref_arg21 m c),
     (h c Cert.ReferenceIdeal.main_arg22).trans (Cert.RefLayer.ref_arg22 m c)⟩)
    (Cert.ReferenceIdeal.RefRun.run_after (F := Ideal) m ρ)

theorem preserves : Cert.preserves_Kernel_KernelIdeal := trivial

set_option maxHeartbeats 8000000 in
/-- From memories that agree on the arguments both idealized programs run and end with equal results: entry by entry
    both are the layer of the arguments and of the one neighbourhood aggregate. -/
theorem algebraic : Cert.algebraic_KernelIdeal_ReferenceIdeal := by
  intro m ρ m' ρ' _ hagree
  refine ⟨fun c => Cert.KernelIdeal.Gen.W6 m ρ c (Proc.devRef .tc Cert.KernelIdeal.main_v63),
    Cert.KernelIdeal.RunValue.run_value (F := Ideal) m ρ, ?_⟩
  refine (θ_run Cert.ReferenceIdeal.defs _ _).mono (fun r h c => ?_) (Cert.ReferenceIdeal.RefRun.run_after (F := Ideal) m' ρ')
  obtain ⟨g0, g1, g2, g3, g4, g5, g6, g7, g8, g9, g10, g11, g12, g13, g14, g15, g16, g17, g18, g19, g20, g21, g22⟩ := hagree c
  refine ⟨?_,
     (h c Cert.ReferenceIdeal.main_arg0).trans (Cert.RefLayer.ref_arg0 m' c),
     (h c Cert.ReferenceIdeal.main_arg1).trans (Cert.RefLayer.ref_arg1 m' c),
     (h c Cert.ReferenceIdeal.main_arg2).trans (Cert.RefLayer.ref_arg2 m' c),
     (h c Cert.ReferenceIdeal.main_arg3).trans (Cert.RefLayer.ref_arg3 m' c),
     (h c Cert.ReferenceIdeal.main_arg4).trans (Cert.RefLayer.ref_arg4 m' c),
     (h c Cert.ReferenceIdeal.main_arg5).trans (Cert.RefLayer.ref_arg5 m' c),
     (h c Cert.ReferenceIdeal.main_arg6).trans (Cert.RefLayer.ref_arg6 m' c),
     (h c Cert.ReferenceIdeal.main_arg7).trans (Cert.RefLayer.ref_arg7 m' c),
     (h c Cert.ReferenceIdeal.main_arg8).trans (Cert.RefLayer.ref_arg8 m' c),
     (h c Cert.ReferenceIdeal.main_arg9).trans (Cert.RefLayer.ref_arg9 m' c),
     (h c Cert.ReferenceIdeal.main_arg10).trans (Cert.RefLayer.ref_arg10 m' c),
     (h c Cert.ReferenceIdeal.main_arg11).trans (Cert.RefLayer.ref_arg11 m' c),
     (h c Cert.ReferenceIdeal.main_arg12).trans (Cert.RefLayer.ref_arg12 m' c),
     (h c Cert.ReferenceIdeal.main_arg13).trans (Cert.RefLayer.ref_arg13 m' c),
     (h c Cert.ReferenceIdeal.main_arg14).trans (Cert.RefLayer.ref_arg14 m' c),
     (h c Cert.ReferenceIdeal.main_arg15).trans (Cert.RefLayer.ref_arg15 m' c),
     (h c Cert.ReferenceIdeal.main_arg16).trans (Cert.RefLayer.ref_arg16 m' c),
     (h c Cert.ReferenceIdeal.main_arg17).trans (Cert.RefLayer.ref_arg17 m' c),
     (h c Cert.ReferenceIdeal.main_arg18).trans (Cert.RefLayer.ref_arg18 m' c),
     (h c Cert.ReferenceIdeal.main_arg19).trans (Cert.RefLayer.ref_arg19 m' c),
     (h c Cert.ReferenceIdeal.main_arg20).trans (Cert.RefLayer.ref_arg20 m' c),
     (h c Cert.ReferenceIdeal.main_arg21).trans (Cert.RefLayer.ref_arg21 m' c),
     (h c Cert.ReferenceIdeal.main_arg22).trans (Cert.RefLayer.ref_arg22 m' c)⟩
  refine (h c Cert.ReferenceIdeal.main_v170).trans (funext fun I => ?_)
  obtain ⟨i, j, rfl⟩ : ∃ (i : Fin 8192) (j : Fin 256), I = ix2 i j := ⟨I 0, I 1, eq_ix2 I⟩
  refine (Cert.RefLayer.ref_result m' c i j).trans ((Cert.KernelIdeal.KValue.result_layer m ρ c i j).trans ?_).symm
  rw [Cert.Front.aggregate_eq m ρ m' c g0 g1 g2 g3, g0, g4, g5, g6, g7, g8, g9, g10, g11, g12, g13, g14, g15, g16, g17, g18,
    g19, g20, g21, g22]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
